-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S2048x256 : Shape := ⟨2, ![2048, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel

variable [Facts]

def fn {F : FTy → Type} [FloatOps F] (main_arg0 : FVec F S2048x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  main_v3
-- ==== Kernel.lean ====
abbrev S512x256 : Shape := ⟨2, ![512, 256]⟩
abbrev S1x256 : Shape := ⟨2, ![1, 256]⟩
abbrev S4x1x256 : Shape := ⟨3, ![4, 1, 256]⟩
abbrev S3 : Shape := ⟨1, ![3]⟩
abbrev S_ : Shape := ⟨0, ![]⟩
abbrev S256 : Shape := ⟨1, ![256]⟩
abbrev S1x1x256 : Shape := ⟨3, ![1, 1, 256]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S4x1x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  { ofTc nBuf bufTy 1 8 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v50 : BitVec 32 := Scalar.addi v2 c2_i32_32
  let c4_i32_33 : BitVec 32 := 4#32
  let c0_i32_34 : BitVec 32 := 0#32
  let v51 : BitVec 1 := Scalar.cmpi .eq c4_i32_33 c0_i32_34
  let c1_i32_35 : BitVec 32 := 1#32
  let v52 : BitVec 32 := Scalar.select v51 c1_i32_35 c4_i32_33
  let v53 : BitVec 32 := Scalar.remsi v50 v52
  let c0_i32_37 : BitVec 32 := 0#32
  let v55 : BitVec 1 := Scalar.cmpi .slt v53 c0_i32_37
  let c0_i32_38 : BitVec 32 := 0#32
  let v56 : BitVec 1 := Scalar.cmpi .slt v52 c0_i32_38
  let v57 : BitVec 1 := Scalar.xori v55 v56
  let c0_i32_36 : BitVec 32 := 0#32
  let v54 : BitVec 1 := Scalar.cmpi .ne v53 c0_i32_36
  let v58 : BitVec 1 := Scalar.andi v57 v54
  let v59 : BitVec 32 := Scalar.addi v53 v52
  let v60 : BitVec 32 := Scalar.select v58 v59 v53
  let c1_i32_43 : BitVec 32 := 1#32
  let v61 : BitVec 32 := Scalar.muli v60 c1_i32_43
  let v62 : BitVec 32 := Scalar.addi c0_i32_44 v61
  v62.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_49 : BitVec 32 := 1#32
  let v71 : BitVec 32 := Scalar.addi v2 c1_i32_49
  let c4_i32_50 : BitVec 32 := 4#32
  let c0_i32_51 : BitVec 32 := 0#32
  let v72 : BitVec 1 := Scalar.cmpi .eq c4_i32_50 c0_i32_51
  let c1_i32_52 : BitVec 32 := 1#32
  let v73 : BitVec 32 := Scalar.select v72 c1_i32_52 c4_i32_50
  let v74 : BitVec 32 := Scalar.remsi v71 v73
  let c0_i32_54 : BitVec 32 := 0#32
  let v76 : BitVec 1 := Scalar.cmpi .slt v74 c0_i32_54
  let c0_i32_55 : BitVec 32 := 0#32
  let v77 : BitVec 1 := Scalar.cmpi .slt v73 c0_i32_55
  let v78 : BitVec 1 := Scalar.xori v76 v77
  let c0_i32_53 : BitVec 32 := 0#32
  let v75 : BitVec 1 := Scalar.cmpi .ne v74 c0_i32_53
  let v79 : BitVec 1 := Scalar.andi v78 v75
  let v80 : BitVec 32 := Scalar.addi v74 v73
  let v81 : BitVec 32 := Scalar.select v79 v80 v74
  let c1_i32_60 : BitVec 32 := 1#32
  let v82 : BitVec 32 := Scalar.muli v81 c1_i32_60
  let v83 : BitVec 32 := Scalar.addi c0_i32_61 v82
  v83.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_66 : BitVec 32 := 3#32
  let v92 : BitVec 32 := Scalar.addi v2 c3_i32_66
  let c4_i32_67 : BitVec 32 := 4#32
  let c0_i32_68 : BitVec 32 := 0#32
  let v93 : BitVec 1 := Scalar.cmpi .eq c4_i32_67 c0_i32_68
  let c1_i32_69 : BitVec 32 := 1#32
  let v94 : BitVec 32 := Scalar.select v93 c1_i32_69 c4_i32_67
  let v95 : BitVec 32 := Scalar.remsi v92 v94
  let c0_i32_71 : BitVec 32 := 0#32
  let v97 : BitVec 1 := Scalar.cmpi .slt v95 c0_i32_71
  let c0_i32_72 : BitVec 32 := 0#32
  let v98 : BitVec 1 := Scalar.cmpi .slt v94 c0_i32_72
  let v99 : BitVec 1 := Scalar.xori v97 v98
  let c0_i32_70 : BitVec 32 := 0#32
  let v96 : BitVec 1 := Scalar.cmpi .ne v95 c0_i32_70
  let v100 : BitVec 1 := Scalar.andi v99 v96
  let v101 : BitVec 32 := Scalar.addi v95 v94
  let v102 : BitVec 32 := Scalar.select v100 v101 v95
  let c1_i32_77 : BitVec 32 := 1#32
  let v103 : BitVec 32 := Scalar.muli v102 c1_i32_77
  let v104 : BitVec 32 := Scalar.addi c0_i32_78 v103
  v104.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S256 : S512x256.Reduces [0] S256
  shapeCasts_S256_S1x256 : S256.ShapeCasts S1x256
  inb_S4x1x256_S1x1x256_0_0_0 : ∀ a, (![0, 0, 0] : Fin 3 → Nat) a + S1x1x256.size a ≤ S4x1x256.size a
  h_S1x1x256 : 0 < S1x1x256.numel
  shapeCasts_S1x1x256_S1x256 : S1x1x256.ShapeCasts S1x256
  shapeCasts_S1x256_S1x1x256 : S1x256.ShapeCasts S1x1x256
  hamt_3 : (3#32 : BitVec 32).msb = false
  inb_S3_S1_1 : ∀ a, (![1] : Fin 1 → Nat) a + S1.size a ≤ S3.size a
  squeezes_S1_S_ : S1.Squeezes S_
  inb_S4x1x256_S1x1x256_2_0_0 : ∀ a, (![2, 0, 0] : Fin 3 → Nat) a + S1x1x256.size a ≤ S4x1x256.size a
  squeezes_S1x1x256_S1x256 : S1x1x256.Squeezes S1x256
  inb_S3_S1_0 : ∀ a, (![0] : Fin 1 → Nat) a + S1.size a ≤ S3.size a
  inb_S3_S1_2 : ∀ a, (![2] : Fin 1 → Nat) a + S1.size a ≤ S3.size a
  inb_S4x1x256_S1x1x256_3_0_0 : ∀ a, (![3, 0, 0] : Fin 3 → Nat) a + S1x1x256.size a ≤ S4x1x256.size a
  inb_S4x1x256_S1x1x256_1_0_0 : ∀ a, (![1, 0, 0] : Fin 3 → Nat) a + S1x1x256.size a ≤ S4x1x256.size a
  inb_S1x256_S1x256_0_0 : ∀ a, (![0, 0] : Fin 2 → Nat) a + S1x256.size a ≤ S1x256.size a
  h_S1x256 : 0 < S1x256.numel
  hcc0_scratch1 : 2 + S3.numel ≤ 8
  hcc0_scratch2 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch1 : DmaSems sig S3 := SemArray.consecutive 2 S3 hcc0_scratch1
abbrev cc0_scratch2 : DmaSems sig S3 := SemArray.consecutive 5 S3 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x256 : Shape := ⟨2, ![2048, 256]⟩
abbrev S_ : Shape := ⟨0, ![]⟩
abbrev S256 : Shape := ⟨1, ![256]⟩
abbrev S1x256 : Shape := ⟨2, ![1, 256]⟩

abbrev nBuf : Space → Nat
  | .hbm => 7
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S_, .f32⟩
  | .hbm, ⟨2, _⟩ => ⟨S256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S2048x256_S256_d0 : S2048x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)

variable [Facts₀]

class Facts : Prop extends Facts₀ where

variable [Facts]
-- ==== Proof.KernelCells.lean ====
/-
  One kernel on a ring of four devices. Device c first tells each of the three other devices, on the runtime's
  barrier semaphore, that it has entered; it sums the 512 rows of its block of x into row 0 of a four-row scratch
  buffer; it waits for the three devices' signals; it copies row 0 into row 4 - d of device c + d for d = 2, 1, 3;
  it waits for its three copies to have left and for the three rows sent to it to have landed; and it writes the sum
  of the four rows times 1/2048.

  This module: the ring, the semaphore cells (seven a device: the barrier cell, three departure cells, three arrival
  cells), the four rows of the scratch buffer as element sets, the values, and the schedule of the cells' rounds.
  Row s of device c ends holding the column sums of the block of device c + s.
-/
import proofs.«900376_g7700000000000377_dist_mean_ax0_shard0_i_m512_n256_v7x_i4_f32_1_alg».proof.Proof.Gen.Kernel
import proofs.«900376_g7700000000000377_dist_mean_ax0_shard0_i_m512_n256_v7x_i4_f32_1_alg».proof.Proof.Gen.Kernel.Skeleton
import proofs.«900376_g7700000000000377_dist_mean_ax0_shard0_i_m512_n256_v7x_i4_f32_1_alg».proof.Proof.Gen.Kernel.Launch
import proofs.«900376_g7700000000000377_dist_mean_ax0_shard0_i_m512_n256_v7x_i4_f32_1_alg».proof.Proof.Gen.Kernel.Points
import Idealize.ShloMosaic.Lib.Pipeline.Launch
import Idealize.ShloMosaic.Lib.Pipeline.Kit
import Idealize.ShloMosaic.Lib.Pipeline.Value
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the ring's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The ring -/

/-- The device `k` places after `c` on the ring of four. -/
def sh (c : Dev nD) (k : ℕ) : Dev nD := ⟨(c.val + k) % 4, Nat.mod_lt _ (by decide)⟩

theorem sh_sh (c : Dev nD) (j k : ℕ) : sh (sh c j) k = sh c (j + k) := Fin.ext (by simp only [sh]; omega)
theorem sh_four (c : Dev nD) : sh c 4 = c := Fin.ext (by have hc : c.val < 4 := c.isLt; simp only [sh]; omega)
theorem sh_zero (c : Dev nD) : sh c 0 = c := Fin.ext (by have hc : c.val < 4 := c.isLt; simp only [sh]; omega)
theorem sh_inj (k : ℕ) {a b : Dev nD} (h : sh a k = sh b k) : a = b := by
  have := congrArg Fin.val h; have ha : a.val < 4 := a.isLt; have hb : b.val < 4 := b.isLt; simp only [sh] at this; exact Fin.ext (by omega)

/-- The shift by `k` as a permutation of the devices (`k ≤ 4`). -/
def shE (k : ℕ) (hk : k ≤ 4) : Dev nD ≃ Dev nD :=
  ⟨fun c => sh c k, fun c => sh c (4 - k), fun c => by show sh (sh c k) (4 - k) = c; rw [sh_sh, Nat.add_sub_cancel' hk, sh_four],
    fun c => by show sh (sh c (4 - k)) k = c; rw [sh_sh, Nat.sub_add_cancel hk, sh_four]⟩

/-- The kernel's `device_id` chains: the three signals name c + 1, c + 2, c + 3; the three copies c + 2, c + 1, c + 3. -/
theorem dev1_eq : ∀ c : Dev nD, (⟨k0_dev1 c, k0_dev1_lt c⟩ : Dev nD) = sh c 1 := by decide +kernel
theorem dev2_eq : ∀ c : Dev nD, (⟨k0_dev2 c, k0_dev2_lt c⟩ : Dev nD) = sh c 2 := by decide +kernel
theorem dev3_eq : ∀ c : Dev nD, (⟨k0_dev3 c, k0_dev3_lt c⟩ : Dev nD) = sh c 3 := by decide +kernel
theorem dev4_eq : ∀ c : Dev nD, (⟨k0_dev4 c, k0_dev4_lt c⟩ : Dev nD) = sh c 2 := by decide +kernel
theorem dev5_eq : ∀ c : Dev nD, (⟨k0_dev5 c, k0_dev5_lt c⟩ : Dev nD) = sh c 1 := by decide +kernel
theorem dev6_eq : ∀ c : Dev nD, (⟨k0_dev6 c, k0_dev6_lt c⟩ : Dev nD) = sh c 3 := by decide +kernel

/-! ## The memrefs and the cells -/

abbrev xM : Memref sig .tc .vmem S512x256 .f32 := Memref.whole cc0_stg0_0
abbrev oM : Memref sig .tc .vmem S1x256 .f32 := Memref.whole cc0_stg1_0
abbrev cM : Memref sig .tc .vmem S4x1x256 .f32 := Memref.whole cc0_scratch0

/-- Row `s` of the scratch buffer as a rectangle: first coordinate `s`. -/
abbrev rowRect (s : Fin 4) : Rect S4x1x256 :=
  Rect.unit (s := S4x1x256) ![s.val, 0, 0] S1x1x256.size (fun a => by
    have hs : s.val < 4 := s.isLt
    match a with
    | ⟨0, _⟩ => show s.val + 1 ≤ 4; omega
    | ⟨1, _⟩ => show 0 + 1 ≤ 1; omega
    | ⟨2, _⟩ => show 0 + 256 ≤ 256; omega)

/-- Row `s` as the kernel slices and squeezes it: a [1, 256] memref. -/
abbrev rowM (s : Fin 4) : Memref sig .tc .vmem S1x256 .f32 :=
  (cM.slice (rowRect s) (fun _ => rfl)).squeeze S1x256 squeezes_S1x1x256_S1x256

/-- The runtime's barrier semaphore of collective id 0; the departure and arrival DMA semaphores. -/
abbrev barS : Sem sig := (SemArray.scalar (sig.barrier 0 rfl) : Sems sig S_).sem
abbrev sSem : Fin 3 → DmaSem sig
  | 0 => ((cc0_scratch1.slice (Rect.unit (s := S3) ![0] S1.size inb_S3_S1_0)).squeeze S_ squeezes_S1_S_).sem
  | 1 => ((cc0_scratch1.slice (Rect.unit (s := S3) ![1] S1.size inb_S3_S1_1)).squeeze S_ squeezes_S1_S_).sem
  | 2 => ((cc0_scratch1.slice (Rect.unit (s := S3) ![2] S1.size inb_S3_S1_2)).squeeze S_ squeezes_S1_S_).sem
abbrev rSem : Fin 3 → DmaSem sig
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem

/-- A device's seven semaphores: the barrier, departures 0..2, arrivals 0..2. -/
abbrev csem : Fin 7 → SemLoc sig
  | 0 => .reg barS | 1 => .dma (sSem 0) | 2 => .dma (sSem 1) | 3 => .dma (sSem 2)
  | 4 => .dma (rSem 0) | 5 => .dma (rSem 1) | 6 => .dma (rSem 2)

abbrev cell (c : Dev nD) (k : Fin 7) : GSem nD τ sig := ((c : Thread nD τ), csem k)
abbrev kcell (ck : Dev nD × Fin 7) : GSem nD τ sig := cell ck.1 ck.2

theorem csem_inj : Function.Injective csem := by decide

/-- Which of the seven a semaphore is. -/
def kOf (sm : SemLoc sig) : Option (Fin 7) := (List.finRange 7).find? (fun k => csem k = sm)
theorem kOf_csem : ∀ k : Fin 7, kOf (csem k) = some k := by decide

/-! ## The rows of the scratch buffer as element sets -/

theorem rowM_set (s : Fin 4) : (rowM s).view.set = (rowRect s).set := by
  rw [Memref.set_view_squeeze]; exact View.set_slice_whole _ _

theorem mem_rowRect {s : Fin 4} {i : S4x1x256.Idx} : i ∈ (rowRect s).set ↔ (i 0).val = s.val := by
  rw [Rect.mem_set_unit]
  constructor
  · intro h; have := h 0
    have h1 : (![s.val, 0, 0] : Fin 3 → ℕ) 0 = s.val := rfl
    have h2 : (S1x1x256.size 0) = 1 := rfl
    rw [h1, h2] at this; omega
  · intro h a
    have hi1 : (i 1).val < 1 := (i 1).isLt
    have hi2 : (i 2).val < 256 := (i 2).isLt
    match a with
    | ⟨0, _⟩ => exact ⟨by show s.val ≤ (i 0).val; omega, by show (i 0).val < s.val + 1; omega⟩
    | ⟨1, _⟩ => exact ⟨Nat.zero_le _, by show (i 1).val < 0 + 1; omega⟩
    | ⟨2, _⟩ => exact ⟨Nat.zero_le _, by show (i 2).val < 0 + 256; omega⟩

theorem rowRect_disjoint {s t : Fin 4} (h : s ≠ t) : Disjoint (rowRect s).set (rowRect t).set :=
  Finset.disjoint_left.mpr fun i hs ht => h (Fin.ext ((mem_rowRect.mp hs).symm.trans (mem_rowRect.mp ht)))

theorem rowRect_cover : Finset.univ.biUnion (fun s : Fin 4 => (rowRect s).set) = (Finset.univ : Finset S4x1x256.Idx) :=
  Finset.eq_univ_iff_forall.mpr fun i => Finset.mem_biUnion.mpr ⟨⟨(i 0).val, (i 0).isLt⟩, Finset.mem_univ _, mem_rowRect.mpr rfl⟩

/-- The kernel's literal rows are these (the offsets' spelling aside). -/
example : (rowM 2 : Memref sig .tc .vmem S1x256 .f32) = (cM.slice (Rect.unit (s := S4x1x256) ![2, 0, 0] S1x1x256.size inb_S4x1x256_S1x1x256_2_0_0) (fun _ => rfl)).squeeze S1x256 squeezes_S1x1x256_S1x256 := rfl

/-! ## The values -/

/-- Device `c`'s block of `x`, as its staging buffer holds it. -/
def xblk (c : Dev nD) : (cc0_stg0_0 : Ref sig .tc).ty.Contents (Elt F) :=
  (win0_0.blk (0 : Fin 1)).view.read (Elt F) ((s₀ m ρ).mem ((c : Thread nD τ).loc main_arg0))

/-- The column sums of device `c`'s block, as the [1, 1, 256] vector the kernel stores in row 0 and as the [1, 256]
    vector a row is read as. -/
def colsum3 (c : Dev nD) : FVec F S1x1x256 .f32 := k0_pay2 (xblk m ρ c)
def colsum (c : Dev nD) : FVec F S1x256 .f32 := shapeCast S1x256 (colsum3 m ρ c) shapeCasts_S1x1x256_S1x256

/-- The sum of four rows times the constant 2⁻¹¹. -/
def mean4 (a b c d : FVec F S1x256 .f32) : FVec F S1x256 .f32 :=
  mulf (addf (addf (addf a b) c) d) (broadcast S1x256 (Scalar.ofBits .f32 0x3A000000#32))

theorem pay1_eq (v155 v157 v160 v163 : Vec F S1x1x256 .f32) :
    k0_pay1 v155 v157 v160 v163 = mean4 (shapeCast S1x256 v155 shapeCasts_S1x1x256_S1x256) (shapeCast S1x256 v157 shapeCasts_S1x1x256_S1x256)
      (shapeCast S1x256 v160 shapeCasts_S1x1x256_S1x256) (shapeCast S1x256 v163 shapeCasts_S1x1x256_S1x256) := rfl

/-- The kernel's result on device `c`: the column sums of the blocks of c, c + 1, c + 2, c + 3, added in that order, times 2⁻¹¹. -/
def outAt (c : Dev nD) : (cc0_stg1_0 : Ref sig .tc).ty.Contents (Elt F) :=
  mean4 (colsum m ρ c) (colsum m ρ (sh c 1)) (colsum m ρ (sh c 2)) (colsum m ρ (sh c 3))

/-- Row 0 of device `c` once stored, at fixed contents elsewhere. -/
def row0F (c : Dev nD) : Buf (Elt F) ((cM : Memref sig .tc .vmem S4x1x256 .f32).view.loc (c : Thread nD τ)) :=
  (cM.access (rowRect 0) : View sig .tc _ _ _).write (Elt F) (fun _ => Classical.arbitrary _) (colsum3 m ρ c) Finset.univ

/-- A row read through its [1, 256] memref is the [1, 1, 256] load of it, reshaped. -/
theorem read_row (c : Dev nD) (s : Fin 4) (f : Buf (Elt F) ((cM : Memref sig .tc .vmem S4x1x256 .f32).view.loc (c : Thread nD τ))) :
    (rowM s).view.read (Elt F) f = shapeCast S1x256 ((cM : Memref sig .tc .vmem S4x1x256 .f32).view.readAt (Elt F) (rowRect s).toLoadRect f) shapeCasts_S1x1x256_S1x256 := rfl

theorem read_row0F (c : Dev nD) : (rowM 0).view.read (Elt F) (row0F m ρ c) = colsum m ρ c := by
  rw [read_row c]; unfold colsum row0F
  exact congrArg (fun v => shapeCast S1x256 v shapeCasts_S1x1x256_S1x256) (View.read_write_univ _ _)

/-! ## The schedule -/

abbrev N : ℕ := (rowM 0).view.dmaCredit
theorem N_pos : 0 < N := View.dmaCredit_pos _ (by decide)

abbrev cLoc (c : Dev nD) : Loc nD τ sig := (cM : Memref sig .tc .vmem S4x1x256 .f32).view.loc (c : Thread nD τ)

/-- Row `s` of device `c`'s scratch buffer held at share `q` with contents `f`. -/
def rowPts (c : Dev nD) (s : Fin 4) (q : PosShare TreeShare) (f : Buf (Elt F) (cLoc c)) : sProp 𝕄 :=
  (rowM s).view.loc (c : Thread nD τ) ↦[(rowM s).view.set]{q} f

omit [FloatOps F] in
instance rowPts_storable (c : Dev nD) (s q f) : BI.Storable (upEmb : UEmb _ 𝕄) (rowPts (F := F) c s q f) := by unfold rowPts; infer_instance

/-- The cell indices of departure `j` and arrival `j`. -/
abbrev sK (j : Fin 3) : Fin 7 := ⟨1 + j.val, by have := j.isLt; omega⟩
abbrev rK (j : Fin 3) : Fin 7 := ⟨4 + j.val, by have := j.isLt; omega⟩

/-- The three shares row 0 is read at by the three copies in flight at once. -/
def qS : Fin 3 → PosShare TreeShare
  | 0 => fullShare.left | 1 => fullShare.right.left | 2 => fullShare.right.right

/-- What the signal that is duty `d` of device `c`'s barrier cell hands `c`: the signaller is `p = c + 3 - d`; it
    hands over row `d + 1` of its scratch buffer, which `c` is about to overwrite, and that it stands at round 0 of
    the arrival cell `d` that `c`'s copy will credit. -/
def barPay (c : Dev nD) (d : Fin 3) : sProp 𝕄 :=
  iprop((∃ f, rowPts (sh c (3 - d.val)) d.succ fullShare f) ∗ reached ER (cell (sh c (3 - d.val)) (rK d)) 0)
/-- What a copy landing on arrival cell `j` of device `c` hands it: row `j + 1` holding the column sums of device `c + j + 1`. -/
def recvPay (c : Dev nD) (j : Fin 3) : sProp 𝕄 :=
  iprop(∃ f, rowPts c j.succ fullShare f ∗ ⌜(rowM j.succ).view.read (Elt F) f = colsum m ρ (sh c (j.val + 1))⌝)
/-- What a copy having left hands back on departure cell `j`: its share of row 0. -/
def sendPay (c : Dev nD) (j : Fin 3) : sProp 𝕄 := rowPts c 0 (qS j) (row0F m ρ c)

def pay (c : Dev nD) : Fin 7 → Fin 3 → sProp 𝕄
  | 0, d => barPay c d
  | 1, _ => sendPay m ρ c 0 | 2, _ => sendPay m ρ c 1 | 3, _ => sendPay m ρ c 2
  | 4, _ => recvPay m ρ c 0 | 5, _ => recvPay m ρ c 1 | 6, _ => recvPay m ρ c 2

/-- One round, round 0: a barrier cell has three duties of one unit each, one from each other device; a departure or
    arrival cell has the one duty `0` of a row's credit. -/
def rd : Rounds.Schedule (GSem nD τ sig) (Fin 3) 𝕄 where
  duties g r := if r = 0 ∧ g.1.2 = .tc then (match kOf g.2 with | some 0 => Finset.univ | some _ => {0} | none => ∅) else ∅
  unitless _ := False
  amount g _ _ := match kOf g.2 with | some 0 => 1 | _ => N
  payload g _ d := match kOf g.2 with | some k => pay m ρ g.1.1 k d | none => iprop(emp)
  amount_pos g _ _ _ := by
    show 0 < (match kOf g.2 with | some 0 => 1 | _ => N)
    split
    · exact Nat.one_pos
    · exact N_pos

instance rd_payload_storable (g : GSem nD τ sig) (r : ℕ) (d : Fin 3) :
    BI.Storable (upEmb : UEmb _ 𝕄) ((rd (F := F) m ρ).payload g r d) := by
  show BI.Storable upEmb (match kOf g.2 with | some k => pay m ρ g.1.1 k d | none => iprop(emp))
  split
  · rename_i k _
    unfold pay
    split <;> first | (unfold barPay rowPts; infer_instance) | (unfold sendPay rowPts; infer_instance) | (unfold recvPay rowPts; infer_instance)
  · infer_instance

section Sched
variable (c : Dev nD)

theorem duties_bar : (rd (F := F) m ρ).duties (cell c 0) 0 = Finset.univ := by
  dsimp only [rd]; rw [if_pos ⟨rfl, rfl⟩, kOf_csem]; rfl
theorem duties_x : ∀ k : Fin 7, k ≠ 0 → (rd (F := F) m ρ).duties (cell c k) 0 = {0} := fun k hk => by
  dsimp only [rd]; rw [if_pos ⟨rfl, rfl⟩, kOf_csem]
  fin_cases k <;> first | exact absurd rfl hk | rfl
theorem duties_later (g : GSem nD τ sig) : ∀ r, 1 ≤ r → (rd (F := F) m ρ).duties g r = ∅ :=
  fun r hr => by dsimp only [rd]; rw [if_neg fun h => by omega]
theorem amount_bar (d : Fin 3) : (rd (F := F) m ρ).amount (cell c 0) 0 d = 1 := by dsimp only [rd]; rw [kOf_csem]; rfl
theorem amount_x : ∀ k : Fin 7, k ≠ 0 → ∀ d : Fin 3, (rd (F := F) m ρ).amount (cell c k) 0 d = N := fun k hk d => by
  dsimp only [rd]; rw [kOf_csem]
  fin_cases k <;> first | exact absurd rfl hk | rfl
theorem payload_cell (k : Fin 7) (d : Fin 3) : (rd (F := F) m ρ).payload (cell c k) 0 d = pay m ρ c k d := by
  dsimp only [rd]; rw [kOf_csem]

theorem expect_bar : (rd (F := F) m ρ).expect (cell c 0) 0 = 3 := by
  unfold Schedule.expect Schedule.amountOf
  rw [duties_bar, Finset.sum_congr rfl fun d _ => amount_bar m ρ c d, Finset.sum_const, Finset.card_univ, Fintype.card_fin, smul_eq_mul]
theorem expect_x (k : Fin 7) (hk : k ≠ 0) : (rd (F := F) m ρ).expect (cell c k) 0 = N := by
  unfold Schedule.expect Schedule.amountOf; rw [duties_x m ρ c k hk, Finset.sum_singleton, amount_x m ρ c k hk]

end Sched

/-! ## What each device owes at launch; the levels -/

/-- Device `c` owes each copy's arrival cell a row's credit and each other device's barrier cell one unit — summed so that
    each statement, in program order (signals to c + 1, c + 2, c + 3; copies to c + 2, c + 1, c + 3), peels the last summand. -/
def R3 (c : Dev nD) : CellTallies nD τ sig Unit := tallyAt (cell (sh c 3) (rK 0)) () N
def R2 (c : Dev nD) : CellTallies nD τ sig Unit := R3 c + tallyAt (cell (sh c 1) (rK 2)) () N
def R1 (c : Dev nD) : CellTallies nD τ sig Unit := R2 c + tallyAt (cell (sh c 2) (rK 1)) () N
def B2 (c : Dev nD) : CellTallies nD τ sig Unit := R1 c + tallyAt (cell (sh c 3) 0) () 1
def B1 (c : Dev nD) : CellTallies nD τ sig Unit := B2 c + tallyAt (cell (sh c 2) 0) () 1
def O₀ (c : Dev nD) : CellTallies nD τ sig Unit := B1 c + tallyAt (cell (sh c 1) 0) () 1

def L (g : GSem nD τ sig) : Finset Unit := if g.1.2 = .tc then {()} else ∅
/-- Barrier cells at 1, arrival cells at 2, everything else (staging, departure) at 0. -/
def lv (g : GSem nD τ sig) (_ : Unit) : ℕ := match kOf g.2 with | some 0 => 1 | some 4 => 2 | some 5 => 2 | some 6 => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (cell c 0) () = 1 := by dsimp only [lv]; rw [kOf_csem]; rfl
theorem lv_recv (c : Dev nD) (j : Fin 3) : lv (cell c (rK j)) () = 2 := by
  dsimp only [lv]; rw [kOf_csem]; fin_cases j <;> rfl

theorem tallyAt_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

theorem add_pos_cases' {A B : CellTallies nD τ sig Unit} {g : GSem nD τ sig} {u : Unit} (h : 0 < (A + B) g u) : 0 < A g u ∨ 0 < B g u := by
  rw [Pi.add_apply, Finsupp.add_apply] at h; omega

theorem R1_pos {c : Dev nD} {g : GSem nD τ sig} {u : Unit} (h : 0 < R1 c g u) : ∃ (d : Dev nD) (j : Fin 3), g = cell d (rK j) := by
  unfold R1 R2 R3 at h
  rcases add_pos_cases' h with h | h
  · rcases add_pos_cases' h with h | h
    · exact ⟨_, _, tallyAt_pos h⟩
    · exact ⟨_, _, tallyAt_pos h⟩
  · exact ⟨_, _, tallyAt_pos h⟩

theorem O₀_pos {c : Dev nD} {g : GSem nD τ sig} {u : Unit} (h : 0 < O₀ c g u) :
    (∃ (d : Dev nD) (j : Fin 3), g = cell d (rK j)) ∨ ∃ d : Dev nD, g = cell d 0 := by
  unfold O₀ B1 B2 at h
  rcases add_pos_cases' h with h | h
  · rcases add_pos_cases' h with h | h
    · rcases add_pos_cases' h with h | h
      · exact .inl (R1_pos h)
      · exact .inr ⟨_, tallyAt_pos h⟩
    · exact .inr ⟨_, tallyAt_pos h⟩
  · exact .inr ⟨_, tallyAt_pos h⟩

omit [FloatOps F] in
/-- A wait on a cell at level 0 (a staging cell, a departure cell) is below everything a device can owe. -/
theorem mayWait_low (c : Dev nD) (sm : SemLoc sig) (hsm : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨d, j, rfl⟩ | ⟨d, rfl⟩ <;> exact Finset.mem_singleton_self _)
      (fun p hp => by rw [Finset.mem_singleton.mp hp]; exact le_of_eq hsm)
      (fun g u hg => by
        rcases O₀_pos hg with ⟨d, j, rfl⟩ | ⟨d, rfl⟩
        · rw [lv_recv]; decide
        · rw [lv_bar]; decide)
  · rw [MayWait_zero]; iintro -; iempintro

omit [FloatOps F] in
/-- At its barrier wait a device owes arrival credit only: arrival cells, above its barrier cell. -/
theorem mayWait_bar (c : Dev nD) :
    (levAts L lv : sProp 𝕄) ⊢ MayWait (c : Thread nD τ) (.reg barS) () (R1 c) :=
  MayOwe.of_cut (L := L) (lev := lv) 1 (fun p hp => by rw [Finset.mem_singleton.mp hp, L_tc]; exact Finset.mem_singleton_self _)
    (fun g u hg => by obtain ⟨d, j, rfl⟩ := R1_pos hg; exact Finset.mem_singleton_self _)
    (fun p hp => by rw [Finset.mem_singleton.mp hp]; exact le_of_eq (lv_bar c))
    (fun g u hg => by obtain ⟨d, j, rfl⟩ := R1_pos hg; rw [lv_recv]; decide)

end Cert.KernelProof

end
-- ==== Proof.KernelGhost.lean ====
/-
  The ghost state a device starts from, the pipeline's proof data, and one device's body run from them.
-/
import proofs.«900376_g7700000000000377_dist_mean_ax0_shard0_i_m512_n256_v7x_i4_f32_1_alg».proof.Proof.KernelCells

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Every cell's invariant under the names `K` the launch allocated them at, and that every cell is at round 0. -/
def records (K : Dev nD × Fin 7 → ℕ) : sProp 𝕄 :=
  iprop((bigSep Finset.univ fun ck : Dev nD × Fin 7 => cellInv ER (rd m ρ) (K ck) (kcell ck))
    ∗ bigSep Finset.univ fun ck : Dev nD × Fin 7 => reached ER (kcell ck) 0)

instance records_persistent (K : Dev nD × Fin 7 → ℕ) : BI.Persistent (records m ρ K) := by unfold records; infer_instance

/-- The tokens of the nine duties device `c` pays: one on each other device's barrier cell, one on the arrival cell
    each of its copies credits, one on each of its own departure cells. -/
def payToks (c : Dev nD) : sProp 𝕄 :=
  iprop(dutyTok ER (cell (sh c 1) 0) 0 0 ∗ dutyTok ER (cell (sh c 2) 0) 0 1 ∗ dutyTok ER (cell (sh c 3) 0) 0 2
    ∗ dutyTok ER (cell (sh c 2) 5) 0 0 ∗ dutyTok ER (cell (sh c 1) 6) 0 0 ∗ dutyTok ER (cell (sh c 3) 4) 0 0
    ∗ dutyTok ER (cell c 1) 0 0 ∗ dutyTok ER (cell c 2) 0 0 ∗ dutyTok ER (cell c 3) 0 0)

/-- Device `c`'s positions: round 0 of each of its seven cells. -/
def posns (c : Dev nD) : sProp 𝕄 :=
  iprop(atPos ER (cell c 0) 0 ∅ 0 ∗ atPos ER (cell c 1) 0 ∅ 0 ∗ atPos ER (cell c 2) 0 ∅ 0 ∗ atPos ER (cell c 3) 0 ∅ 0
    ∗ atPos ER (cell c 4) 0 ∅ 0 ∗ atPos ER (cell c 5) 0 ∅ 0 ∗ atPos ER (cell c 6) 0 ∅ 0)

def ghost (K : Dev nD × Fin 7 → ℕ) (c : Dev nD) : sProp 𝕄 := iprop(records m ρ K ∗ posns c ∗ payToks c)

/-- The credit other devices owe device `c`'s cells: three units on its barrier cell, a row's on each arrival cell. -/
def creds (c : Dev nD) : sProp 𝕄 :=
  iprop(cred (tallyAt (cell c 0) () 3) ∗ cred (tallyAt (cell c 4) () N) ∗ cred (tallyAt (cell c 5) () N) ∗ cred (tallyAt (cell c 6) () N))

def start (c : Dev nD) : sProp 𝕄 := iprop((∃ K, ghost m ρ K c) ∗ creds c ∗ levAts L lv)

def Φ₀ (c : Dev nD) : sProp 𝕄 := iprop(start m ρ c ∗ ∃ f : Buf (Elt F) (cLoc c), (cLoc c ↦{fullShare} f))
/-- After the point: the scratch buffer whole again, the six own semaphores at zero, closed. -/
def Φ₁ (c : Dev nD) : sProp 𝕄 :=
  iprop((∃ f : Buf (Elt F) (cLoc c), (cLoc c ↦{fullShare} f))
    ∗ semVal (cell c 1) 0 ∗ semVal (cell c 2) 0 ∗ semVal (cell c 3) 0 ∗ semVal (cell c 4) 0 ∗ semVal (cell c 5) 0 ∗ semVal (cell c 6) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 7 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ creds c ∗ levAts L lv ∗ ∃ f : Buf (Elt F) (cLoc c), (cLoc c ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xblk m ρ c) ∗ stg c cc0_stg1_0 (outAt m ρ c))

end Body

/-! ## Records, rows, shares -/

theorem inv_at (K : Dev nD × Fin 7 → ℕ) (ck : Dev nD × Fin 7) :
    (bigSep Finset.univ fun ck : Dev nD × Fin 7 => (cellInv ER (rd m ρ) (K ck) (kcell ck) : sProp 𝕄)) ⊢ cellInv ER (rd m ρ) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

theorem rows_union (c : Dev nD) :
    Finset.univ.biUnion (fun s : Fin 4 => (rowM s).view.set) = (Finset.univ : Finset (Idx (cLoc c))) := by
  rw [← rowRect_cover]; exact Finset.biUnion_congr rfl fun s _ => rowM_set s

theorem rows_disjoint : ∀ s ∈ (Finset.univ : Finset (Fin 4)), ∀ t ∈ (Finset.univ : Finset (Fin 4)), s ≠ t →
    Disjoint (rowM s).view.set (rowM t).view.set := fun s _ t _ h => by
  rw [rowM_set, rowM_set]; exact rowRect_disjoint h

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- The scratch buffer is its four rows. -/
theorem rows_split (c : Dev nD) (q : PosShare TreeShare) (f : Buf (Elt F) (cLoc c)) :
    (cLoc c ↦{q} f : sProp 𝕄) = iprop(rowPts c 0 q f ∗ rowPts c 1 q f ∗ rowPts c 2 q f ∗ rowPts c 3 q f) := by
  show pointsTo (cLoc c) Finset.univ q f = _
  rw [← rows_union c, pointsTo_biUnion _ _ rows_disjoint, bigSep_fin4]
  rfl

omit [FloatOps F] in
/-- Four rows at whatever contents are the buffer at some contents. -/
theorem rows_join (c : Dev nD) (f0 f1 f2 f3 : Buf (Elt F) (cLoc c)) :
    iprop(rowPts c 0 fullShare f0 ∗ rowPts c 1 fullShare f1 ∗ rowPts c 2 fullShare f2 ∗ rowPts c 3 fullShare f3)
      ⊢ (iprop(∃ g : Buf (Elt F) (cLoc c), (cLoc c ↦{fullShare} g)) : sProp 𝕄) := by
  let g : Buf (Elt F) (cLoc c) := ((fun i : S4x1x256.Idx => if (i 0).val = 0 then f0 i else if (i 0).val = 1 then f1 i else if (i 0).val = 2 then f2 i else f3 i) : S4x1x256.Idx → Elt F .f32)
  have e0 : (rowPts c 0 fullShare f0 : sProp 𝕄) = rowPts c 0 fullShare g := by
    unfold rowPts; exact pointsTo_congr fun i hi => by
      rw [rowM_set] at hi; have h : (i 0).val = 0 := mem_rowRect.mp hi
      show f0 i = if (i 0).val = 0 then f0 i else _
      rw [if_pos h]
  have e1 : (rowPts c 1 fullShare f1 : sProp 𝕄) = rowPts c 1 fullShare g := by
    unfold rowPts; exact pointsTo_congr fun i hi => by
      rw [rowM_set] at hi; have h : (i 0).val = 1 := mem_rowRect.mp hi
      show f1 i = if (i 0).val = 0 then f0 i else if (i 0).val = 1 then f1 i else _
      rw [if_neg (by omega), if_pos h]
  have e2 : (rowPts c 2 fullShare f2 : sProp 𝕄) = rowPts c 2 fullShare g := by
    unfold rowPts; exact pointsTo_congr fun i hi => by
      rw [rowM_set] at hi; have h : (i 0).val = 2 := mem_rowRect.mp hi
      show f2 i = if (i 0).val = 0 then f0 i else if (i 0).val = 1 then f1 i else if (i 0).val = 2 then f2 i else _
      rw [if_neg (by omega), if_neg (by omega), if_pos h]
  have e3 : (rowPts c 3 fullShare f3 : sProp 𝕄) = rowPts c 3 fullShare g := by
    unfold rowPts; exact pointsTo_congr fun i hi => by
      rw [rowM_set] at hi; have h : (i 0).val = 3 := mem_rowRect.mp hi
      show f3 i = if (i 0).val = 0 then f0 i else if (i 0).val = 1 then f1 i else if (i 0).val = 2 then f2 i else f3 i
      rw [if_neg (by omega), if_neg (by omega), if_neg (by omega)]
  rw [e0, e1, e2, e3, ← rows_split c fullShare g]
  iintro H
  iexists g; iexact H

omit [FloatOps F] in
/-- Row 0 at the whole share is the three shares the three copies read it at. -/
theorem row0_shares (c : Dev nD) (f : Buf (Elt F) (cLoc c)) :
    (rowPts c 0 fullShare f : sProp 𝕄) ⊣⊢ iprop(rowPts c 0 (qS 0) f ∗ rowPts c 0 (qS 1) f ∗ rowPts c 0 (qS 2) f) := by
  unfold rowPts
  exact ⟨(pointsTo_share (PosShare.mem_left_op_right fullShare)).1.trans (sep_mono_right (pointsTo_share (PosShare.mem_left_op_right fullShare.right)).1),
    (sep_mono_right (pointsTo_share (PosShare.mem_left_op_right fullShare.right)).2).trans (pointsTo_share (PosShare.mem_left_op_right fullShare)).2⟩

/-- Row 0 after the store of the column sums, whatever the buffer held, is row 0 at the fixed contents. -/
theorem row0_stored (c : Dev nD) (f : Buf (Elt F) (cLoc c)) :
    (rowPts c 0 fullShare ((cM.access (rowRect 0) : View sig .tc _ _ _).write (Elt F) f (colsum3 m ρ c) Finset.univ) : sProp 𝕄)
      = rowPts c 0 fullShare (row0F m ρ c) := by
  unfold rowPts row0F
  refine pointsTo_congr fun i hi => ?_
  rw [rowM_set] at hi
  obtain ⟨y, rfl⟩ := View.exists_emb_of_mem_set (cM.access (rowRect 0) : View sig .tc _ _ _) (i := i)
    (by rw [show (cM.access (rowRect 0) : View sig .tc _ _ _).set = (rowRect 0).set from View.set_slice_whole _ _]; exact hi)
  rw [View.write_emb_of_mem _ _ (Finset.mem_univ _), View.write_emb_of_mem _ _ (Finset.mem_univ _)]

/-! ## The schedule's tables at the cells a device touches -/

section Tables
variable (c : Dev nD)

theorem t_duties_1 : (rd m ρ).duties (cell c 1) 0 = {0} := duties_x m ρ c 1 (by decide)
theorem t_duties_2 : (rd m ρ).duties (cell c 2) 0 = {0} := duties_x m ρ c 2 (by decide)
theorem t_duties_3 : (rd m ρ).duties (cell c 3) 0 = {0} := duties_x m ρ c 3 (by decide)
theorem t_duties_4 : (rd m ρ).duties (cell c 4) 0 = {0} := duties_x m ρ c 4 (by decide)
theorem t_duties_5 : (rd m ρ).duties (cell c 5) 0 = {0} := duties_x m ρ c 5 (by decide)
theorem t_duties_6 : (rd m ρ).duties (cell c 6) 0 = {0} := duties_x m ρ c 6 (by decide)
theorem t_amount_1 (e : Fin 3) : (rd m ρ).amount (cell c 1) 0 e = N := amount_x m ρ c 1 (by decide) e
theorem t_amount_2 (e : Fin 3) : (rd m ρ).amount (cell c 2) 0 e = N := amount_x m ρ c 2 (by decide) e
theorem t_amount_3 (e : Fin 3) : (rd m ρ).amount (cell c 3) 0 e = N := amount_x m ρ c 3 (by decide) e
theorem t_amount_4 (e : Fin 3) : (rd m ρ).amount (cell c 4) 0 e = N := amount_x m ρ c 4 (by decide) e
theorem t_amount_5 (e : Fin 3) : (rd m ρ).amount (cell c 5) 0 e = N := amount_x m ρ c 5 (by decide) e
theorem t_amount_6 (e : Fin 3) : (rd m ρ).amount (cell c 6) 0 e = N := amount_x m ρ c 6 (by decide) e
theorem t_expect_1 : (rd m ρ).expect (cell c 1) 0 = N := expect_x m ρ c 1 (by decide)
theorem t_expect_2 : (rd m ρ).expect (cell c 2) 0 = N := expect_x m ρ c 2 (by decide)
theorem t_expect_3 : (rd m ρ).expect (cell c 3) 0 = N := expect_x m ρ c 3 (by decide)
theorem t_expect_4 : (rd m ρ).expect (cell c 4) 0 = N := expect_x m ρ c 4 (by decide)
theorem t_expect_5 : (rd m ρ).expect (cell c 5) 0 = N := expect_x m ρ c 5 (by decide)
theorem t_expect_6 : (rd m ρ).expect (cell c 6) 0 = N := expect_x m ρ c 6 (by decide)

/-- What device `c`'s three signals hand over: its rows 1, 2, 3, and that it stands at round 0 of its arrival cells. -/
theorem t_pay_sig1 : (rd m ρ).payload (cell (sh c 1) 0) 0 0 = iprop((∃ f, rowPts c 1 fullShare f) ∗ reached ER (cell c 4) 0) := by
  rw [payload_cell]; show barPay (sh c 1) 0 = _; unfold barPay
  rw [show sh (sh c 1) (3 - (0 : Fin 3).val) = c from by rw [sh_sh]; exact sh_four c]; rfl
theorem t_pay_sig2 : (rd m ρ).payload (cell (sh c 2) 0) 0 1 = iprop((∃ f, rowPts c 2 fullShare f) ∗ reached ER (cell c 5) 0) := by
  rw [payload_cell]; show barPay (sh c 2) 1 = _; unfold barPay
  rw [show sh (sh c 2) (3 - (1 : Fin 3).val) = c from by rw [sh_sh]; exact sh_four c]; rfl
theorem t_pay_sig3 : (rd m ρ).payload (cell (sh c 3) 0) 0 2 = iprop((∃ f, rowPts c 3 fullShare f) ∗ reached ER (cell c 6) 0) := by
  rw [payload_cell]; show barPay (sh c 3) 2 = _; unfold barPay
  rw [show sh (sh c 3) (3 - (2 : Fin 3).val) = c from by rw [sh_sh]; exact sh_four c]; rfl

/-- What the three signals to device `c` hand it: row 1 of c + 3, row 2 of c + 2, row 3 of c + 1, each with its owner at
    round 0 of the arrival cell the copy into that row credits. -/
theorem t_pay_own (d : Fin 3) : (rd m ρ).payload (cell c 0) 0 d = barPay c d := by rw [payload_cell]; rfl
theorem t_pay_send1 (e : Fin 3) : (rd m ρ).payload (cell c 1) 0 e = rowPts c 0 (qS 0) (row0F m ρ c) := by rw [payload_cell]; rfl
theorem t_pay_send2 (e : Fin 3) : (rd m ρ).payload (cell c 2) 0 e = rowPts c 0 (qS 1) (row0F m ρ c) := by rw [payload_cell]; rfl
theorem t_pay_send3 (e : Fin 3) : (rd m ρ).payload (cell c 3) 0 e = rowPts c 0 (qS 2) (row0F m ρ c) := by rw [payload_cell]; rfl
theorem t_pay_recv4 (e : Fin 3) : (rd m ρ).payload (cell c 4) 0 e = recvPay m ρ c 0 := by rw [payload_cell]; rfl
theorem t_pay_recv5 (e : Fin 3) : (rd m ρ).payload (cell c 5) 0 e = recvPay m ρ c 1 := by rw [payload_cell]; rfl
theorem t_pay_recv6 (e : Fin 3) : (rd m ρ).payload (cell c 6) 0 e = recvPay m ρ c 2 := by rw [payload_cell]; rfl

/-- The rest of the barrier cell's round, no duty taken: the three payloads. -/
theorem rest_bar : bigSep ((rd m ρ).duties (cell c 0) 0 \ ∅) (fun d => (rd m ρ).payload (cell c 0) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    t_pay_own, t_pay_own, t_pay_own]
  rfl
theorem rest_x (k : Fin 7) (hk : k ≠ 0) : bigSep ((rd m ρ).duties (cell c k) 0 \ ∅) (fun d => (rd m ρ).payload (cell c k) 0 d) = pay m ρ c k 0 := by
  rw [Finset.sdiff_empty, duties_x m ρ c k hk, bigSep_singleton, payload_cell]

end Tables

/-! ## The body -/

section Body2

variable (K : Dev nD × Fin 7 → ℕ)

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) :
    (xM : Memref sig .tc .vmem S512x256 .f32).view.readAt (Elt F) (Rect.unit (s := S512x256) ![0, 0] S512x256.size inb_S512x256_S512x256_0_0).toLoadRect f = f :=
  Memref.readAt_unit_zero (Elt F) cc0_stg0_0 hz2 _ f
omit [FloatOps F] in
theorem write_out (f w : (cc0_stg1_0 : Ref sig .tc).ty.Contents (Elt F)) :
    ((oM : Memref sig .tc .vmem S1x256 .f32).access (Rect.unit (s := S1x256) ![0, 0] S1x256.size inb_S1x256_S1x256_0_0) : View sig .tc _ _ _).write (Elt F) f w Finset.univ = w :=
  Memref.write_access_unit_zero_univ (Elt F) cc0_stg1_0 hz2 _ f w

omit [FloatOps F] in
/-- A load or store at row `s` goes through that row's elements. -/
theorem row_access_set (s : Fin 4) : (cM.access (rowRect s) : View sig .tc _ _ _).set = (rowM s).view.set := by
  rw [rowM_set]; exact View.set_slice_whole _ _

/-- The row a copy from device `c` leaves on device `c + dt` is what the arrival cell's duty hands over. -/
theorem recv_landed (c : Dev nD) (dt : ℕ) (j : Fin 3) (hj : dt + j.val + 1 = 4) (fd : Buf (Elt F) (cLoc (sh c dt))) :
    ((rowM j.succ).view.loc (sh c dt : Thread nD τ) ↦[(rowM j.succ).view.set]{fullShare}
        ((rowM j.succ).view.write (Elt F) fd ((rowM 0).view.read (Elt F) (row0F m ρ c)) Finset.univ) : sProp 𝕄)
      ⊢ recvPay m ρ (sh c dt) j := by
  unfold recvPay rowPts
  iintro H
  iexists _
  isplitl [H]; · iexact H
  ipureintro
  rw [View.read_write_univ, read_row0F, sh_sh, show dt + (j.val + 1) = 4 by omega, sh_four]

/-- `Rounds.wp_send_pointsTo` with the statement's device `n` substituted by the ring's name `c'` for it: a copy from `src` on
    `c` into `dst` on `c'`, departing on `sS` of `c`, arriving on `sR` of `c'`, each cell's one duty of round 0. -/
theorem wp_send_gen (c c' n : Dev nD) (hn : n = c') (src dst : Memref sig .tc .vmem S1x256 .f32) (sS sR : DmaSem sig) (κ₁ κ₂ : ℕ) (q : PosShare TreeShare)
    (fs : Buf (Elt F) (src.view.loc (c : Thread nD τ)))
    (hd₁ : (0 : Fin 3) ∈ (rd m ρ).duties ((c : Thread nD τ), .dma sS) 0) (hd₂ : (0 : Fin 3) ∈ (rd m ρ).duties ((c' : Thread nD τ), .dma sR) 0)
    (hN : dst.view.amount (.dma sR) = N)
    (hk₁ : (rd m ρ).amount ((c : Thread nD τ), .dma sS) 0 0 = N) (hk₂ : (rd m ρ).amount ((c' : Thread nD τ), .dma sR) 0 0 = N)
    (hp1 : (src.view.loc (c : Thread nD τ) ↦[src.view.set]{q} fs : sProp 𝕄) ⊢ (rd m ρ).payload ((c : Thread nD τ), .dma sS) 0 0)
    (hp2 : ∀ fd : Buf (Elt F) (dst.view.loc (c' : Thread nD τ)),
      (dst.view.loc (c' : Thread nD τ) ↦[dst.view.set]{fullShare} (dst.view.write (Elt F) fd (src.view.read (Elt F) fs) Finset.univ) : sProp 𝕄)
        ⊢ (rd m ρ).payload ((c' : Thread nD τ), .dma sR) 0 0)
    {hsc : (dst : Memref sig (Dev.tc n : Thread nD τ).2.kind .vmem S1x256 .f32).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (fn : Buf (Elt F) (dst.view.loc (c' : Thread nD τ))) (O₁ O : CellTallies nD τ sig Unit)
    (hO : O₁ = O + tallyAt ((c' : Thread nD τ), .dma sR) () N) (W : Waits sig Unit) :
    iprop(cellInv ER (rd m ρ) κ₁ ((c : Thread nD τ), .dma sS) ∗ cellInv ER (rd m ρ) κ₂ ((c' : Thread nD τ), .dma sR)
        ∗ (src.view.loc (c : Thread nD τ) ↦[src.view.set]{q} fs) ∗ (dst.view.loc (c' : Thread nD τ) ↦[dst.view.set]{fullShare} fn)
        ∗ owes (c : Thread nD τ) O₁ W
        ∗ dutyTok ER ((c : Thread nD τ), .dma sS) 0 0 ∗ reached ER ((c : Thread nD τ), .dma sS) 0
        ∗ dutyTok ER ((c' : Thread nD τ), .dma sR) 0 0 ∗ reached ER ((c' : Thread nD τ), .dma sR) 0)
      ⊢ iprop(((cred (tallyAt ((c : Thread nD τ), .dma sS) () N) ∗ owes (c : Thread nD τ) O W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn
  exact Rounds.wp_send_pointsTo 𝒱₀ ER (rd m ρ) (c : Thread nD τ) none (κ₁ := κ₁) (κ₂ := κ₂) (r₁ := 0) (r₂ := 0) (d₁ := 0) (d₂ := 0) (fd := fn)
    hd₁ hd₂ () () N hN hk₁ hk₂ O hO (W := W) hp1 (hp2 fn)

end Body2

end Cert.KernelProof

end
-- ==== Proof.KernelBody.lean ====
/-
  One device's body, run one rule per effect in program order: three signals that hand rows 1, 2, 3 of the scratch buffer to
  the devices that will overwrite them; the column sums stored in row 0; the wait for the three devices' signals, which
  brings their rows; three copies of row 0, each reading it at a third share; the six waits, which bring the shares back and
  the three rows landed; the sum of the four rows.
-/
import proofs.«900376_g7700000000000377_dist_mean_ax0_shard0_i_m512_n256_v7x_i4_f32_1_alg».proof.Proof.KernelGhost

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body3

variable (K : Dev nD × Fin 7 → ℕ)

omit [FloatOps F] in
/-- A load at row `s` reads inside that row's elements. -/
theorem row_load_sub (s : Fin 4) : (cM : Memref sig .tc .vmem S4x1x256 .f32).view.setOn (rowRect s).toLoadRect.set ⊆ (rowM s).view.set := by
  rw [Memref.set_view_squeeze]; exact le_of_eq (View.set_slice _ _).symm

omit [FloatOps F] in
theorem rowPts_eq (c : Dev nD) (s : Fin 4) (q : PosShare TreeShare) (f : Buf (Elt F) (cLoc c)) :
    (rowPts c s q f : sProp 𝕄) = ((cM : Memref sig .tc .vmem S4x1x256 .f32).view.loc (c : Thread nD τ) ↦[(rowM s).view.set]{q} f) := rfl
omit [FloatOps F] in
theorem rowPts_eq_acc (c : Dev nD) (f : Buf (Elt F) (cLoc c)) :
    (rowPts c 0 fullShare f : sProp 𝕄) = ((cM.access (rowRect 0) : View sig .tc _ _ _).loc (c : Thread nD τ) ↦[(rowM 0).view.set]{fullShare} f) := rfl

theorem pay_send_eq1 (c : Dev nD) : pay m ρ c 1 0 = rowPts c 0 (qS 0) (row0F m ρ c) := rfl
theorem pay_send_eq2 (c : Dev nD) : pay m ρ c 2 0 = rowPts c 0 (qS 1) (row0F m ρ c) := rfl
theorem pay_send_eq3 (c : Dev nD) : pay m ρ c 3 0 = rowPts c 0 (qS 2) (row0F m ρ c) := rfl
theorem pay_recv_eq4 (c : Dev nD) : pay m ρ c 4 0 = iprop(∃ f, rowPts c 1 fullShare f ∗ ⌜(rowM 1).view.read (Elt F) f = colsum m ρ (sh c 1)⌝) := rfl
theorem pay_recv_eq5 (c : Dev nD) : pay m ρ c 5 0 = iprop(∃ f, rowPts c 2 fullShare f ∗ ⌜(rowM 2).view.read (Elt F) f = colsum m ρ (sh c 2)⌝) := rfl
theorem pay_recv_eq6 (c : Dev nD) : pay m ρ c 6 0 = iprop(∃ f, rowPts c 3 fullShare f ∗ ⌜(rowM 3).view.read (Elt F) f = colsum m ρ (sh c 3)⌝) := rfl

/-- The stored result is the mean of the four column sums, once each row is known to hold its device's. -/
theorem out_val (c : Dev nD) (g0 g1 g2 g3 : Buf (Elt F) (cLoc c))
    (h0 : (rowM 0).view.read (Elt F) g0 = colsum m ρ c) (h1 : (rowM 1).view.read (Elt F) g1 = colsum m ρ (sh c 1))
    (h2 : (rowM 2).view.read (Elt F) g2 = colsum m ρ (sh c 2)) (h3 : (rowM 3).view.read (Elt F) g3 = colsum m ρ (sh c 3)) :
    k0_pay1 ((cM : Memref sig .tc .vmem S4x1x256 .f32).view.readAt (Elt F) (rowRect 0).toLoadRect g0)
        ((cM : Memref sig .tc .vmem S4x1x256 .f32).view.readAt (Elt F) (rowRect 1).toLoadRect g1)
        ((cM : Memref sig .tc .vmem S4x1x256 .f32).view.readAt (Elt F) (rowRect 2).toLoadRect g2)
        ((cM : Memref sig .tc .vmem S4x1x256 .f32).view.readAt (Elt F) (rowRect 3).toLoadRect g3) = outAt m ρ c := by
  rw [pay1_eq]; unfold outAt; rw [← h0, ← h1, ← h2, ← h3]; rfl

/-- Owing nothing is what the proof data ask of the point's end. -/
theorem owes_done (c : Dev nD) (W : Waits sig Unit) : (owes (c : Thread nD τ) 0 W : sProp 𝕄) ⊢ (dats m ρ 0 c).owesAt () t₀.succ := by
  unfold Dat.owesAt Pipeline.owesWithin
  rw [show (dats m ρ 0 c).owed t₀.succ = 0 from rfl]
  iintro H
  iexists W
  isplitr; · ipureintro; exact fun _ _ => Or.inl trivial
  iexact H

theorem row0_stored' (c : Dev nD) (f : Buf (Elt F) (cLoc c)) :
    ((cM.access (rowRect 0) : View sig .tc _ _ _).loc (c : Thread nD τ) ↦[(rowM 0).view.set]{fullShare}
        ((cM.access (rowRect 0) : View sig .tc _ _ _).write (Elt F) f (k0_pay2 (xblk m ρ c)) Finset.univ) : sProp 𝕄)
      = rowPts c 0 fullShare (row0F m ρ c) :=
  (rowPts_eq_acc c _).symm.trans (row0_stored m ρ c f)

set_option maxHeartbeats 8000000 in
/-- The body on device `c`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost records posns payToks creds
  iintro ⟨⟨⟨⟨⟨#HI, #HR⟩, ⟨Ha0, Ha1, Ha2, Ha3, Ha4, Ha5, Ha6⟩, ⟨Tb1, Tb2, Tb3, Tr2, Tr1, Tr3, Ts0, Ts1, Ts2⟩⟩, ⟨Cb, Cr0, Cr1, Cr2⟩, #Hlev, ⟨%f0, Hscr⟩⟩,
    Ho, ⟨%d0, %g0, %hg0, Hx⟩, ⟨%d1, %g1, %hg1, Hout⟩⟩, Hk⟩
  have hx : g0 = xblk m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave Hrows := (Entails.of_eq (rows_split c fullShare f0)) $$ Hscr
  icases Hrows with ⟨Hr0, Hr1, Hr2, Hr3⟩
  simp only [dev1_eq c, dev2_eq c, dev3_eq c]
  -- the three signals: rows 1, 2, 3 handed to the devices whose copies will land in them
  iapply (Rounds.wp_signal 𝒱₀ ER (rd m ρ) (c : Thread nD τ) none (dst := (sh c 1 : Thread nD τ)) (κ := K (sh c 1, 0))
      (d := (0 : Fin 3)) (by rw [duties_bar]; exact Finset.mem_univ _) ((amount_bar m ρ (sh c 1) 0).trans (by decide)) () (B1 c) rfl)
    $$ [HO Tb1 Hr1]
  · isplitr; · iapply (inv_at m ρ K (sh c 1, 0)); iexact HI
    isplitl [HO]; · iexact HO
    isplitl [Tb1]; · iexact Tb1
    isplitl [Hr1]
    · rw [t_pay_sig1]
      isplitl [Hr1]; · iexists f0; iexact Hr1
      iapply (reached_at (F := F) (c, 4)); iexact HR
    · iapply (reached_at (F := F) (sh c 1, 0)); iexact HR
  iintro HO
  iapply (Rounds.wp_signal 𝒱₀ ER (rd m ρ) (c : Thread nD τ) none (dst := (sh c 2 : Thread nD τ)) (κ := K (sh c 2, 0))
      (d := (1 : Fin 3)) (by rw [duties_bar]; exact Finset.mem_univ _) ((amount_bar m ρ (sh c 2) 1).trans (by decide)) () (B2 c) rfl)
    $$ [HO Tb2 Hr2]
  · isplitr; · iapply (inv_at m ρ K (sh c 2, 0)); iexact HI
    isplitl [HO]; · iexact HO
    isplitl [Tb2]; · iexact Tb2
    isplitl [Hr2]
    · rw [t_pay_sig2]
      isplitl [Hr2]; · iexists f0; iexact Hr2
      iapply (reached_at (F := F) (c, 5)); iexact HR
    · iapply (reached_at (F := F) (sh c 2, 0)); iexact HR
  iintro HO
  iapply (Rounds.wp_signal 𝒱₀ ER (rd m ρ) (c : Thread nD τ) none (dst := (sh c 3 : Thread nD τ)) (κ := K (sh c 3, 0))
      (d := (2 : Fin 3)) (by rw [duties_bar]; exact Finset.mem_univ _) ((amount_bar m ρ (sh c 3) 2).trans (by decide)) () (R1 c) rfl)
    $$ [HO Tb3 Hr3]
  · isplitr; · iapply (inv_at m ρ K (sh c 3, 0)); iexact HI
    isplitl [HO]; · iexact HO
    isplitl [Tb3]; · iexact Tb3
    isplitl [Hr3]
    · rw [t_pay_sig3]
      isplitl [Hr3]; · iexists f0; iexact Hr3
      iapply (reached_at (F := F) (c, 6)); iexact HR
    · iapply (reached_at (F := F) (sh c 3, 0)); iexact HR
  iintro HO
  -- the block's rows summed into row 0
  iapply (wp_load 𝒱₀ (c : Thread nD τ) none Set.univ (m := xM) (Finset.subset_univ _)) $$ Hx; iintro Hx
  rw [read_x]
  ihave Hr0 := (Entails.of_eq (rowPts_eq c 0 fullShare f0)) $$ Hr0
  iapply (wp_load 𝒱₀ (c : Thread nD τ) none Set.univ (m := cM) (S := (rowM 0).view.set) (row_load_sub 0)) $$ Hr0; iintro Hr0
  ihave Hr0 := (Entails.of_eq ((rowPts_eq c 0 fullShare f0).symm.trans (rowPts_eq_acc c f0))) $$ Hr0
  iapply (wp_store 𝒱₀ (c : Thread nD τ) none Set.univ (m := cM) (r := rowRect 0) (Mk := Finset.univ) (S := (rowM 0).view.set) (le_of_eq (row_access_set 0))) $$ Hr0; iintro Hr0
  ihave Hr0 := (Entails.of_eq (row0_stored' m ρ c f0)) $$ Hr0
  -- the wait for the three signals: the three rows to overwrite come with it
  iapply (Rounds.wp_wait_rest_token 𝒱₀ ER (rd m ρ) (c : Thread nD τ) none (κ := K (c, 0))
      (wpE_semWait_eq 𝒱₀ (c : Thread nD τ) none Set.univ) (Set.mem_univ _) () (O := R1 c) (W := W) (R := 0) (m := 0) (T := ∅)
      (by rw [show ((c : Thread nD τ), SemLoc.reg barS) = cell c 0 from rfl, expect_bar]; decide)) $$ [Cb HO Ha0]
  · isplitr; · iapply (inv_at m ρ K (c, 0)); iexact HI
    isplitl [Cb]; · iexact Cb
    isplitl [HO]; · iexact HO
    isplitr; · iapply (mayWait_bar c); iexact Hlev
    iexact Ha0
  iintro ⟨HO, Ha0, -, Hpay⟩
  ihave Hp := (Entails.of_eq (rest_bar m ρ c)) $$ Hpay
  unfold barPay
  icases Hp with ⟨⟨⟨%fn3, Hn3⟩, #Rn3⟩, ⟨⟨%fn2, Hn2⟩, #Rn2⟩, ⟨%fn1, Hn1⟩, #Rn1⟩
  -- row 0 at three shares, one a copy
  ihave Hs := (row0_shares c (row0F m ρ c)).1 $$ Hr0
  icases Hs with ⟨Hq0, Hq1, Hq2⟩
  unfold rowPts
  unfold R1
  iapply (wp_send_gen m ρ c (sh c 2) _ (dev4_eq c) (rowM 0) (rowM 2) (sSem 1) (rSem 1) (K (c, 2)) (K (sh c 2, 5)) (qS 1) (row0F m ρ c)
      (by rw [show ((c : Thread nD τ), SemLoc.dma (sSem 1)) = cell c 2 from rfl, t_duties_2]; exact Finset.mem_singleton_self _)
      (by rw [show ((sh c 2 : Thread nD τ), SemLoc.dma (rSem 1)) = cell (sh c 2) 5 from rfl, t_duties_5]; exact Finset.mem_singleton_self _)
      rfl (t_amount_2 m ρ c 0) (t_amount_5 m ρ (sh c 2) 0)
      (by rw [show ((c : Thread nD τ), SemLoc.dma (sSem 1)) = cell c 2 from rfl, t_pay_send2]; unfold rowPts; exact BI.Entails.refl _)
      (fun fd => by rw [show ((sh c 2 : Thread nD τ), SemLoc.dma (rSem 1)) = cell (sh c 2) 5 from rfl, t_pay_recv5]; exact recv_landed m ρ c 2 1 (by decide) fd)
      fn2 (R2 c + tallyAt (cell (sh c 2) (rK 1)) () N) (R2 c) rfl _) $$ [Hq1 Hn2 HO Ts1 Tr2]
  · isplitr; · iapply (inv_at m ρ K (c, 2)); iexact HI
    isplitr; · iapply (inv_at m ρ K (sh c 2, 5)); iexact HI
    isplitl [Hq1]; · iexact Hq1
    isplitl [Hn2]; · iexact Hn2
    isplitl [HO]; · iexact HO
    isplitl [Ts1]; · iexact Ts1
    isplitr; · iapply (reached_at (F := F) (c, 2)); iexact HR
    isplitl [Tr2]; · iexact Tr2
    iexact Rn2
  iintro ⟨Cs2, HO⟩
  unfold R2
  iapply (wp_send_gen m ρ c (sh c 1) _ (dev5_eq c) (rowM 0) (rowM 3) (sSem 0) (rSem 2) (K (c, 1)) (K (sh c 1, 6)) (qS 0) (row0F m ρ c)
      (by rw [show ((c : Thread nD τ), SemLoc.dma (sSem 0)) = cell c 1 from rfl, t_duties_1]; exact Finset.mem_singleton_self _)
      (by rw [show ((sh c 1 : Thread nD τ), SemLoc.dma (rSem 2)) = cell (sh c 1) 6 from rfl, t_duties_6]; exact Finset.mem_singleton_self _)
      rfl (t_amount_1 m ρ c 0) (t_amount_6 m ρ (sh c 1) 0)
      (by rw [show ((c : Thread nD τ), SemLoc.dma (sSem 0)) = cell c 1 from rfl, t_pay_send1]; unfold rowPts; exact BI.Entails.refl _)
      (fun fd => by rw [show ((sh c 1 : Thread nD τ), SemLoc.dma (rSem 2)) = cell (sh c 1) 6 from rfl, t_pay_recv6]; exact recv_landed m ρ c 1 2 (by decide) fd)
      fn1 (R3 c + tallyAt (cell (sh c 1) (rK 2)) () N) (R3 c) rfl _) $$ [Hq0 Hn1 HO Ts0 Tr1]
  · isplitr; · iapply (inv_at m ρ K (c, 1)); iexact HI
    isplitr; · iapply (inv_at m ρ K (sh c 1, 6)); iexact HI
    isplitl [Hq0]; · iexact Hq0
    isplitl [Hn1]; · iexact Hn1
    isplitl [HO]; · iexact HO
    isplitl [Ts0]; · iexact Ts0
    isplitr; · iapply (reached_at (F := F) (c, 1)); iexact HR
    isplitl [Tr1]; · iexact Tr1
    iexact Rn1
  iintro ⟨Cs1, HO⟩
  unfold R3
  iapply (wp_send_gen m ρ c (sh c 3) _ (dev6_eq c) (rowM 0) (rowM 1) (sSem 2) (rSem 0) (K (c, 3)) (K (sh c 3, 4)) (qS 2) (row0F m ρ c)
      (by rw [show ((c : Thread nD τ), SemLoc.dma (sSem 2)) = cell c 3 from rfl, t_duties_3]; exact Finset.mem_singleton_self _)
      (by rw [show ((sh c 3 : Thread nD τ), SemLoc.dma (rSem 0)) = cell (sh c 3) 4 from rfl, t_duties_4]; exact Finset.mem_singleton_self _)
      rfl (t_amount_3 m ρ c 0) (t_amount_4 m ρ (sh c 3) 0)
      (by rw [show ((c : Thread nD τ), SemLoc.dma (sSem 2)) = cell c 3 from rfl, t_pay_send3]; unfold rowPts; exact BI.Entails.refl _)
      (fun fd => by rw [show ((sh c 3 : Thread nD τ), SemLoc.dma (rSem 0)) = cell (sh c 3) 4 from rfl, t_pay_recv4]; exact recv_landed m ρ c 3 0 (by decide) fd)
      fn3 (tallyAt (cell (sh c 3) (rK 0)) () N) (0) (zero_add _).symm _) $$ [Hq2 Hn3 HO Ts2 Tr3]
  · isplitr; · iapply (inv_at m ρ K (c, 3)); iexact HI
    isplitr; · iapply (inv_at m ρ K (sh c 3, 4)); iexact HI
    isplitl [Hq2]; · iexact Hq2
    isplitl [Hn3]; · iexact Hn3
    isplitl [HO]; · iexact HO
    isplitl [Ts2]; · iexact Ts2
    isplitr; · iapply (reached_at (F := F) (c, 3)); iexact HR
    isplitl [Tr3]; · iexact Tr3
    iexact Rn3
  iintro ⟨Cs3, HO⟩
  -- the six waits: each departure brings its share of row 0 back, each arrival a row landed
  iapply (Rounds.wp_wait_rest_token 𝒱₀ ER (rd m ρ) (c : Thread nD τ) none (κ := K (c, 2))
      (wpE_waitDma2_eq 𝒱₀ (c : Thread nD τ) none Set.univ) (Set.mem_univ _) () (O := 0) (R := 0) (m := 0) (T := ∅)
      (by rw [Nat.zero_add, show ((c : Thread nD τ), csem 2) = cell c 2 from rfl, t_expect_2])) $$ [Cs2 HO Ha2]
  · isplitr; · iapply (inv_at m ρ K (c, 2)); iexact HI
    isplitl [Cs2]; · iexact Cs2
    isplitl [HO]; · iexact HO
    isplitr; · rw [MayWait_zero]; iempintro
    iexact Ha2
  iintro ⟨HO, Ha2, -, Hpay⟩
  ihave P2 := (Entails.of_eq (rest_x m ρ c 2 (by decide))) $$ Hpay
  iapply (Rounds.wp_wait_rest_token 𝒱₀ ER (rd m ρ) (c : Thread nD τ) none (κ := K (c, 5))
      (wpE_waitDma2_eq 𝒱₀ (c : Thread nD τ) none Set.univ) (Set.mem_univ _) () (O := 0) (R := 0) (m := 0) (T := ∅)
      (by rw [Nat.zero_add, show ((c : Thread nD τ), csem 5) = cell c 5 from rfl, t_expect_5])) $$ [Cr1 HO Ha5]
  · isplitr; · iapply (inv_at m ρ K (c, 5)); iexact HI
    isplitl [Cr1]; · iexact Cr1
    isplitl [HO]; · iexact HO
    isplitr; · rw [MayWait_zero]; iempintro
    iexact Ha5
  iintro ⟨HO, Ha5, -, Hpay⟩
  ihave P5 := (Entails.of_eq (rest_x m ρ c 5 (by decide))) $$ Hpay
  iapply (Rounds.wp_wait_rest_token 𝒱₀ ER (rd m ρ) (c : Thread nD τ) none (κ := K (c, 1))
      (wpE_waitDma2_eq 𝒱₀ (c : Thread nD τ) none Set.univ) (Set.mem_univ _) () (O := 0) (R := 0) (m := 0) (T := ∅)
      (by rw [Nat.zero_add, show ((c : Thread nD τ), csem 1) = cell c 1 from rfl, t_expect_1])) $$ [Cs1 HO Ha1]
  · isplitr; · iapply (inv_at m ρ K (c, 1)); iexact HI
    isplitl [Cs1]; · iexact Cs1
    isplitl [HO]; · iexact HO
    isplitr; · rw [MayWait_zero]; iempintro
    iexact Ha1
  iintro ⟨HO, Ha1, -, Hpay⟩
  ihave P1 := (Entails.of_eq (rest_x m ρ c 1 (by decide))) $$ Hpay
  iapply (Rounds.wp_wait_rest_token 𝒱₀ ER (rd m ρ) (c : Thread nD τ) none (κ := K (c, 6))
      (wpE_waitDma2_eq 𝒱₀ (c : Thread nD τ) none Set.univ) (Set.mem_univ _) () (O := 0) (R := 0) (m := 0) (T := ∅)
      (by rw [Nat.zero_add, show ((c : Thread nD τ), csem 6) = cell c 6 from rfl, t_expect_6])) $$ [Cr2 HO Ha6]
  · isplitr; · iapply (inv_at m ρ K (c, 6)); iexact HI
    isplitl [Cr2]; · iexact Cr2
    isplitl [HO]; · iexact HO
    isplitr; · rw [MayWait_zero]; iempintro
    iexact Ha6
  iintro ⟨HO, Ha6, -, Hpay⟩
  ihave P6 := (Entails.of_eq (rest_x m ρ c 6 (by decide))) $$ Hpay
  iapply (Rounds.wp_wait_rest_token 𝒱₀ ER (rd m ρ) (c : Thread nD τ) none (κ := K (c, 3))
      (wpE_waitDma2_eq 𝒱₀ (c : Thread nD τ) none Set.univ) (Set.mem_univ _) () (O := 0) (R := 0) (m := 0) (T := ∅)
      (by rw [Nat.zero_add, show ((c : Thread nD τ), csem 3) = cell c 3 from rfl, t_expect_3])) $$ [Cs3 HO Ha3]
  · isplitr; · iapply (inv_at m ρ K (c, 3)); iexact HI
    isplitl [Cs3]; · iexact Cs3
    isplitl [HO]; · iexact HO
    isplitr; · rw [MayWait_zero]; iempintro
    iexact Ha3
  iintro ⟨HO, Ha3, -, Hpay⟩
  ihave P3 := (Entails.of_eq (rest_x m ρ c 3 (by decide))) $$ Hpay
  iapply (Rounds.wp_wait_rest_token 𝒱₀ ER (rd m ρ) (c : Thread nD τ) none (κ := K (c, 4))
      (wpE_waitDma2_eq 𝒱₀ (c : Thread nD τ) none Set.univ) (Set.mem_univ _) () (O := 0) (R := 0) (m := 0) (T := ∅)
      (by rw [Nat.zero_add, show ((c : Thread nD τ), csem 4) = cell c 4 from rfl, t_expect_4])) $$ [Cr0 HO Ha4]
  · isplitr; · iapply (inv_at m ρ K (c, 4)); iexact HI
    isplitl [Cr0]; · iexact Cr0
    isplitl [HO]; · iexact HO
    isplitr; · rw [MayWait_zero]; iempintro
    iexact Ha4
  iintro ⟨HO, Ha4, -, Hpay⟩
  ihave P4 := (Entails.of_eq (rest_x m ρ c 4 (by decide))) $$ Hpay
  ihave P1 := (Entails.of_eq (pay_send_eq1 m ρ c)) $$ P1
  ihave P2 := (Entails.of_eq (pay_send_eq2 m ρ c)) $$ P2
  ihave P3 := (Entails.of_eq (pay_send_eq3 m ρ c)) $$ P3
  ihave P4 := (Entails.of_eq (pay_recv_eq4 m ρ c)) $$ P4
  ihave P5 := (Entails.of_eq (pay_recv_eq5 m ρ c)) $$ P5
  ihave P6 := (Entails.of_eq (pay_recv_eq6 m ρ c)) $$ P6
  icases P4 with ⟨%w1, Hg1, %hw1⟩
  icases P5 with ⟨%w2, Hg2, %hw2⟩
  icases P6 with ⟨%w3, Hg3, %hw3⟩
  -- the six own cells close: their counters at zero are the device's again
  imod (Rounds.cell_close ER (rd m ρ) (Set.mem_univ (K (c, 1))) (fun h => h) (R := 0 + 1) (duties_later m ρ (cell c 1))) $$ [Ha1] with Hz1
  · isplitr; · iapply (inv_at m ρ K (c, 1)); iexact HI
    iexact Ha1
  imod (Rounds.cell_close ER (rd m ρ) (Set.mem_univ (K (c, 2))) (fun h => h) (R := 0 + 1) (duties_later m ρ (cell c 2))) $$ [Ha2] with Hz2
  · isplitr; · iapply (inv_at m ρ K (c, 2)); iexact HI
    iexact Ha2
  imod (Rounds.cell_close ER (rd m ρ) (Set.mem_univ (K (c, 3))) (fun h => h) (R := 0 + 1) (duties_later m ρ (cell c 3))) $$ [Ha3] with Hz3
  · isplitr; · iapply (inv_at m ρ K (c, 3)); iexact HI
    iexact Ha3
  imod (Rounds.cell_close ER (rd m ρ) (Set.mem_univ (K (c, 4))) (fun h => h) (R := 0 + 1) (duties_later m ρ (cell c 4))) $$ [Ha4] with Hz4
  · isplitr; · iapply (inv_at m ρ K (c, 4)); iexact HI
    iexact Ha4
  imod (Rounds.cell_close ER (rd m ρ) (Set.mem_univ (K (c, 5))) (fun h => h) (R := 0 + 1) (duties_later m ρ (cell c 5))) $$ [Ha5] with Hz5
  · isplitr; · iapply (inv_at m ρ K (c, 5)); iexact HI
    iexact Ha5
  imod (Rounds.cell_close ER (rd m ρ) (Set.mem_univ (K (c, 6))) (fun h => h) (R := 0 + 1) (duties_later m ρ (cell c 6))) $$ [Ha6] with Hz6
  · isplitr; · iapply (inv_at m ρ K (c, 6)); iexact HI
    iexact Ha6
  -- row 0 whole again; the four rows read and added
  ihave Hr0 := (row0_shares c (row0F m ρ c)).2 $$ [P1 P2 P3]
  · isplitl [P1]; · iexact P1
    isplitl [P2]; · iexact P2
    iexact P3
  ihave Hr0 := (Entails.of_eq (rowPts_eq c 0 fullShare (row0F m ρ c))) $$ Hr0
  iapply (wp_load 𝒱₀ (c : Thread nD τ) none Set.univ (m := cM) (S := (rowM 0).view.set) (row_load_sub 0)) $$ Hr0; iintro Hr0
  ihave Hg1 := (Entails.of_eq (rowPts_eq c 1 fullShare w1)) $$ Hg1
  iapply (wp_load 𝒱₀ (c : Thread nD τ) none Set.univ (m := cM) (S := (rowM 1).view.set) (row_load_sub 1)) $$ Hg1; iintro Hg1
  ihave Hg2 := (Entails.of_eq (rowPts_eq c 2 fullShare w2)) $$ Hg2
  iapply (wp_load 𝒱₀ (c : Thread nD τ) none Set.univ (m := cM) (S := (rowM 2).view.set) (row_load_sub 2)) $$ Hg2; iintro Hg2
  ihave Hg3 := (Entails.of_eq (rowPts_eq c 3 fullShare w3)) $$ Hg3
  iapply (wp_load 𝒱₀ (c : Thread nD τ) none Set.univ (m := cM) (S := (rowM 3).view.set) (row_load_sub 3)) $$ Hg3; iintro Hg3
  iapply (wp_load 𝒱₀ (c : Thread nD τ) none Set.univ (m := oM) (Finset.subset_univ _)) $$ Hout; iintro Hout
  iapply (wp_store 𝒱₀ (c : Thread nD τ) none Set.univ (m := oM) (r := Rect.unit (s := S1x256) ![0, 0] S1x256.size inb_S1x256_S1x256_0_0) (Mk := Finset.univ) (Finset.subset_univ _)) $$ Hout; iintro Hout
  rw [write_out, wp_ret]; imodintro
  iapply Hk
  unfold bodyPost Φ₁
  ihave Hr0 := (Entails.of_eq (rowPts_eq c 0 fullShare (row0F m ρ c)).symm) $$ Hr0
  ihave Hg1 := (Entails.of_eq (rowPts_eq c 1 fullShare w1).symm) $$ Hg1
  ihave Hg2 := (Entails.of_eq (rowPts_eq c 2 fullShare w2).symm) $$ Hg2
  ihave Hg3 := (Entails.of_eq (rowPts_eq c 3 fullShare w3).symm) $$ Hg3
  isplitl [Hr0 Hg1 Hg2 Hg3 Hz1 Hz2 Hz3 Hz4 Hz5 Hz6]
  · isplitl [Hr0 Hg1 Hg2 Hg3]
    · iapply (rows_join c (row0F m ρ c) w1 w2 w3)
      isplitl [Hr0]; · iexact Hr0
      isplitl [Hg1]; · iexact Hg1
      isplitl [Hg2]; · iexact Hg2
      iexact Hg3
    isplitl [Hz1]; · iexact Hz1
    isplitl [Hz2]; · iexact Hz2
    isplitl [Hz3]; · iexact Hz3
    isplitl [Hz4]; · iexact Hz4
    isplitl [Hz5]; · iexact Hz5
    iexact Hz6
  isplitl [HO]
  · iapply (owes_done m ρ c _); iexact HO
  isplitl [Hx]
  · iexists _; isplitr; · (ipureintro; rfl)
    iexact Hx
  iexists _; isplitr; · (ipureintro; exact out_val m ρ c _ _ _ _ (read_row0F m ρ c) hw1 hw2 hw3)
  iexact Hout

end Body3

section Obligation

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2⟩
      isplitl [H1]; · iexact H1
      isplitl [H2]; · iexact H2
      iexact Hscr
    isplitl [Ho]; · iexact Ho
    isplitl [Hx] <;> iassumption
  · iintro H; iexact H

end Obligation

end Cert.KernelProof

end
-- ==== Proof.KernelLaunch.lean ====
/-
  The launch: the ring's ghost state dealt to the four devices in one step (every device's cells allocated together, since
  each is credited by the others), the credit the launch hands each device for what the others owe it, and the run of the
  program: every weakly fair execution on the four devices terminates, with each device's result array at the mean of
  the column sums of the four blocks and its block of x unchanged.
-/
import proofs.«900376_g7700000000000377_dist_mean_ax0_shard0_i_m512_n256_v7x_i4_f32_1_alg».proof.Proof.KernelBody

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own (scoped) semaphores, as the launch theorem indexes them: the three departures, the three arrivals. -/
abbrev osem : Fin 6 → SemLoc sig
  | 0 => csem 1 | 1 => csem 2 | 2 => csem 3 | 3 => csem 4 | 4 => csem 5 | 5 => csem 6

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_inj h2]
def ringCells : Finset (GSem nD τ sig) := Finset.univ.map ⟨kcell, kcell_injective⟩

/-- A device's own cells' duty tokens as minted, by (cell, duty): the barrier cell's three, one each for the six others. -/
abbrev tokIdx : Fin 9 → Fin 7 × Fin 3
  | 0 => (0, 0) | 1 => (0, 1) | 2 => (0, 2) | 3 => (1, 0) | 4 => (2, 0) | 5 => (3, 0) | 6 => (4, 0) | 7 => (5, 0) | 8 => (6, 0)
theorem tokIdx_inj : Function.Injective tokIdx := by decide
abbrev tokOf (cj : Dev nD × Fin 9) : GSem nD τ sig × ℕ × Fin 3 := (cell cj.1 (tokIdx cj.2).1, 0, (tokIdx cj.2).2)
theorem tokOf_injective : Function.Injective (tokOf : Dev nD × Fin 9 → GSem nD τ sig × ℕ × Fin 3) := by
  rintro ⟨c, j⟩ ⟨c', j'⟩ h
  have h1 : c = c' := congrArg (fun x : GSem nD τ sig × ℕ × Fin 3 => x.1.1.1) h
  subst h1
  have h2 : csem (tokIdx j).1 = csem (tokIdx j').1 := congrArg (fun x : GSem nD τ sig × ℕ × Fin 3 => x.1.2) h
  have h3 : (tokIdx j).2 = (tokIdx j').2 := congrArg (fun x : GSem nD τ sig × ℕ × Fin 3 => x.2.2) h
  rw [tokIdx_inj (Prod.ext (csem_inj h2) h3)]
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (cell c 0) 0 0 ∗ dutyTok ER (cell c 0) 0 1 ∗ dutyTok ER (cell c 0) 0 2
    ∗ dutyTok ER (cell c 1) 0 0 ∗ dutyTok ER (cell c 2) 0 0 ∗ dutyTok ER (cell c 3) 0 0
    ∗ dutyTok ER (cell c 4) 0 0 ∗ dutyTok ER (cell c 5) 0 0 ∗ dutyTok ER (cell c 6) 0 0)

/-- What the launch element deals device `c`. -/
def G (c : Dev nD) : sProp 𝕄 :=
  iprop((bigSep Finset.univ fun k : Fin 7 => roundState ER (rd m ρ) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin9]; rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (cell c 1) 0 ∗ semVal (cell c 2) 0 ∗ semVal (cell c 3) 0 ∗ semVal (cell c 4) 0 ∗ semVal (cell c 5) 0 ∗ semVal (cell c 6) 0) := by
  rw [Pipeline.ownSems0_eq_of_list c osem [0, 1, 2, 3, 4, 5] (by decide) (by decide)]; rfl
omit [FloatOps F] in
theorem unscopedSems0_eq (c : Dev nD) : (unscopedSems0 c : sProp 𝕄) = semVal (cell c 0) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt around the ring: the token of duty `d` of a barrier cell goes to its signaller, `3 - d` places on; an
    arrival cell's token to the device whose copy credits it; the departure cells' stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep',
    bigSep_univ_equiv (shE 1 (by decide)) (fun c : Dev nD => (dutyTok ER (cell c 0) 0 0 : sProp 𝕄)),
    bigSep_univ_equiv (shE 2 (by decide)) (fun c : Dev nD => (dutyTok ER (cell c 0) 0 1 : sProp 𝕄)),
    bigSep_univ_equiv (shE 3 (by decide)) (fun c : Dev nD => (dutyTok ER (cell c 0) 0 2 : sProp 𝕄)),
    bigSep_univ_equiv (shE 3 (by decide)) (fun c : Dev nD => (dutyTok ER (cell c 4) 0 0 : sProp 𝕄)),
    bigSep_univ_equiv (shE 2 (by decide)) (fun c : Dev nD => (dutyTok ER (cell c 5) 0 0 : sProp 𝕄)),
    bigSep_univ_equiv (shE 1 (by decide)) (fun c : Dev nD => (dutyTok ER (cell c 6) 0 0 : sProp 𝕄))]
  iintro ⟨B0, B1, B2, S1, S2, S3, V4, V5, V6⟩
  isplitl [B0]; · iexact B0
  isplitl [B1]; · iexact B1
  isplitl [B2]; · iexact B2
  isplitl [V5]; · iexact V5
  isplitl [V6]; · iexact V6
  isplitl [V4]; · iexact V4
  isplitl [S1]; · iexact S1
  isplitl [S2]; · iexact S2
  iexact S3

omit [FloatOps F] in
theorem bigSep_with_persistent' {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (rd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (rd m ρ) κ (kcell ck) : sProp 𝕄))) $$ HI
  icases HK with ⟨%K, #HI⟩
  ihave Htk := (toks_around (F := F)) $$ Htok
  iapply (bigSep_with_persistent' (R := records m ρ K) (Φ := fun c : Dev nD => iprop(posns c ∗ payToks c)) fun c _ => show iprop(records m ρ K ∗ (posns c ∗ payToks c)) ⊢ G' m ρ c from by
    unfold G' ghost
    iintro ⟨#HR', HP, HT⟩
    iexists K
    isplitr; · iexact HR'
    isplitl [HP] <;> iassumption)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ iprop(posns c ∗ payToks c) from Entails.of_eq (by unfold posns; rw [bigSep_fin7])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- What the launch hands device `c` for what the others owe its cells. -/
theorem creds_intro (c : Dev nD) : (Pipeline.launchCred O₀ c : sProp 𝕄) ⊢ creds c := by
  have e : (O₀ : Dev nD → CellTallies nD τ sig Unit)
      = fun d => ((((tallyAt (((sh d 3 : Dev nD) : Thread nD τ), csem 4) () N + tallyAt (((sh d 1 : Dev nD) : Thread nD τ), csem 6) () N)
          + tallyAt (((sh d 2 : Dev nD) : Thread nD τ), csem 5) () N) + tallyAt (((sh d 3 : Dev nD) : Thread nD τ), csem 0) () 1)
          + tallyAt (((sh d 2 : Dev nD) : Thread nD τ), csem 0) () 1) + tallyAt (((sh d 1 : Dev nD) : Thread nD τ), csem 0) () 1 := rfl
  rw [e, Pipeline.launchCred_add, Pipeline.launchCred_add, Pipeline.launchCred_add, Pipeline.launchCred_add, Pipeline.launchCred_add]
  iintro ⟨⟨⟨⟨⟨H4, H6⟩, H5⟩, Hb3⟩, Hb2⟩, Hb1⟩
  ihave C4 := (Pipeline.launchCred_tallyAt (csem 4) (fun d => sh d 3) (fun d => sh d 1) (fun d => by rw [sh_sh]; exact sh_four d) (fun d => by rw [sh_sh]; exact sh_four d) () N c) $$ H4
  ihave C6 := (Pipeline.launchCred_tallyAt (csem 6) (fun d => sh d 1) (fun d => sh d 3) (fun d => by rw [sh_sh]; exact sh_four d) (fun d => by rw [sh_sh]; exact sh_four d) () N c) $$ H6
  ihave C5 := (Pipeline.launchCred_tallyAt (csem 5) (fun d => sh d 2) (fun d => sh d 2) (fun d => by rw [sh_sh]; exact sh_four d) (fun d => by rw [sh_sh]; exact sh_four d) () N c) $$ H5
  ihave B3 := (Pipeline.launchCred_tallyAt (csem 0) (fun d => sh d 3) (fun d => sh d 1) (fun d => by rw [sh_sh]; exact sh_four d) (fun d => by rw [sh_sh]; exact sh_four d) () 1 c) $$ Hb3
  ihave B2 := (Pipeline.launchCred_tallyAt (csem 0) (fun d => sh d 2) (fun d => sh d 2) (fun d => by rw [sh_sh]; exact sh_four d) (fun d => by rw [sh_sh]; exact sh_four d) () 1 c) $$ Hb2
  ihave B1 := (Pipeline.launchCred_tallyAt (csem 0) (fun d => sh d 1) (fun d => sh d 3) (fun d => by rw [sh_sh]; exact sh_four d) (fun d => by rw [sh_sh]; exact sh_four d) () 1 c) $$ Hb1
  unfold creds
  isplitl [B1 B2 B3]
  · rw [show (tallyAt (cell c 0) () 3 : CellTallies nD τ sig Unit) = tallyAt (cell c 0) () 1 + (tallyAt (cell c 0) () 1 + tallyAt (cell c 0) () 1) from by
      rw [tallyAt_add, tallyAt_add]]
    iapply (cred_add _ _).2
    isplitl [B1]; · iexact B1
    iapply (cred_add _ _).2
    isplitl [B2] <;> iassumption
  isplitl [C4]; · iexact C4
  isplitl [C5] <;> iassumption

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨⟨%f, Hr⟩, Hz⟩
  isplitr; · iempintro
  isplitl [Hz]; · iexact Hz
  iexists f; iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> rfl) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of @main terminates, and every final state has each device's result array and its block of `x` at the
    contents the proof data name. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The block of `x` after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-! ### The arrays after the run -/

omit [FloatOps F] in
/-- The result window's block is its whole array. -/
theorem read_whole_out (c : Dev nD) (t : Fin cfg0.N) (G : Buf (Elt F) ((cfg0.win (1 : Fin 2)).arr.view.loc (c : Thread nD τ))) :
    ((cfg0.win (1 : Fin 2)).blk t).view.read (Elt F) G = G := by
  rw [fin_N t]
  exact Memref.read_access_unit_zero (Elt F) main_v1 (off := fun a => win0_1.index t₀ a * win0_1.size a)
    (funext fun a => by show 0 * _ = 0; exact Nat.zero_mul _) _ G

theorem flushed_out (c : Dev nD) (t : Fin cfg0.N) : (dats m ρ 0 c).flushed (1 : Fin 2) t = outAt m ρ c := by
  rw [fin_N t]
  rfl

omit [FloatOps F] in
/-- A device's staged block of `x` is its argument array. -/
theorem xblk_eq (c : Dev nD) : xblk m ρ c = m ((c : Thread nD τ).loc main_arg0) := by
  unfold xblk
  exact Memref.read_access_unit_zero (Elt F) main_arg0 (off := fun a => win0_0.index (0 : Fin 1) a * win0_0.size a)
    (funext fun a => by show 0 * _ = 0; exact Nat.zero_mul _) _ _

/-- The result array after the run holds the mean of the four column sums. -/
theorem arrAt_out (c : Dev nD) : (dats m ρ 0 c).arrAt (1 : Fin 2) cfg0.N = outAt m ρ c :=
  (dats m ρ 0 c).arrAt_eq_of_cover (1 : Fin 2) (outAt m ρ c)
    (fun t _ => (flushed_out m ρ c t).trans (read_whole_out c t _).symm)
    (fun i => ⟨t₀, rfl, by
      show i ∈ ((Memref.whole main_v1 : Memref sig .tc .hbm _ _).view.slice (win0_1.rect t₀)).set
      rw [View.set_slice_whole]
      exact View.mem_set_unit_zero (funext fun a => by show 0 * _ = 0; exact Nat.zero_mul _) _ i⟩)

/-- The run, with each device's result named and its argument unchanged. -/
theorem run : θ_run defs (onTc (τ := τ) (main (F := F))) ⟨m, fun _ => 0, ρ⟩ (fun r => ∀ c : Dev nD,
    r.2.mem ((c.tc : Thread nD τ).loc main_v1) = outAt m ρ c
      ∧ r.2.mem ((c.tc : Thread nD τ).loc main_arg0) = m ((c.tc : Thread nD τ).loc main_arg0)) :=
  (θ_run defs _ _).mono (fun r h c => ⟨(h c (1 : Fin 2)).trans (arrAt_out m ρ c), (h c (0 : Fin 2)).trans (finalA_x m ρ c)⟩) (run_main m ρ)

end Cert.KernelProof

end
-- ==== Proof.KernelIdealCells.lean ====
/-
  One kernel on a ring of four devices. Device c first tells each of the three other devices, on the runtime's
  barrier semaphore, that it has entered; it sums the 512 rows of its block of x into row 0 of a four-row scratch
  buffer; it waits for the three devices' signals; it copies row 0 into row 4 - d of device c + d for d = 2, 1, 3;
  it waits for its three copies to have left and for the three rows sent to it to have landed; and it writes the sum
  of the four rows times 1/2048.

  This module: the ring, the semaphore cells (seven a device: the barrier cell, three departure cells, three arrival
  cells), the four rows of the scratch buffer as element sets, the values, and the schedule of the cells' rounds.
  Row s of device c ends holding the column sums of the block of device c + s.
-/
import proofs.«900376_g7700000000000377_dist_mean_ax0_shard0_i_m512_n256_v7x_i4_f32_1_alg».proof.Proof.Gen.KernelIdeal
import proofs.«900376_g7700000000000377_dist_mean_ax0_shard0_i_m512_n256_v7x_i4_f32_1_alg».proof.Proof.Gen.KernelIdeal.Skeleton
import proofs.«900376_g7700000000000377_dist_mean_ax0_shard0_i_m512_n256_v7x_i4_f32_1_alg».proof.Proof.Gen.KernelIdeal.Launch
import proofs.«900376_g7700000000000377_dist_mean_ax0_shard0_i_m512_n256_v7x_i4_f32_1_alg».proof.Proof.Gen.KernelIdeal.Points
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the ring's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The ring -/

/-- The device `k` places after `c` on the ring of four. -/
def sh (c : Dev nD) (k : ℕ) : Dev nD := ⟨(c.val + k) % 4, Nat.mod_lt _ (by decide)⟩

theorem sh_sh (c : Dev nD) (j k : ℕ) : sh (sh c j) k = sh c (j + k) := Fin.ext (by simp only [sh]; omega)
theorem sh_four (c : Dev nD) : sh c 4 = c := Fin.ext (by have hc : c.val < 4 := c.isLt; simp only [sh]; omega)
theorem sh_zero (c : Dev nD) : sh c 0 = c := Fin.ext (by have hc : c.val < 4 := c.isLt; simp only [sh]; omega)
theorem sh_inj (k : ℕ) {a b : Dev nD} (h : sh a k = sh b k) : a = b := by
  have := congrArg Fin.val h; have ha : a.val < 4 := a.isLt; have hb : b.val < 4 := b.isLt; simp only [sh] at this; exact Fin.ext (by omega)

/-- The shift by `k` as a permutation of the devices (`k ≤ 4`). -/
def shE (k : ℕ) (hk : k ≤ 4) : Dev nD ≃ Dev nD :=
  ⟨fun c => sh c k, fun c => sh c (4 - k), fun c => by show sh (sh c k) (4 - k) = c; rw [sh_sh, Nat.add_sub_cancel' hk, sh_four],
    fun c => by show sh (sh c (4 - k)) k = c; rw [sh_sh, Nat.sub_add_cancel hk, sh_four]⟩

/-- The kernel's `device_id` chains: the three signals name c + 1, c + 2, c + 3; the three copies c + 2, c + 1, c + 3. -/
theorem dev1_eq : ∀ c : Dev nD, (⟨k0_dev1 c, k0_dev1_lt c⟩ : Dev nD) = sh c 1 := by decide +kernel
theorem dev2_eq : ∀ c : Dev nD, (⟨k0_dev2 c, k0_dev2_lt c⟩ : Dev nD) = sh c 2 := by decide +kernel
theorem dev3_eq : ∀ c : Dev nD, (⟨k0_dev3 c, k0_dev3_lt c⟩ : Dev nD) = sh c 3 := by decide +kernel
theorem dev4_eq : ∀ c : Dev nD, (⟨k0_dev4 c, k0_dev4_lt c⟩ : Dev nD) = sh c 2 := by decide +kernel
theorem dev5_eq : ∀ c : Dev nD, (⟨k0_dev5 c, k0_dev5_lt c⟩ : Dev nD) = sh c 1 := by decide +kernel
theorem dev6_eq : ∀ c : Dev nD, (⟨k0_dev6 c, k0_dev6_lt c⟩ : Dev nD) = sh c 3 := by decide +kernel

/-! ## The memrefs and the cells -/

abbrev xM : Memref sig .tc .vmem S512x256 .f32 := Memref.whole cc0_stg0_0
abbrev oM : Memref sig .tc .vmem S1x256 .f32 := Memref.whole cc0_stg1_0
abbrev cM : Memref sig .tc .vmem S4x1x256 .f32 := Memref.whole cc0_scratch0

/-- Row `s` of the scratch buffer as a rectangle: first coordinate `s`. -/
abbrev rowRect (s : Fin 4) : Rect S4x1x256 :=
  Rect.unit (s := S4x1x256) ![s.val, 0, 0] S1x1x256.size (fun a => by
    have hs : s.val < 4 := s.isLt
    match a with
    | ⟨0, _⟩ => show s.val + 1 ≤ 4; omega
    | ⟨1, _⟩ => show 0 + 1 ≤ 1; omega
    | ⟨2, _⟩ => show 0 + 256 ≤ 256; omega)

/-- Row `s` as the kernel slices and squeezes it: a [1, 256] memref. -/
abbrev rowM (s : Fin 4) : Memref sig .tc .vmem S1x256 .f32 :=
  (cM.slice (rowRect s) (fun _ => rfl)).squeeze S1x256 squeezes_S1x1x256_S1x256

/-- The runtime's barrier semaphore of collective id 0; the departure and arrival DMA semaphores. -/
abbrev barS : Sem sig := (SemArray.scalar (sig.barrier 0 rfl) : Sems sig S_).sem
abbrev sSem : Fin 3 → DmaSem sig
  | 0 => ((cc0_scratch1.slice (Rect.unit (s := S3) ![0] S1.size inb_S3_S1_0)).squeeze S_ squeezes_S1_S_).sem
  | 1 => ((cc0_scratch1.slice (Rect.unit (s := S3) ![1] S1.size inb_S3_S1_1)).squeeze S_ squeezes_S1_S_).sem
  | 2 => ((cc0_scratch1.slice (Rect.unit (s := S3) ![2] S1.size inb_S3_S1_2)).squeeze S_ squeezes_S1_S_).sem
abbrev rSem : Fin 3 → DmaSem sig
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem

/-- A device's seven semaphores: the barrier, departures 0..2, arrivals 0..2. -/
abbrev csem : Fin 7 → SemLoc sig
  | 0 => .reg barS | 1 => .dma (sSem 0) | 2 => .dma (sSem 1) | 3 => .dma (sSem 2)
  | 4 => .dma (rSem 0) | 5 => .dma (rSem 1) | 6 => .dma (rSem 2)

abbrev cell (c : Dev nD) (k : Fin 7) : GSem nD τ sig := ((c : Thread nD τ), csem k)
abbrev kcell (ck : Dev nD × Fin 7) : GSem nD τ sig := cell ck.1 ck.2

theorem csem_inj : Function.Injective csem := by decide

/-- Which of the seven a semaphore is. -/
def kOf (sm : SemLoc sig) : Option (Fin 7) := (List.finRange 7).find? (fun k => csem k = sm)
theorem kOf_csem : ∀ k : Fin 7, kOf (csem k) = some k := by decide

/-! ## The rows of the scratch buffer as element sets -/

theorem rowM_set (s : Fin 4) : (rowM s).view.set = (rowRect s).set := by
  rw [Memref.set_view_squeeze]; exact View.set_slice_whole _ _

theorem mem_rowRect {s : Fin 4} {i : S4x1x256.Idx} : i ∈ (rowRect s).set ↔ (i 0).val = s.val := by
  rw [Rect.mem_set_unit]
  constructor
  · intro h; have := h 0
    have h1 : (![s.val, 0, 0] : Fin 3 → ℕ) 0 = s.val := rfl
    have h2 : (S1x1x256.size 0) = 1 := rfl
    rw [h1, h2] at this; omega
  · intro h a
    have hi1 : (i 1).val < 1 := (i 1).isLt
    have hi2 : (i 2).val < 256 := (i 2).isLt
    match a with
    | ⟨0, _⟩ => exact ⟨by show s.val ≤ (i 0).val; omega, by show (i 0).val < s.val + 1; omega⟩
    | ⟨1, _⟩ => exact ⟨Nat.zero_le _, by show (i 1).val < 0 + 1; omega⟩
    | ⟨2, _⟩ => exact ⟨Nat.zero_le _, by show (i 2).val < 0 + 256; omega⟩

theorem rowRect_disjoint {s t : Fin 4} (h : s ≠ t) : Disjoint (rowRect s).set (rowRect t).set :=
  Finset.disjoint_left.mpr fun i hs ht => h (Fin.ext ((mem_rowRect.mp hs).symm.trans (mem_rowRect.mp ht)))

theorem rowRect_cover : Finset.univ.biUnion (fun s : Fin 4 => (rowRect s).set) = (Finset.univ : Finset S4x1x256.Idx) :=
  Finset.eq_univ_iff_forall.mpr fun i => Finset.mem_biUnion.mpr ⟨⟨(i 0).val, (i 0).isLt⟩, Finset.mem_univ _, mem_rowRect.mpr rfl⟩

/-- The kernel's literal rows are these (the offsets' spelling aside). -/
example : (rowM 2 : Memref sig .tc .vmem S1x256 .f32) = (cM.slice (Rect.unit (s := S4x1x256) ![2, 0, 0] S1x1x256.size inb_S4x1x256_S1x1x256_2_0_0) (fun _ => rfl)).squeeze S1x256 squeezes_S1x1x256_S1x256 := rfl

/-! ## The values -/

/-- Device `c`'s block of `x`, as its staging buffer holds it. -/
def xblk (c : Dev nD) : (cc0_stg0_0 : Ref sig .tc).ty.Contents (Elt F) :=
  (win0_0.blk (0 : Fin 1)).view.read (Elt F) ((s₀ m ρ).mem ((c : Thread nD τ).loc main_arg0))

/-- The column sums of device `c`'s block, as the [1, 1, 256] vector the kernel stores in row 0 and as the [1, 256]
    vector a row is read as. -/
def colsum3 (c : Dev nD) : FVec F S1x1x256 .f32 := k0_pay2 (xblk m ρ c)
def colsum (c : Dev nD) : FVec F S1x256 .f32 := shapeCast S1x256 (colsum3 m ρ c) shapeCasts_S1x1x256_S1x256

/-- The sum of four rows times the constant 2⁻¹¹. -/
def mean4 (a b c d : FVec F S1x256 .f32) : FVec F S1x256 .f32 :=
  mulf (addf (addf (addf a b) c) d) (broadcast S1x256 (Scalar.ofBits .f32 0x3A000000#32))

theorem pay1_eq (v155 v157 v160 v163 : Vec F S1x1x256 .f32) :
    k0_pay1 v155 v157 v160 v163 = mean4 (shapeCast S1x256 v155 shapeCasts_S1x1x256_S1x256) (shapeCast S1x256 v157 shapeCasts_S1x1x256_S1x256)
      (shapeCast S1x256 v160 shapeCasts_S1x1x256_S1x256) (shapeCast S1x256 v163 shapeCasts_S1x1x256_S1x256) := rfl

/-- The kernel's result on device `c`: the column sums of the blocks of c, c + 1, c + 2, c + 3, added in that order, times 2⁻¹¹. -/
def outAt (c : Dev nD) : (cc0_stg1_0 : Ref sig .tc).ty.Contents (Elt F) :=
  mean4 (colsum m ρ c) (colsum m ρ (sh c 1)) (colsum m ρ (sh c 2)) (colsum m ρ (sh c 3))

/-- Row 0 of device `c` once stored, at fixed contents elsewhere. -/
def row0F (c : Dev nD) : Buf (Elt F) ((cM : Memref sig .tc .vmem S4x1x256 .f32).view.loc (c : Thread nD τ)) :=
  (cM.access (rowRect 0) : View sig .tc _ _ _).write (Elt F) (fun _ => Classical.arbitrary _) (colsum3 m ρ c) Finset.univ

/-- A row read through its [1, 256] memref is the [1, 1, 256] load of it, reshaped. -/
theorem read_row (c : Dev nD) (s : Fin 4) (f : Buf (Elt F) ((cM : Memref sig .tc .vmem S4x1x256 .f32).view.loc (c : Thread nD τ))) :
    (rowM s).view.read (Elt F) f = shapeCast S1x256 ((cM : Memref sig .tc .vmem S4x1x256 .f32).view.readAt (Elt F) (rowRect s).toLoadRect f) shapeCasts_S1x1x256_S1x256 := rfl

theorem read_row0F (c : Dev nD) : (rowM 0).view.read (Elt F) (row0F m ρ c) = colsum m ρ c := by
  rw [read_row c]; unfold colsum row0F
  exact congrArg (fun v => shapeCast S1x256 v shapeCasts_S1x1x256_S1x256) (View.read_write_univ _ _)

/-! ## The schedule -/

abbrev N : ℕ := (rowM 0).view.dmaCredit
theorem N_pos : 0 < N := View.dmaCredit_pos _ (by decide)

abbrev cLoc (c : Dev nD) : Loc nD τ sig := (cM : Memref sig .tc .vmem S4x1x256 .f32).view.loc (c : Thread nD τ)

/-- Row `s` of device `c`'s scratch buffer held at share `q` with contents `f`. -/
def rowPts (c : Dev nD) (s : Fin 4) (q : PosShare TreeShare) (f : Buf (Elt F) (cLoc c)) : sProp 𝕄 :=
  (rowM s).view.loc (c : Thread nD τ) ↦[(rowM s).view.set]{q} f

omit [FloatOps F] in
instance rowPts_storable (c : Dev nD) (s q f) : BI.Storable (upEmb : UEmb _ 𝕄) (rowPts (F := F) c s q f) := by unfold rowPts; infer_instance

/-- The cell indices of departure `j` and arrival `j`. -/
abbrev sK (j : Fin 3) : Fin 7 := ⟨1 + j.val, by have := j.isLt; omega⟩
abbrev rK (j : Fin 3) : Fin 7 := ⟨4 + j.val, by have := j.isLt; omega⟩

/-- The three shares row 0 is read at by the three copies in flight at once. -/
def qS : Fin 3 → PosShare TreeShare
  | 0 => fullShare.left | 1 => fullShare.right.left | 2 => fullShare.right.right

/-- What the signal that is duty `d` of device `c`'s barrier cell hands `c`: the signaller is `p = c + 3 - d`; it
    hands over row `d + 1` of its scratch buffer, which `c` is about to overwrite, and that it stands at round 0 of
    the arrival cell `d` that `c`'s copy will credit. -/
def barPay (c : Dev nD) (d : Fin 3) : sProp 𝕄 :=
  iprop((∃ f, rowPts (sh c (3 - d.val)) d.succ fullShare f) ∗ reached ER (cell (sh c (3 - d.val)) (rK d)) 0)
/-- What a copy landing on arrival cell `j` of device `c` hands it: row `j + 1` holding the column sums of device `c + j + 1`. -/
def recvPay (c : Dev nD) (j : Fin 3) : sProp 𝕄 :=
  iprop(∃ f, rowPts c j.succ fullShare f ∗ ⌜(rowM j.succ).view.read (Elt F) f = colsum m ρ (sh c (j.val + 1))⌝)
/-- What a copy having left hands back on departure cell `j`: its share of row 0. -/
def sendPay (c : Dev nD) (j : Fin 3) : sProp 𝕄 := rowPts c 0 (qS j) (row0F m ρ c)

def pay (c : Dev nD) : Fin 7 → Fin 3 → sProp 𝕄
  | 0, d => barPay c d
  | 1, _ => sendPay m ρ c 0 | 2, _ => sendPay m ρ c 1 | 3, _ => sendPay m ρ c 2
  | 4, _ => recvPay m ρ c 0 | 5, _ => recvPay m ρ c 1 | 6, _ => recvPay m ρ c 2

/-- One round, round 0: a barrier cell has three duties of one unit each, one from each other device; a departure or
    arrival cell has the one duty `0` of a row's credit. -/
def rd : Rounds.Schedule (GSem nD τ sig) (Fin 3) 𝕄 where
  duties g r := if r = 0 ∧ g.1.2 = .tc then (match kOf g.2 with | some 0 => Finset.univ | some _ => {0} | none => ∅) else ∅
  unitless _ := False
  amount g _ _ := match kOf g.2 with | some 0 => 1 | _ => N
  payload g _ d := match kOf g.2 with | some k => pay m ρ g.1.1 k d | none => iprop(emp)
  amount_pos g _ _ _ := by
    show 0 < (match kOf g.2 with | some 0 => 1 | _ => N)
    split
    · exact Nat.one_pos
    · exact N_pos

instance rd_payload_storable (g : GSem nD τ sig) (r : ℕ) (d : Fin 3) :
    BI.Storable (upEmb : UEmb _ 𝕄) ((rd (F := F) m ρ).payload g r d) := by
  show BI.Storable upEmb (match kOf g.2 with | some k => pay m ρ g.1.1 k d | none => iprop(emp))
  split
  · rename_i k _
    unfold pay
    split <;> first | (unfold barPay rowPts; infer_instance) | (unfold sendPay rowPts; infer_instance) | (unfold recvPay rowPts; infer_instance)
  · infer_instance

section Sched
variable (c : Dev nD)

theorem duties_bar : (rd (F := F) m ρ).duties (cell c 0) 0 = Finset.univ := by
  dsimp only [rd]; rw [if_pos ⟨rfl, rfl⟩, kOf_csem]; rfl
theorem duties_x : ∀ k : Fin 7, k ≠ 0 → (rd (F := F) m ρ).duties (cell c k) 0 = {0} := fun k hk => by
  dsimp only [rd]; rw [if_pos ⟨rfl, rfl⟩, kOf_csem]
  fin_cases k <;> first | exact absurd rfl hk | rfl
theorem duties_later (g : GSem nD τ sig) : ∀ r, 1 ≤ r → (rd (F := F) m ρ).duties g r = ∅ :=
  fun r hr => by dsimp only [rd]; rw [if_neg fun h => by omega]
theorem amount_bar (d : Fin 3) : (rd (F := F) m ρ).amount (cell c 0) 0 d = 1 := by dsimp only [rd]; rw [kOf_csem]; rfl
theorem amount_x : ∀ k : Fin 7, k ≠ 0 → ∀ d : Fin 3, (rd (F := F) m ρ).amount (cell c k) 0 d = N := fun k hk d => by
  dsimp only [rd]; rw [kOf_csem]
  fin_cases k <;> first | exact absurd rfl hk | rfl
theorem payload_cell (k : Fin 7) (d : Fin 3) : (rd (F := F) m ρ).payload (cell c k) 0 d = pay m ρ c k d := by
  dsimp only [rd]; rw [kOf_csem]

theorem expect_bar : (rd (F := F) m ρ).expect (cell c 0) 0 = 3 := by
  unfold Schedule.expect Schedule.amountOf
  rw [duties_bar, Finset.sum_congr rfl fun d _ => amount_bar m ρ c d, Finset.sum_const, Finset.card_univ, Fintype.card_fin, smul_eq_mul]
theorem expect_x (k : Fin 7) (hk : k ≠ 0) : (rd (F := F) m ρ).expect (cell c k) 0 = N := by
  unfold Schedule.expect Schedule.amountOf; rw [duties_x m ρ c k hk, Finset.sum_singleton, amount_x m ρ c k hk]

end Sched

/-! ## What each device owes at launch; the levels -/

/-- Device `c` owes each copy's arrival cell a row's credit and each other device's barrier cell one unit — summed so that
    each statement, in program order (signals to c + 1, c + 2, c + 3; copies to c + 2, c + 1, c + 3), peels the last summand. -/
def R3 (c : Dev nD) : CellTallies nD τ sig Unit := tallyAt (cell (sh c 3) (rK 0)) () N
def R2 (c : Dev nD) : CellTallies nD τ sig Unit := R3 c + tallyAt (cell (sh c 1) (rK 2)) () N
def R1 (c : Dev nD) : CellTallies nD τ sig Unit := R2 c + tallyAt (cell (sh c 2) (rK 1)) () N
def B2 (c : Dev nD) : CellTallies nD τ sig Unit := R1 c + tallyAt (cell (sh c 3) 0) () 1
def B1 (c : Dev nD) : CellTallies nD τ sig Unit := B2 c + tallyAt (cell (sh c 2) 0) () 1
def O₀ (c : Dev nD) : CellTallies nD τ sig Unit := B1 c + tallyAt (cell (sh c 1) 0) () 1

def L (g : GSem nD τ sig) : Finset Unit := if g.1.2 = .tc then {()} else ∅
/-- Barrier cells at 1, arrival cells at 2, everything else (staging, departure) at 0. -/
def lv (g : GSem nD τ sig) (_ : Unit) : ℕ := match kOf g.2 with | some 0 => 1 | some 4 => 2 | some 5 => 2 | some 6 => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (cell c 0) () = 1 := by dsimp only [lv]; rw [kOf_csem]; rfl
theorem lv_recv (c : Dev nD) (j : Fin 3) : lv (cell c (rK j)) () = 2 := by
  dsimp only [lv]; rw [kOf_csem]; fin_cases j <;> rfl

theorem tallyAt_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

theorem add_pos_cases' {A B : CellTallies nD τ sig Unit} {g : GSem nD τ sig} {u : Unit} (h : 0 < (A + B) g u) : 0 < A g u ∨ 0 < B g u := by
  rw [Pi.add_apply, Finsupp.add_apply] at h; omega

theorem R1_pos {c : Dev nD} {g : GSem nD τ sig} {u : Unit} (h : 0 < R1 c g u) : ∃ (d : Dev nD) (j : Fin 3), g = cell d (rK j) := by
  unfold R1 R2 R3 at h
  rcases add_pos_cases' h with h | h
  · rcases add_pos_cases' h with h | h
    · exact ⟨_, _, tallyAt_pos h⟩
    · exact ⟨_, _, tallyAt_pos h⟩
  · exact ⟨_, _, tallyAt_pos h⟩

theorem O₀_pos {c : Dev nD} {g : GSem nD τ sig} {u : Unit} (h : 0 < O₀ c g u) :
    (∃ (d : Dev nD) (j : Fin 3), g = cell d (rK j)) ∨ ∃ d : Dev nD, g = cell d 0 := by
  unfold O₀ B1 B2 at h
  rcases add_pos_cases' h with h | h
  · rcases add_pos_cases' h with h | h
    · rcases add_pos_cases' h with h | h
      · exact .inl (R1_pos h)
      · exact .inr ⟨_, tallyAt_pos h⟩
    · exact .inr ⟨_, tallyAt_pos h⟩
  · exact .inr ⟨_, tallyAt_pos h⟩

omit [FloatOps F] in
/-- A wait on a cell at level 0 (a staging cell, a departure cell) is below everything a device can owe. -/
theorem mayWait_low (c : Dev nD) (sm : SemLoc sig) (hsm : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨d, j, rfl⟩ | ⟨d, rfl⟩ <;> exact Finset.mem_singleton_self _)
      (fun p hp => by rw [Finset.mem_singleton.mp hp]; exact le_of_eq hsm)
      (fun g u hg => by
        rcases O₀_pos hg with ⟨d, j, rfl⟩ | ⟨d, rfl⟩
        · rw [lv_recv]; decide
        · rw [lv_bar]; decide)
  · rw [MayWait_zero]; iintro -; iempintro

omit [FloatOps F] in
/-- At its barrier wait a device owes arrival credit only: arrival cells, above its barrier cell. -/
theorem mayWait_bar (c : Dev nD) :
    (levAts L lv : sProp 𝕄) ⊢ MayWait (c : Thread nD τ) (.reg barS) () (R1 c) :=
  MayOwe.of_cut (L := L) (lev := lv) 1 (fun p hp => by rw [Finset.mem_singleton.mp hp, L_tc]; exact Finset.mem_singleton_self _)
    (fun g u hg => by obtain ⟨d, j, rfl⟩ := R1_pos hg; exact Finset.mem_singleton_self _)
    (fun p hp => by rw [Finset.mem_singleton.mp hp]; exact le_of_eq (lv_bar c))
    (fun g u hg => by obtain ⟨d, j, rfl⟩ := R1_pos hg; rw [lv_recv]; decide)

end Cert.KernelIdealProof

end
-- ==== Proof.KernelIdealGhost.lean ====
/-
  The ghost state a device starts from, the pipeline's proof data, and one device's body run from them.
-/
import proofs.«900376_g7700000000000377_dist_mean_ax0_shard0_i_m512_n256_v7x_i4_f32_1_alg».proof.Proof.KernelIdealCells

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Every cell's invariant under the names `K` the launch allocated them at, and that every cell is at round 0. -/
def records (K : Dev nD × Fin 7 → ℕ) : sProp 𝕄 :=
  iprop((bigSep Finset.univ fun ck : Dev nD × Fin 7 => cellInv ER (rd m ρ) (K ck) (kcell ck))
    ∗ bigSep Finset.univ fun ck : Dev nD × Fin 7 => reached ER (kcell ck) 0)

instance records_persistent (K : Dev nD × Fin 7 → ℕ) : BI.Persistent (records m ρ K) := by unfold records; infer_instance

/-- The tokens of the nine duties device `c` pays: one on each other device's barrier cell, one on the arrival cell
    each of its copies credits, one on each of its own departure cells. -/
def payToks (c : Dev nD) : sProp 𝕄 :=
  iprop(dutyTok ER (cell (sh c 1) 0) 0 0 ∗ dutyTok ER (cell (sh c 2) 0) 0 1 ∗ dutyTok ER (cell (sh c 3) 0) 0 2
    ∗ dutyTok ER (cell (sh c 2) 5) 0 0 ∗ dutyTok ER (cell (sh c 1) 6) 0 0 ∗ dutyTok ER (cell (sh c 3) 4) 0 0
    ∗ dutyTok ER (cell c 1) 0 0 ∗ dutyTok ER (cell c 2) 0 0 ∗ dutyTok ER (cell c 3) 0 0)

/-- Device `c`'s positions: round 0 of each of its seven cells. -/
def posns (c : Dev nD) : sProp 𝕄 :=
  iprop(atPos ER (cell c 0) 0 ∅ 0 ∗ atPos ER (cell c 1) 0 ∅ 0 ∗ atPos ER (cell c 2) 0 ∅ 0 ∗ atPos ER (cell c 3) 0 ∅ 0
    ∗ atPos ER (cell c 4) 0 ∅ 0 ∗ atPos ER (cell c 5) 0 ∅ 0 ∗ atPos ER (cell c 6) 0 ∅ 0)

def ghost (K : Dev nD × Fin 7 → ℕ) (c : Dev nD) : sProp 𝕄 := iprop(records m ρ K ∗ posns c ∗ payToks c)

/-- The credit other devices owe device `c`'s cells: three units on its barrier cell, a row's on each arrival cell. -/
def creds (c : Dev nD) : sProp 𝕄 :=
  iprop(cred (tallyAt (cell c 0) () 3) ∗ cred (tallyAt (cell c 4) () N) ∗ cred (tallyAt (cell c 5) () N) ∗ cred (tallyAt (cell c 6) () N))

def start (c : Dev nD) : sProp 𝕄 := iprop((∃ K, ghost m ρ K c) ∗ creds c ∗ levAts L lv)

def Φ₀ (c : Dev nD) : sProp 𝕄 := iprop(start m ρ c ∗ ∃ f : Buf (Elt F) (cLoc c), (cLoc c ↦{fullShare} f))
/-- After the point: the scratch buffer whole again, the six own semaphores at zero, closed. -/
def Φ₁ (c : Dev nD) : sProp 𝕄 :=
  iprop((∃ f : Buf (Elt F) (cLoc c), (cLoc c ↦{fullShare} f))
    ∗ semVal (cell c 1) 0 ∗ semVal (cell c 2) 0 ∗ semVal (cell c 3) 0 ∗ semVal (cell c 4) 0 ∗ semVal (cell c 5) 0 ∗ semVal (cell c 6) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 7 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ creds c ∗ levAts L lv ∗ ∃ f : Buf (Elt F) (cLoc c), (cLoc c ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xblk m ρ c) ∗ stg c cc0_stg1_0 (outAt m ρ c))

end Body

/-! ## Records, rows, shares -/

theorem inv_at (K : Dev nD × Fin 7 → ℕ) (ck : Dev nD × Fin 7) :
    (bigSep Finset.univ fun ck : Dev nD × Fin 7 => (cellInv ER (rd m ρ) (K ck) (kcell ck) : sProp 𝕄)) ⊢ cellInv ER (rd m ρ) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

theorem rows_union (c : Dev nD) :
    Finset.univ.biUnion (fun s : Fin 4 => (rowM s).view.set) = (Finset.univ : Finset (Idx (cLoc c))) := by
  rw [← rowRect_cover]; exact Finset.biUnion_congr rfl fun s _ => rowM_set s

theorem rows_disjoint : ∀ s ∈ (Finset.univ : Finset (Fin 4)), ∀ t ∈ (Finset.univ : Finset (Fin 4)), s ≠ t →
    Disjoint (rowM s).view.set (rowM t).view.set := fun s _ t _ h => by
  rw [rowM_set, rowM_set]; exact rowRect_disjoint h

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- The scratch buffer is its four rows. -/
theorem rows_split (c : Dev nD) (q : PosShare TreeShare) (f : Buf (Elt F) (cLoc c)) :
    (cLoc c ↦{q} f : sProp 𝕄) = iprop(rowPts c 0 q f ∗ rowPts c 1 q f ∗ rowPts c 2 q f ∗ rowPts c 3 q f) := by
  show pointsTo (cLoc c) Finset.univ q f = _
  rw [← rows_union c, pointsTo_biUnion _ _ rows_disjoint, bigSep_fin4]
  rfl

omit [FloatOps F] in
/-- Four rows at whatever contents are the buffer at some contents. -/
theorem rows_join (c : Dev nD) (f0 f1 f2 f3 : Buf (Elt F) (cLoc c)) :
    iprop(rowPts c 0 fullShare f0 ∗ rowPts c 1 fullShare f1 ∗ rowPts c 2 fullShare f2 ∗ rowPts c 3 fullShare f3)
      ⊢ (iprop(∃ g : Buf (Elt F) (cLoc c), (cLoc c ↦{fullShare} g)) : sProp 𝕄) := by
  let g : Buf (Elt F) (cLoc c) := ((fun i : S4x1x256.Idx => if (i 0).val = 0 then f0 i else if (i 0).val = 1 then f1 i else if (i 0).val = 2 then f2 i else f3 i) : S4x1x256.Idx → Elt F .f32)
  have e0 : (rowPts c 0 fullShare f0 : sProp 𝕄) = rowPts c 0 fullShare g := by
    unfold rowPts; exact pointsTo_congr fun i hi => by
      rw [rowM_set] at hi; have h : (i 0).val = 0 := mem_rowRect.mp hi
      show f0 i = if (i 0).val = 0 then f0 i else _
      rw [if_pos h]
  have e1 : (rowPts c 1 fullShare f1 : sProp 𝕄) = rowPts c 1 fullShare g := by
    unfold rowPts; exact pointsTo_congr fun i hi => by
      rw [rowM_set] at hi; have h : (i 0).val = 1 := mem_rowRect.mp hi
      show f1 i = if (i 0).val = 0 then f0 i else if (i 0).val = 1 then f1 i else _
      rw [if_neg (by omega), if_pos h]
  have e2 : (rowPts c 2 fullShare f2 : sProp 𝕄) = rowPts c 2 fullShare g := by
    unfold rowPts; exact pointsTo_congr fun i hi => by
      rw [rowM_set] at hi; have h : (i 0).val = 2 := mem_rowRect.mp hi
      show f2 i = if (i 0).val = 0 then f0 i else if (i 0).val = 1 then f1 i else if (i 0).val = 2 then f2 i else _
      rw [if_neg (by omega), if_neg (by omega), if_pos h]
  have e3 : (rowPts c 3 fullShare f3 : sProp 𝕄) = rowPts c 3 fullShare g := by
    unfold rowPts; exact pointsTo_congr fun i hi => by
      rw [rowM_set] at hi; have h : (i 0).val = 3 := mem_rowRect.mp hi
      show f3 i = if (i 0).val = 0 then f0 i else if (i 0).val = 1 then f1 i else if (i 0).val = 2 then f2 i else f3 i
      rw [if_neg (by omega), if_neg (by omega), if_neg (by omega)]
  rw [e0, e1, e2, e3, ← rows_split c fullShare g]
  iintro H
  iexists g; iexact H

omit [FloatOps F] in
/-- Row 0 at the whole share is the three shares the three copies read it at. -/
theorem row0_shares (c : Dev nD) (f : Buf (Elt F) (cLoc c)) :
    (rowPts c 0 fullShare f : sProp 𝕄) ⊣⊢ iprop(rowPts c 0 (qS 0) f ∗ rowPts c 0 (qS 1) f ∗ rowPts c 0 (qS 2) f) := by
  unfold rowPts
  exact ⟨(pointsTo_share (PosShare.mem_left_op_right fullShare)).1.trans (sep_mono_right (pointsTo_share (PosShare.mem_left_op_right fullShare.right)).1),
    (sep_mono_right (pointsTo_share (PosShare.mem_left_op_right fullShare.right)).2).trans (pointsTo_share (PosShare.mem_left_op_right fullShare)).2⟩

/-- Row 0 after the store of the column sums, whatever the buffer held, is row 0 at the fixed contents. -/
theorem row0_stored (c : Dev nD) (f : Buf (Elt F) (cLoc c)) :
    (rowPts c 0 fullShare ((cM.access (rowRect 0) : View sig .tc _ _ _).write (Elt F) f (colsum3 m ρ c) Finset.univ) : sProp 𝕄)
      = rowPts c 0 fullShare (row0F m ρ c) := by
  unfold rowPts row0F
  refine pointsTo_congr fun i hi => ?_
  rw [rowM_set] at hi
  obtain ⟨y, rfl⟩ := View.exists_emb_of_mem_set (cM.access (rowRect 0) : View sig .tc _ _ _) (i := i)
    (by rw [show (cM.access (rowRect 0) : View sig .tc _ _ _).set = (rowRect 0).set from View.set_slice_whole _ _]; exact hi)
  rw [View.write_emb_of_mem _ _ (Finset.mem_univ _), View.write_emb_of_mem _ _ (Finset.mem_univ _)]

/-! ## The schedule's tables at the cells a device touches -/

section Tables
variable (c : Dev nD)

theorem t_duties_1 : (rd m ρ).duties (cell c 1) 0 = {0} := duties_x m ρ c 1 (by decide)
theorem t_duties_2 : (rd m ρ).duties (cell c 2) 0 = {0} := duties_x m ρ c 2 (by decide)
theorem t_duties_3 : (rd m ρ).duties (cell c 3) 0 = {0} := duties_x m ρ c 3 (by decide)
theorem t_duties_4 : (rd m ρ).duties (cell c 4) 0 = {0} := duties_x m ρ c 4 (by decide)
theorem t_duties_5 : (rd m ρ).duties (cell c 5) 0 = {0} := duties_x m ρ c 5 (by decide)
theorem t_duties_6 : (rd m ρ).duties (cell c 6) 0 = {0} := duties_x m ρ c 6 (by decide)
theorem t_amount_1 (e : Fin 3) : (rd m ρ).amount (cell c 1) 0 e = N := amount_x m ρ c 1 (by decide) e
theorem t_amount_2 (e : Fin 3) : (rd m ρ).amount (cell c 2) 0 e = N := amount_x m ρ c 2 (by decide) e
theorem t_amount_3 (e : Fin 3) : (rd m ρ).amount (cell c 3) 0 e = N := amount_x m ρ c 3 (by decide) e
theorem t_amount_4 (e : Fin 3) : (rd m ρ).amount (cell c 4) 0 e = N := amount_x m ρ c 4 (by decide) e
theorem t_amount_5 (e : Fin 3) : (rd m ρ).amount (cell c 5) 0 e = N := amount_x m ρ c 5 (by decide) e
theorem t_amount_6 (e : Fin 3) : (rd m ρ).amount (cell c 6) 0 e = N := amount_x m ρ c 6 (by decide) e
theorem t_expect_1 : (rd m ρ).expect (cell c 1) 0 = N := expect_x m ρ c 1 (by decide)
theorem t_expect_2 : (rd m ρ).expect (cell c 2) 0 = N := expect_x m ρ c 2 (by decide)
theorem t_expect_3 : (rd m ρ).expect (cell c 3) 0 = N := expect_x m ρ c 3 (by decide)
theorem t_expect_4 : (rd m ρ).expect (cell c 4) 0 = N := expect_x m ρ c 4 (by decide)
theorem t_expect_5 : (rd m ρ).expect (cell c 5) 0 = N := expect_x m ρ c 5 (by decide)
theorem t_expect_6 : (rd m ρ).expect (cell c 6) 0 = N := expect_x m ρ c 6 (by decide)

/-- What device `c`'s three signals hand over: its rows 1, 2, 3, and that it stands at round 0 of its arrival cells. -/
theorem t_pay_sig1 : (rd m ρ).payload (cell (sh c 1) 0) 0 0 = iprop((∃ f, rowPts c 1 fullShare f) ∗ reached ER (cell c 4) 0) := by
  rw [payload_cell]; show barPay (sh c 1) 0 = _; unfold barPay
  rw [show sh (sh c 1) (3 - (0 : Fin 3).val) = c from by rw [sh_sh]; exact sh_four c]; rfl
theorem t_pay_sig2 : (rd m ρ).payload (cell (sh c 2) 0) 0 1 = iprop((∃ f, rowPts c 2 fullShare f) ∗ reached ER (cell c 5) 0) := by
  rw [payload_cell]; show barPay (sh c 2) 1 = _; unfold barPay
  rw [show sh (sh c 2) (3 - (1 : Fin 3).val) = c from by rw [sh_sh]; exact sh_four c]; rfl
theorem t_pay_sig3 : (rd m ρ).payload (cell (sh c 3) 0) 0 2 = iprop((∃ f, rowPts c 3 fullShare f) ∗ reached ER (cell c 6) 0) := by
  rw [payload_cell]; show barPay (sh c 3) 2 = _; unfold barPay
  rw [show sh (sh c 3) (3 - (2 : Fin 3).val) = c from by rw [sh_sh]; exact sh_four c]; rfl

/-- What the three signals to device `c` hand it: row 1 of c + 3, row 2 of c + 2, row 3 of c + 1, each with its owner at
    round 0 of the arrival cell the copy into that row credits. -/
theorem t_pay_own (d : Fin 3) : (rd m ρ).payload (cell c 0) 0 d = barPay c d := by rw [payload_cell]; rfl
theorem t_pay_send1 (e : Fin 3) : (rd m ρ).payload (cell c 1) 0 e = rowPts c 0 (qS 0) (row0F m ρ c) := by rw [payload_cell]; rfl
theorem t_pay_send2 (e : Fin 3) : (rd m ρ).payload (cell c 2) 0 e = rowPts c 0 (qS 1) (row0F m ρ c) := by rw [payload_cell]; rfl
theorem t_pay_send3 (e : Fin 3) : (rd m ρ).payload (cell c 3) 0 e = rowPts c 0 (qS 2) (row0F m ρ c) := by rw [payload_cell]; rfl
theorem t_pay_recv4 (e : Fin 3) : (rd m ρ).payload (cell c 4) 0 e = recvPay m ρ c 0 := by rw [payload_cell]; rfl
theorem t_pay_recv5 (e : Fin 3) : (rd m ρ).payload (cell c 5) 0 e = recvPay m ρ c 1 := by rw [payload_cell]; rfl
theorem t_pay_recv6 (e : Fin 3) : (rd m ρ).payload (cell c 6) 0 e = recvPay m ρ c 2 := by rw [payload_cell]; rfl

/-- The rest of the barrier cell's round, no duty taken: the three payloads. -/
theorem rest_bar : bigSep ((rd m ρ).duties (cell c 0) 0 \ ∅) (fun d => (rd m ρ).payload (cell c 0) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    t_pay_own, t_pay_own, t_pay_own]
  rfl
theorem rest_x (k : Fin 7) (hk : k ≠ 0) : bigSep ((rd m ρ).duties (cell c k) 0 \ ∅) (fun d => (rd m ρ).payload (cell c k) 0 d) = pay m ρ c k 0 := by
  rw [Finset.sdiff_empty, duties_x m ρ c k hk, bigSep_singleton, payload_cell]

end Tables

/-! ## The body -/

section Body2

variable (K : Dev nD × Fin 7 → ℕ)

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) :
    (xM : Memref sig .tc .vmem S512x256 .f32).view.readAt (Elt F) (Rect.unit (s := S512x256) ![0, 0] S512x256.size inb_S512x256_S512x256_0_0).toLoadRect f = f :=
  Memref.readAt_unit_zero (Elt F) cc0_stg0_0 hz2 _ f
omit [FloatOps F] in
theorem write_out (f w : (cc0_stg1_0 : Ref sig .tc).ty.Contents (Elt F)) :
    ((oM : Memref sig .tc .vmem S1x256 .f32).access (Rect.unit (s := S1x256) ![0, 0] S1x256.size inb_S1x256_S1x256_0_0) : View sig .tc _ _ _).write (Elt F) f w Finset.univ = w :=
  Memref.write_access_unit_zero_univ (Elt F) cc0_stg1_0 hz2 _ f w

omit [FloatOps F] in
/-- A load or store at row `s` goes through that row's elements. -/
theorem row_access_set (s : Fin 4) : (cM.access (rowRect s) : View sig .tc _ _ _).set = (rowM s).view.set := by
  rw [rowM_set]; exact View.set_slice_whole _ _

/-- The row a copy from device `c` leaves on device `c + dt` is what the arrival cell's duty hands over. -/
theorem recv_landed (c : Dev nD) (dt : ℕ) (j : Fin 3) (hj : dt + j.val + 1 = 4) (fd : Buf (Elt F) (cLoc (sh c dt))) :
    ((rowM j.succ).view.loc (sh c dt : Thread nD τ) ↦[(rowM j.succ).view.set]{fullShare}
        ((rowM j.succ).view.write (Elt F) fd ((rowM 0).view.read (Elt F) (row0F m ρ c)) Finset.univ) : sProp 𝕄)
      ⊢ recvPay m ρ (sh c dt) j := by
  unfold recvPay rowPts
  iintro H
  iexists _
  isplitl [H]; · iexact H
  ipureintro
  rw [View.read_write_univ, read_row0F, sh_sh, show dt + (j.val + 1) = 4 by omega, sh_four]

/-- `Rounds.wp_send_pointsTo` with the statement's device `n` substituted by the ring's name `c'` for it: a copy from `src` on
    `c` into `dst` on `c'`, departing on `sS` of `c`, arriving on `sR` of `c'`, each cell's one duty of round 0. -/
theorem wp_send_gen (c c' n : Dev nD) (hn : n = c') (src dst : Memref sig .tc .vmem S1x256 .f32) (sS sR : DmaSem sig) (κ₁ κ₂ : ℕ) (q : PosShare TreeShare)
    (fs : Buf (Elt F) (src.view.loc (c : Thread nD τ)))
    (hd₁ : (0 : Fin 3) ∈ (rd m ρ).duties ((c : Thread nD τ), .dma sS) 0) (hd₂ : (0 : Fin 3) ∈ (rd m ρ).duties ((c' : Thread nD τ), .dma sR) 0)
    (hN : dst.view.amount (.dma sR) = N)
    (hk₁ : (rd m ρ).amount ((c : Thread nD τ), .dma sS) 0 0 = N) (hk₂ : (rd m ρ).amount ((c' : Thread nD τ), .dma sR) 0 0 = N)
    (hp1 : (src.view.loc (c : Thread nD τ) ↦[src.view.set]{q} fs : sProp 𝕄) ⊢ (rd m ρ).payload ((c : Thread nD τ), .dma sS) 0 0)
    (hp2 : ∀ fd : Buf (Elt F) (dst.view.loc (c' : Thread nD τ)),
      (dst.view.loc (c' : Thread nD τ) ↦[dst.view.set]{fullShare} (dst.view.write (Elt F) fd (src.view.read (Elt F) fs) Finset.univ) : sProp 𝕄)
        ⊢ (rd m ρ).payload ((c' : Thread nD τ), .dma sR) 0 0)
    {hsc : (dst : Memref sig (Dev.tc n : Thread nD τ).2.kind .vmem S1x256 .f32).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (fn : Buf (Elt F) (dst.view.loc (c' : Thread nD τ))) (O₁ O : CellTallies nD τ sig Unit)
    (hO : O₁ = O + tallyAt ((c' : Thread nD τ), .dma sR) () N) (W : Waits sig Unit) :
    iprop(cellInv ER (rd m ρ) κ₁ ((c : Thread nD τ), .dma sS) ∗ cellInv ER (rd m ρ) κ₂ ((c' : Thread nD τ), .dma sR)
        ∗ (src.view.loc (c : Thread nD τ) ↦[src.view.set]{q} fs) ∗ (dst.view.loc (c' : Thread nD τ) ↦[dst.view.set]{fullShare} fn)
        ∗ owes (c : Thread nD τ) O₁ W
        ∗ dutyTok ER ((c : Thread nD τ), .dma sS) 0 0 ∗ reached ER ((c : Thread nD τ), .dma sS) 0
        ∗ dutyTok ER ((c' : Thread nD τ), .dma sR) 0 0 ∗ reached ER ((c' : Thread nD τ), .dma sR) 0)
      ⊢ iprop(((cred (tallyAt ((c : Thread nD τ), .dma sS) () N) ∗ owes (c : Thread nD τ) O W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn
  exact Rounds.wp_send_pointsTo 𝒱₀ ER (rd m ρ) (c : Thread nD τ) none (κ₁ := κ₁) (κ₂ := κ₂) (r₁ := 0) (r₂ := 0) (d₁ := 0) (d₂ := 0) (fd := fn)
    hd₁ hd₂ () () N hN hk₁ hk₂ O hO (W := W) hp1 (hp2 fn)

end Body2

end Cert.KernelIdealProof

end
-- ==== Proof.KernelIdealBody.lean ====
/-
  One device's body, run one rule per effect in program order: three signals that hand rows 1, 2, 3 of the scratch buffer to
  the devices that will overwrite them; the column sums stored in row 0; the wait for the three devices' signals, which
  brings their rows; three copies of row 0, each reading it at a third share; the six waits, which bring the shares back and
  the three rows landed; the sum of the four rows.
-/
import proofs.«900376_g7700000000000377_dist_mean_ax0_shard0_i_m512_n256_v7x_i4_f32_1_alg».proof.Proof.KernelIdealGhost

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body3

variable (K : Dev nD × Fin 7 → ℕ)

omit [FloatOps F] in
/-- A load at row `s` reads inside that row's elements. -/
theorem row_load_sub (s : Fin 4) : (cM : Memref sig .tc .vmem S4x1x256 .f32).view.setOn (rowRect s).toLoadRect.set ⊆ (rowM s).view.set := by
  rw [Memref.set_view_squeeze]; exact le_of_eq (View.set_slice _ _).symm

omit [FloatOps F] in
theorem rowPts_eq (c : Dev nD) (s : Fin 4) (q : PosShare TreeShare) (f : Buf (Elt F) (cLoc c)) :
    (rowPts c s q f : sProp 𝕄) = ((cM : Memref sig .tc .vmem S4x1x256 .f32).view.loc (c : Thread nD τ) ↦[(rowM s).view.set]{q} f) := rfl
omit [FloatOps F] in
theorem rowPts_eq_acc (c : Dev nD) (f : Buf (Elt F) (cLoc c)) :
    (rowPts c 0 fullShare f : sProp 𝕄) = ((cM.access (rowRect 0) : View sig .tc _ _ _).loc (c : Thread nD τ) ↦[(rowM 0).view.set]{fullShare} f) := rfl

theorem pay_send_eq1 (c : Dev nD) : pay m ρ c 1 0 = rowPts c 0 (qS 0) (row0F m ρ c) := rfl
theorem pay_send_eq2 (c : Dev nD) : pay m ρ c 2 0 = rowPts c 0 (qS 1) (row0F m ρ c) := rfl
theorem pay_send_eq3 (c : Dev nD) : pay m ρ c 3 0 = rowPts c 0 (qS 2) (row0F m ρ c) := rfl
theorem pay_recv_eq4 (c : Dev nD) : pay m ρ c 4 0 = iprop(∃ f, rowPts c 1 fullShare f ∗ ⌜(rowM 1).view.read (Elt F) f = colsum m ρ (sh c 1)⌝) := rfl
theorem pay_recv_eq5 (c : Dev nD) : pay m ρ c 5 0 = iprop(∃ f, rowPts c 2 fullShare f ∗ ⌜(rowM 2).view.read (Elt F) f = colsum m ρ (sh c 2)⌝) := rfl
theorem pay_recv_eq6 (c : Dev nD) : pay m ρ c 6 0 = iprop(∃ f, rowPts c 3 fullShare f ∗ ⌜(rowM 3).view.read (Elt F) f = colsum m ρ (sh c 3)⌝) := rfl

/-- The stored result is the mean of the four column sums, once each row is known to hold its device's. -/
theorem out_val (c : Dev nD) (g0 g1 g2 g3 : Buf (Elt F) (cLoc c))
    (h0 : (rowM 0).view.read (Elt F) g0 = colsum m ρ c) (h1 : (rowM 1).view.read (Elt F) g1 = colsum m ρ (sh c 1))
    (h2 : (rowM 2).view.read (Elt F) g2 = colsum m ρ (sh c 2)) (h3 : (rowM 3).view.read (Elt F) g3 = colsum m ρ (sh c 3)) :
    k0_pay1 ((cM : Memref sig .tc .vmem S4x1x256 .f32).view.readAt (Elt F) (rowRect 0).toLoadRect g0)
        ((cM : Memref sig .tc .vmem S4x1x256 .f32).view.readAt (Elt F) (rowRect 1).toLoadRect g1)
        ((cM : Memref sig .tc .vmem S4x1x256 .f32).view.readAt (Elt F) (rowRect 2).toLoadRect g2)
        ((cM : Memref sig .tc .vmem S4x1x256 .f32).view.readAt (Elt F) (rowRect 3).toLoadRect g3) = outAt m ρ c := by
  rw [pay1_eq]; unfold outAt; rw [← h0, ← h1, ← h2, ← h3]; rfl

/-- Owing nothing is what the proof data ask of the point's end. -/
theorem owes_done (c : Dev nD) (W : Waits sig Unit) : (owes (c : Thread nD τ) 0 W : sProp 𝕄) ⊢ (dats m ρ 0 c).owesAt () t₀.succ := by
  unfold Dat.owesAt Pipeline.owesWithin
  rw [show (dats m ρ 0 c).owed t₀.succ = 0 from rfl]
  iintro H
  iexists W
  isplitr; · ipureintro; exact fun _ _ => Or.inl trivial
  iexact H

theorem row0_stored' (c : Dev nD) (f : Buf (Elt F) (cLoc c)) :
    ((cM.access (rowRect 0) : View sig .tc _ _ _).loc (c : Thread nD τ) ↦[(rowM 0).view.set]{fullShare}
        ((cM.access (rowRect 0) : View sig .tc _ _ _).write (Elt F) f (k0_pay2 (xblk m ρ c)) Finset.univ) : sProp 𝕄)
      = rowPts c 0 fullShare (row0F m ρ c) :=
  (rowPts_eq_acc c _).symm.trans (row0_stored m ρ c f)

set_option maxHeartbeats 8000000 in
/-- The body on device `c`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost records posns payToks creds
  iintro ⟨⟨⟨⟨⟨#HI, #HR⟩, ⟨Ha0, Ha1, Ha2, Ha3, Ha4, Ha5, Ha6⟩, ⟨Tb1, Tb2, Tb3, Tr2, Tr1, Tr3, Ts0, Ts1, Ts2⟩⟩, ⟨Cb, Cr0, Cr1, Cr2⟩, #Hlev, ⟨%f0, Hscr⟩⟩,
    Ho, ⟨%d0, %g0, %hg0, Hx⟩, ⟨%d1, %g1, %hg1, Hout⟩⟩, Hk⟩
  have hx : g0 = xblk m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave Hrows := (Entails.of_eq (rows_split c fullShare f0)) $$ Hscr
  icases Hrows with ⟨Hr0, Hr1, Hr2, Hr3⟩
  simp only [dev1_eq c, dev2_eq c, dev3_eq c]
  -- the three signals: rows 1, 2, 3 handed to the devices whose copies will land in them
  iapply (Rounds.wp_signal 𝒱₀ ER (rd m ρ) (c : Thread nD τ) none (dst := (sh c 1 : Thread nD τ)) (κ := K (sh c 1, 0))
      (d := (0 : Fin 3)) (by rw [duties_bar]; exact Finset.mem_univ _) ((amount_bar m ρ (sh c 1) 0).trans (by decide)) () (B1 c) rfl)
    $$ [HO Tb1 Hr1]
  · isplitr; · iapply (inv_at m ρ K (sh c 1, 0)); iexact HI
    isplitl [HO]; · iexact HO
    isplitl [Tb1]; · iexact Tb1
    isplitl [Hr1]
    · rw [t_pay_sig1]
      isplitl [Hr1]; · iexists f0; iexact Hr1
      iapply (reached_at (F := F) (c, 4)); iexact HR
    · iapply (reached_at (F := F) (sh c 1, 0)); iexact HR
  iintro HO
  iapply (Rounds.wp_signal 𝒱₀ ER (rd m ρ) (c : Thread nD τ) none (dst := (sh c 2 : Thread nD τ)) (κ := K (sh c 2, 0))
      (d := (1 : Fin 3)) (by rw [duties_bar]; exact Finset.mem_univ _) ((amount_bar m ρ (sh c 2) 1).trans (by decide)) () (B2 c) rfl)
    $$ [HO Tb2 Hr2]
  · isplitr; · iapply (inv_at m ρ K (sh c 2, 0)); iexact HI
    isplitl [HO]; · iexact HO
    isplitl [Tb2]; · iexact Tb2
    isplitl [Hr2]
    · rw [t_pay_sig2]
      isplitl [Hr2]; · iexists f0; iexact Hr2
      iapply (reached_at (F := F) (c, 5)); iexact HR
    · iapply (reached_at (F := F) (sh c 2, 0)); iexact HR
  iintro HO
  iapply (Rounds.wp_signal 𝒱₀ ER (rd m ρ) (c : Thread nD τ) none (dst := (sh c 3 : Thread nD τ)) (κ := K (sh c 3, 0))
      (d := (2 : Fin 3)) (by rw [duties_bar]; exact Finset.mem_univ _) ((amount_bar m ρ (sh c 3) 2).trans (by decide)) () (R1 c) rfl)
    $$ [HO Tb3 Hr3]
  · isplitr; · iapply (inv_at m ρ K (sh c 3, 0)); iexact HI
    isplitl [HO]; · iexact HO
    isplitl [Tb3]; · iexact Tb3
    isplitl [Hr3]
    · rw [t_pay_sig3]
      isplitl [Hr3]; · iexists f0; iexact Hr3
      iapply (reached_at (F := F) (c, 6)); iexact HR
    · iapply (reached_at (F := F) (sh c 3, 0)); iexact HR
  iintro HO
  -- the block's rows summed into row 0
  iapply (wp_load 𝒱₀ (c : Thread nD τ) none Set.univ (m := xM) (Finset.subset_univ _)) $$ Hx; iintro Hx
  rw [read_x]
  ihave Hr0 := (Entails.of_eq (rowPts_eq c 0 fullShare f0)) $$ Hr0
  iapply (wp_load 𝒱₀ (c : Thread nD τ) none Set.univ (m := cM) (S := (rowM 0).view.set) (row_load_sub 0)) $$ Hr0; iintro Hr0
  ihave Hr0 := (Entails.of_eq ((rowPts_eq c 0 fullShare f0).symm.trans (rowPts_eq_acc c f0))) $$ Hr0
  iapply (wp_store 𝒱₀ (c : Thread nD τ) none Set.univ (m := cM) (r := rowRect 0) (Mk := Finset.univ) (S := (rowM 0).view.set) (le_of_eq (row_access_set 0))) $$ Hr0; iintro Hr0
  ihave Hr0 := (Entails.of_eq (row0_stored' m ρ c f0)) $$ Hr0
  -- the wait for the three signals: the three rows to overwrite come with it
  iapply (Rounds.wp_wait_rest_token 𝒱₀ ER (rd m ρ) (c : Thread nD τ) none (κ := K (c, 0))
      (wpE_semWait_eq 𝒱₀ (c : Thread nD τ) none Set.univ) (Set.mem_univ _) () (O := R1 c) (W := W) (R := 0) (m := 0) (T := ∅)
      (by rw [show ((c : Thread nD τ), SemLoc.reg barS) = cell c 0 from rfl, expect_bar]; decide)) $$ [Cb HO Ha0]
  · isplitr; · iapply (inv_at m ρ K (c, 0)); iexact HI
    isplitl [Cb]; · iexact Cb
    isplitl [HO]; · iexact HO
    isplitr; · iapply (mayWait_bar c); iexact Hlev
    iexact Ha0
  iintro ⟨HO, Ha0, -, Hpay⟩
  ihave Hp := (Entails.of_eq (rest_bar m ρ c)) $$ Hpay
  unfold barPay
  icases Hp with ⟨⟨⟨%fn3, Hn3⟩, #Rn3⟩, ⟨⟨%fn2, Hn2⟩, #Rn2⟩, ⟨%fn1, Hn1⟩, #Rn1⟩
  -- row 0 at three shares, one a copy
  ihave Hs := (row0_shares c (row0F m ρ c)).1 $$ Hr0
  icases Hs with ⟨Hq0, Hq1, Hq2⟩
  unfold rowPts
  unfold R1
  iapply (wp_send_gen m ρ c (sh c 2) _ (dev4_eq c) (rowM 0) (rowM 2) (sSem 1) (rSem 1) (K (c, 2)) (K (sh c 2, 5)) (qS 1) (row0F m ρ c)
      (by rw [show ((c : Thread nD τ), SemLoc.dma (sSem 1)) = cell c 2 from rfl, t_duties_2]; exact Finset.mem_singleton_self _)
      (by rw [show ((sh c 2 : Thread nD τ), SemLoc.dma (rSem 1)) = cell (sh c 2) 5 from rfl, t_duties_5]; exact Finset.mem_singleton_self _)
      rfl (t_amount_2 m ρ c 0) (t_amount_5 m ρ (sh c 2) 0)
      (by rw [show ((c : Thread nD τ), SemLoc.dma (sSem 1)) = cell c 2 from rfl, t_pay_send2]; unfold rowPts; exact BI.Entails.refl _)
      (fun fd => by rw [show ((sh c 2 : Thread nD τ), SemLoc.dma (rSem 1)) = cell (sh c 2) 5 from rfl, t_pay_recv5]; exact recv_landed m ρ c 2 1 (by decide) fd)
      fn2 (R2 c + tallyAt (cell (sh c 2) (rK 1)) () N) (R2 c) rfl _) $$ [Hq1 Hn2 HO Ts1 Tr2]
  · isplitr; · iapply (inv_at m ρ K (c, 2)); iexact HI
    isplitr; · iapply (inv_at m ρ K (sh c 2, 5)); iexact HI
    isplitl [Hq1]; · iexact Hq1
    isplitl [Hn2]; · iexact Hn2
    isplitl [HO]; · iexact HO
    isplitl [Ts1]; · iexact Ts1
    isplitr; · iapply (reached_at (F := F) (c, 2)); iexact HR
    isplitl [Tr2]; · iexact Tr2
    iexact Rn2
  iintro ⟨Cs2, HO⟩
  unfold R2
  iapply (wp_send_gen m ρ c (sh c 1) _ (dev5_eq c) (rowM 0) (rowM 3) (sSem 0) (rSem 2) (K (c, 1)) (K (sh c 1, 6)) (qS 0) (row0F m ρ c)
      (by rw [show ((c : Thread nD τ), SemLoc.dma (sSem 0)) = cell c 1 from rfl, t_duties_1]; exact Finset.mem_singleton_self _)
      (by rw [show ((sh c 1 : Thread nD τ), SemLoc.dma (rSem 2)) = cell (sh c 1) 6 from rfl, t_duties_6]; exact Finset.mem_singleton_self _)
      rfl (t_amount_1 m ρ c 0) (t_amount_6 m ρ (sh c 1) 0)
      (by rw [show ((c : Thread nD τ), SemLoc.dma (sSem 0)) = cell c 1 from rfl, t_pay_send1]; unfold rowPts; exact BI.Entails.refl _)
      (fun fd => by rw [show ((sh c 1 : Thread nD τ), SemLoc.dma (rSem 2)) = cell (sh c 1) 6 from rfl, t_pay_recv6]; exact recv_landed m ρ c 1 2 (by decide) fd)
      fn1 (R3 c + tallyAt (cell (sh c 1) (rK 2)) () N) (R3 c) rfl _) $$ [Hq0 Hn1 HO Ts0 Tr1]
  · isplitr; · iapply (inv_at m ρ K (c, 1)); iexact HI
    isplitr; · iapply (inv_at m ρ K (sh c 1, 6)); iexact HI
    isplitl [Hq0]; · iexact Hq0
    isplitl [Hn1]; · iexact Hn1
    isplitl [HO]; · iexact HO
    isplitl [Ts0]; · iexact Ts0
    isplitr; · iapply (reached_at (F := F) (c, 1)); iexact HR
    isplitl [Tr1]; · iexact Tr1
    iexact Rn1
  iintro ⟨Cs1, HO⟩
  unfold R3
  iapply (wp_send_gen m ρ c (sh c 3) _ (dev6_eq c) (rowM 0) (rowM 1) (sSem 2) (rSem 0) (K (c, 3)) (K (sh c 3, 4)) (qS 2) (row0F m ρ c)
      (by rw [show ((c : Thread nD τ), SemLoc.dma (sSem 2)) = cell c 3 from rfl, t_duties_3]; exact Finset.mem_singleton_self _)
      (by rw [show ((sh c 3 : Thread nD τ), SemLoc.dma (rSem 0)) = cell (sh c 3) 4 from rfl, t_duties_4]; exact Finset.mem_singleton_self _)
      rfl (t_amount_3 m ρ c 0) (t_amount_4 m ρ (sh c 3) 0)
      (by rw [show ((c : Thread nD τ), SemLoc.dma (sSem 2)) = cell c 3 from rfl, t_pay_send3]; unfold rowPts; exact BI.Entails.refl _)
      (fun fd => by rw [show ((sh c 3 : Thread nD τ), SemLoc.dma (rSem 0)) = cell (sh c 3) 4 from rfl, t_pay_recv4]; exact recv_landed m ρ c 3 0 (by decide) fd)
      fn3 (tallyAt (cell (sh c 3) (rK 0)) () N) (0) (zero_add _).symm _) $$ [Hq2 Hn3 HO Ts2 Tr3]
  · isplitr; · iapply (inv_at m ρ K (c, 3)); iexact HI
    isplitr; · iapply (inv_at m ρ K (sh c 3, 4)); iexact HI
    isplitl [Hq2]; · iexact Hq2
    isplitl [Hn3]; · iexact Hn3
    isplitl [HO]; · iexact HO
    isplitl [Ts2]; · iexact Ts2
    isplitr; · iapply (reached_at (F := F) (c, 3)); iexact HR
    isplitl [Tr3]; · iexact Tr3
    iexact Rn3
  iintro ⟨Cs3, HO⟩
  -- the six waits: each departure brings its share of row 0 back, each arrival a row landed
  iapply (Rounds.wp_wait_rest_token 𝒱₀ ER (rd m ρ) (c : Thread nD τ) none (κ := K (c, 2))
      (wpE_waitDma2_eq 𝒱₀ (c : Thread nD τ) none Set.univ) (Set.mem_univ _) () (O := 0) (R := 0) (m := 0) (T := ∅)
      (by rw [Nat.zero_add, show ((c : Thread nD τ), csem 2) = cell c 2 from rfl, t_expect_2])) $$ [Cs2 HO Ha2]
  · isplitr; · iapply (inv_at m ρ K (c, 2)); iexact HI
    isplitl [Cs2]; · iexact Cs2
    isplitl [HO]; · iexact HO
    isplitr; · rw [MayWait_zero]; iempintro
    iexact Ha2
  iintro ⟨HO, Ha2, -, Hpay⟩
  ihave P2 := (Entails.of_eq (rest_x m ρ c 2 (by decide))) $$ Hpay
  iapply (Rounds.wp_wait_rest_token 𝒱₀ ER (rd m ρ) (c : Thread nD τ) none (κ := K (c, 5))
      (wpE_waitDma2_eq 𝒱₀ (c : Thread nD τ) none Set.univ) (Set.mem_univ _) () (O := 0) (R := 0) (m := 0) (T := ∅)
      (by rw [Nat.zero_add, show ((c : Thread nD τ), csem 5) = cell c 5 from rfl, t_expect_5])) $$ [Cr1 HO Ha5]
  · isplitr; · iapply (inv_at m ρ K (c, 5)); iexact HI
    isplitl [Cr1]; · iexact Cr1
    isplitl [HO]; · iexact HO
    isplitr; · rw [MayWait_zero]; iempintro
    iexact Ha5
  iintro ⟨HO, Ha5, -, Hpay⟩
  ihave P5 := (Entails.of_eq (rest_x m ρ c 5 (by decide))) $$ Hpay
  iapply (Rounds.wp_wait_rest_token 𝒱₀ ER (rd m ρ) (c : Thread nD τ) none (κ := K (c, 1))
      (wpE_waitDma2_eq 𝒱₀ (c : Thread nD τ) none Set.univ) (Set.mem_univ _) () (O := 0) (R := 0) (m := 0) (T := ∅)
      (by rw [Nat.zero_add, show ((c : Thread nD τ), csem 1) = cell c 1 from rfl, t_expect_1])) $$ [Cs1 HO Ha1]
  · isplitr; · iapply (inv_at m ρ K (c, 1)); iexact HI
    isplitl [Cs1]; · iexact Cs1
    isplitl [HO]; · iexact HO
    isplitr; · rw [MayWait_zero]; iempintro
    iexact Ha1
  iintro ⟨HO, Ha1, -, Hpay⟩
  ihave P1 := (Entails.of_eq (rest_x m ρ c 1 (by decide))) $$ Hpay
  iapply (Rounds.wp_wait_rest_token 𝒱₀ ER (rd m ρ) (c : Thread nD τ) none (κ := K (c, 6))
      (wpE_waitDma2_eq 𝒱₀ (c : Thread nD τ) none Set.univ) (Set.mem_univ _) () (O := 0) (R := 0) (m := 0) (T := ∅)
      (by rw [Nat.zero_add, show ((c : Thread nD τ), csem 6) = cell c 6 from rfl, t_expect_6])) $$ [Cr2 HO Ha6]
  · isplitr; · iapply (inv_at m ρ K (c, 6)); iexact HI
    isplitl [Cr2]; · iexact Cr2
    isplitl [HO]; · iexact HO
    isplitr; · rw [MayWait_zero]; iempintro
    iexact Ha6
  iintro ⟨HO, Ha6, -, Hpay⟩
  ihave P6 := (Entails.of_eq (rest_x m ρ c 6 (by decide))) $$ Hpay
  iapply (Rounds.wp_wait_rest_token 𝒱₀ ER (rd m ρ) (c : Thread nD τ) none (κ := K (c, 3))
      (wpE_waitDma2_eq 𝒱₀ (c : Thread nD τ) none Set.univ) (Set.mem_univ _) () (O := 0) (R := 0) (m := 0) (T := ∅)
      (by rw [Nat.zero_add, show ((c : Thread nD τ), csem 3) = cell c 3 from rfl, t_expect_3])) $$ [Cs3 HO Ha3]
  · isplitr; · iapply (inv_at m ρ K (c, 3)); iexact HI
    isplitl [Cs3]; · iexact Cs3
    isplitl [HO]; · iexact HO
    isplitr; · rw [MayWait_zero]; iempintro
    iexact Ha3
  iintro ⟨HO, Ha3, -, Hpay⟩
  ihave P3 := (Entails.of_eq (rest_x m ρ c 3 (by decide))) $$ Hpay
  iapply (Rounds.wp_wait_rest_token 𝒱₀ ER (rd m ρ) (c : Thread nD τ) none (κ := K (c, 4))
      (wpE_waitDma2_eq 𝒱₀ (c : Thread nD τ) none Set.univ) (Set.mem_univ _) () (O := 0) (R := 0) (m := 0) (T := ∅)
      (by rw [Nat.zero_add, show ((c : Thread nD τ), csem 4) = cell c 4 from rfl, t_expect_4])) $$ [Cr0 HO Ha4]
  · isplitr; · iapply (inv_at m ρ K (c, 4)); iexact HI
    isplitl [Cr0]; · iexact Cr0
    isplitl [HO]; · iexact HO
    isplitr; · rw [MayWait_zero]; iempintro
    iexact Ha4
  iintro ⟨HO, Ha4, -, Hpay⟩
  ihave P4 := (Entails.of_eq (rest_x m ρ c 4 (by decide))) $$ Hpay
  ihave P1 := (Entails.of_eq (pay_send_eq1 m ρ c)) $$ P1
  ihave P2 := (Entails.of_eq (pay_send_eq2 m ρ c)) $$ P2
  ihave P3 := (Entails.of_eq (pay_send_eq3 m ρ c)) $$ P3
  ihave P4 := (Entails.of_eq (pay_recv_eq4 m ρ c)) $$ P4
  ihave P5 := (Entails.of_eq (pay_recv_eq5 m ρ c)) $$ P5
  ihave P6 := (Entails.of_eq (pay_recv_eq6 m ρ c)) $$ P6
  icases P4 with ⟨%w1, Hg1, %hw1⟩
  icases P5 with ⟨%w2, Hg2, %hw2⟩
  icases P6 with ⟨%w3, Hg3, %hw3⟩
  -- the six own cells close: their counters at zero are the device's again
  imod (Rounds.cell_close ER (rd m ρ) (Set.mem_univ (K (c, 1))) (fun h => h) (R := 0 + 1) (duties_later m ρ (cell c 1))) $$ [Ha1] with Hz1
  · isplitr; · iapply (inv_at m ρ K (c, 1)); iexact HI
    iexact Ha1
  imod (Rounds.cell_close ER (rd m ρ) (Set.mem_univ (K (c, 2))) (fun h => h) (R := 0 + 1) (duties_later m ρ (cell c 2))) $$ [Ha2] with Hz2
  · isplitr; · iapply (inv_at m ρ K (c, 2)); iexact HI
    iexact Ha2
  imod (Rounds.cell_close ER (rd m ρ) (Set.mem_univ (K (c, 3))) (fun h => h) (R := 0 + 1) (duties_later m ρ (cell c 3))) $$ [Ha3] with Hz3
  · isplitr; · iapply (inv_at m ρ K (c, 3)); iexact HI
    iexact Ha3
  imod (Rounds.cell_close ER (rd m ρ) (Set.mem_univ (K (c, 4))) (fun h => h) (R := 0 + 1) (duties_later m ρ (cell c 4))) $$ [Ha4] with Hz4
  · isplitr; · iapply (inv_at m ρ K (c, 4)); iexact HI
    iexact Ha4
  imod (Rounds.cell_close ER (rd m ρ) (Set.mem_univ (K (c, 5))) (fun h => h) (R := 0 + 1) (duties_later m ρ (cell c 5))) $$ [Ha5] with Hz5
  · isplitr; · iapply (inv_at m ρ K (c, 5)); iexact HI
    iexact Ha5
  imod (Rounds.cell_close ER (rd m ρ) (Set.mem_univ (K (c, 6))) (fun h => h) (R := 0 + 1) (duties_later m ρ (cell c 6))) $$ [Ha6] with Hz6
  · isplitr; · iapply (inv_at m ρ K (c, 6)); iexact HI
    iexact Ha6
  -- row 0 whole again; the four rows read and added
  ihave Hr0 := (row0_shares c (row0F m ρ c)).2 $$ [P1 P2 P3]
  · isplitl [P1]; · iexact P1
    isplitl [P2]; · iexact P2
    iexact P3
  ihave Hr0 := (Entails.of_eq (rowPts_eq c 0 fullShare (row0F m ρ c))) $$ Hr0
  iapply (wp_load 𝒱₀ (c : Thread nD τ) none Set.univ (m := cM) (S := (rowM 0).view.set) (row_load_sub 0)) $$ Hr0; iintro Hr0
  ihave Hg1 := (Entails.of_eq (rowPts_eq c 1 fullShare w1)) $$ Hg1
  iapply (wp_load 𝒱₀ (c : Thread nD τ) none Set.univ (m := cM) (S := (rowM 1).view.set) (row_load_sub 1)) $$ Hg1; iintro Hg1
  ihave Hg2 := (Entails.of_eq (rowPts_eq c 2 fullShare w2)) $$ Hg2
  iapply (wp_load 𝒱₀ (c : Thread nD τ) none Set.univ (m := cM) (S := (rowM 2).view.set) (row_load_sub 2)) $$ Hg2; iintro Hg2
  ihave Hg3 := (Entails.of_eq (rowPts_eq c 3 fullShare w3)) $$ Hg3
  iapply (wp_load 𝒱₀ (c : Thread nD τ) none Set.univ (m := cM) (S := (rowM 3).view.set) (row_load_sub 3)) $$ Hg3; iintro Hg3
  iapply (wp_load 𝒱₀ (c : Thread nD τ) none Set.univ (m := oM) (Finset.subset_univ _)) $$ Hout; iintro Hout
  iapply (wp_store 𝒱₀ (c : Thread nD τ) none Set.univ (m := oM) (r := Rect.unit (s := S1x256) ![0, 0] S1x256.size inb_S1x256_S1x256_0_0) (Mk := Finset.univ) (Finset.subset_univ _)) $$ Hout; iintro Hout
  rw [write_out, wp_ret]; imodintro
  iapply Hk
  unfold bodyPost Φ₁
  ihave Hr0 := (Entails.of_eq (rowPts_eq c 0 fullShare (row0F m ρ c)).symm) $$ Hr0
  ihave Hg1 := (Entails.of_eq (rowPts_eq c 1 fullShare w1).symm) $$ Hg1
  ihave Hg2 := (Entails.of_eq (rowPts_eq c 2 fullShare w2).symm) $$ Hg2
  ihave Hg3 := (Entails.of_eq (rowPts_eq c 3 fullShare w3).symm) $$ Hg3
  isplitl [Hr0 Hg1 Hg2 Hg3 Hz1 Hz2 Hz3 Hz4 Hz5 Hz6]
  · isplitl [Hr0 Hg1 Hg2 Hg3]
    · iapply (rows_join c (row0F m ρ c) w1 w2 w3)
      isplitl [Hr0]; · iexact Hr0
      isplitl [Hg1]; · iexact Hg1
      isplitl [Hg2]; · iexact Hg2
      iexact Hg3
    isplitl [Hz1]; · iexact Hz1
    isplitl [Hz2]; · iexact Hz2
    isplitl [Hz3]; · iexact Hz3
    isplitl [Hz4]; · iexact Hz4
    isplitl [Hz5]; · iexact Hz5
    iexact Hz6
  isplitl [HO]
  · iapply (owes_done m ρ c _); iexact HO
  isplitl [Hx]
  · iexists _; isplitr; · (ipureintro; rfl)
    iexact Hx
  iexists _; isplitr; · (ipureintro; exact out_val m ρ c _ _ _ _ (read_row0F m ρ c) hw1 hw2 hw3)
  iexact Hout

end Body3

section Obligation

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2⟩
      isplitl [H1]; · iexact H1
      isplitl [H2]; · iexact H2
      iexact Hscr
    isplitl [Ho]; · iexact Ho
    isplitl [Hx] <;> iassumption
  · iintro H; iexact H

end Obligation

end Cert.KernelIdealProof

end
-- ==== Proof.KernelIdealLaunch.lean ====
/-
  The launch: the ring's ghost state dealt to the four devices in one step (every device's cells allocated together, since
  each is credited by the others), the credit the launch hands each device for what the others owe it, and the run of the
  program: every weakly fair execution on the four devices terminates, with each device's result array at the mean of
  the column sums of the four blocks and its block of x unchanged.
-/
import proofs.«900376_g7700000000000377_dist_mean_ax0_shard0_i_m512_n256_v7x_i4_f32_1_alg».proof.Proof.KernelIdealBody

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own (scoped) semaphores, as the launch theorem indexes them: the three departures, the three arrivals. -/
abbrev osem : Fin 6 → SemLoc sig
  | 0 => csem 1 | 1 => csem 2 | 2 => csem 3 | 3 => csem 4 | 4 => csem 5 | 5 => csem 6

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_inj h2]
def ringCells : Finset (GSem nD τ sig) := Finset.univ.map ⟨kcell, kcell_injective⟩

/-- A device's own cells' duty tokens as minted, by (cell, duty): the barrier cell's three, one each for the six others. -/
abbrev tokIdx : Fin 9 → Fin 7 × Fin 3
  | 0 => (0, 0) | 1 => (0, 1) | 2 => (0, 2) | 3 => (1, 0) | 4 => (2, 0) | 5 => (3, 0) | 6 => (4, 0) | 7 => (5, 0) | 8 => (6, 0)
theorem tokIdx_inj : Function.Injective tokIdx := by decide
abbrev tokOf (cj : Dev nD × Fin 9) : GSem nD τ sig × ℕ × Fin 3 := (cell cj.1 (tokIdx cj.2).1, 0, (tokIdx cj.2).2)
theorem tokOf_injective : Function.Injective (tokOf : Dev nD × Fin 9 → GSem nD τ sig × ℕ × Fin 3) := by
  rintro ⟨c, j⟩ ⟨c', j'⟩ h
  have h1 : c = c' := congrArg (fun x : GSem nD τ sig × ℕ × Fin 3 => x.1.1.1) h
  subst h1
  have h2 : csem (tokIdx j).1 = csem (tokIdx j').1 := congrArg (fun x : GSem nD τ sig × ℕ × Fin 3 => x.1.2) h
  have h3 : (tokIdx j).2 = (tokIdx j').2 := congrArg (fun x : GSem nD τ sig × ℕ × Fin 3 => x.2.2) h
  rw [tokIdx_inj (Prod.ext (csem_inj h2) h3)]
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (cell c 0) 0 0 ∗ dutyTok ER (cell c 0) 0 1 ∗ dutyTok ER (cell c 0) 0 2
    ∗ dutyTok ER (cell c 1) 0 0 ∗ dutyTok ER (cell c 2) 0 0 ∗ dutyTok ER (cell c 3) 0 0
    ∗ dutyTok ER (cell c 4) 0 0 ∗ dutyTok ER (cell c 5) 0 0 ∗ dutyTok ER (cell c 6) 0 0)

/-- What the launch element deals device `c`. -/
def G (c : Dev nD) : sProp 𝕄 :=
  iprop((bigSep Finset.univ fun k : Fin 7 => roundState ER (rd m ρ) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin9]; rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (cell c 1) 0 ∗ semVal (cell c 2) 0 ∗ semVal (cell c 3) 0 ∗ semVal (cell c 4) 0 ∗ semVal (cell c 5) 0 ∗ semVal (cell c 6) 0) := by
  rw [Pipeline.ownSems0_eq_of_list c osem [0, 1, 2, 3, 4, 5] (by decide) (by decide)]; rfl
omit [FloatOps F] in
theorem unscopedSems0_eq (c : Dev nD) : (unscopedSems0 c : sProp 𝕄) = semVal (cell c 0) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt around the ring: the token of duty `d` of a barrier cell goes to its signaller, `3 - d` places on; an
    arrival cell's token to the device whose copy credits it; the departure cells' stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep',
    bigSep_univ_equiv (shE 1 (by decide)) (fun c : Dev nD => (dutyTok ER (cell c 0) 0 0 : sProp 𝕄)),
    bigSep_univ_equiv (shE 2 (by decide)) (fun c : Dev nD => (dutyTok ER (cell c 0) 0 1 : sProp 𝕄)),
    bigSep_univ_equiv (shE 3 (by decide)) (fun c : Dev nD => (dutyTok ER (cell c 0) 0 2 : sProp 𝕄)),
    bigSep_univ_equiv (shE 3 (by decide)) (fun c : Dev nD => (dutyTok ER (cell c 4) 0 0 : sProp 𝕄)),
    bigSep_univ_equiv (shE 2 (by decide)) (fun c : Dev nD => (dutyTok ER (cell c 5) 0 0 : sProp 𝕄)),
    bigSep_univ_equiv (shE 1 (by decide)) (fun c : Dev nD => (dutyTok ER (cell c 6) 0 0 : sProp 𝕄))]
  iintro ⟨B0, B1, B2, S1, S2, S3, V4, V5, V6⟩
  isplitl [B0]; · iexact B0
  isplitl [B1]; · iexact B1
  isplitl [B2]; · iexact B2
  isplitl [V5]; · iexact V5
  isplitl [V6]; · iexact V6
  isplitl [V4]; · iexact V4
  isplitl [S1]; · iexact S1
  isplitl [S2]; · iexact S2
  iexact S3

omit [FloatOps F] in
theorem bigSep_with_persistent' {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (rd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (rd m ρ) κ (kcell ck) : sProp 𝕄))) $$ HI
  icases HK with ⟨%K, #HI⟩
  ihave Htk := (toks_around (F := F)) $$ Htok
  iapply (bigSep_with_persistent' (R := records m ρ K) (Φ := fun c : Dev nD => iprop(posns c ∗ payToks c)) fun c _ => show iprop(records m ρ K ∗ (posns c ∗ payToks c)) ⊢ G' m ρ c from by
    unfold G' ghost
    iintro ⟨#HR', HP, HT⟩
    iexists K
    isplitr; · iexact HR'
    isplitl [HP] <;> iassumption)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ iprop(posns c ∗ payToks c) from Entails.of_eq (by unfold posns; rw [bigSep_fin7])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- What the launch hands device `c` for what the others owe its cells. -/
theorem creds_intro (c : Dev nD) : (Pipeline.launchCred O₀ c : sProp 𝕄) ⊢ creds c := by
  have e : (O₀ : Dev nD → CellTallies nD τ sig Unit)
      = fun d => ((((tallyAt (((sh d 3 : Dev nD) : Thread nD τ), csem 4) () N + tallyAt (((sh d 1 : Dev nD) : Thread nD τ), csem 6) () N)
          + tallyAt (((sh d 2 : Dev nD) : Thread nD τ), csem 5) () N) + tallyAt (((sh d 3 : Dev nD) : Thread nD τ), csem 0) () 1)
          + tallyAt (((sh d 2 : Dev nD) : Thread nD τ), csem 0) () 1) + tallyAt (((sh d 1 : Dev nD) : Thread nD τ), csem 0) () 1 := rfl
  rw [e, Pipeline.launchCred_add, Pipeline.launchCred_add, Pipeline.launchCred_add, Pipeline.launchCred_add, Pipeline.launchCred_add]
  iintro ⟨⟨⟨⟨⟨H4, H6⟩, H5⟩, Hb3⟩, Hb2⟩, Hb1⟩
  ihave C4 := (Pipeline.launchCred_tallyAt (csem 4) (fun d => sh d 3) (fun d => sh d 1) (fun d => by rw [sh_sh]; exact sh_four d) (fun d => by rw [sh_sh]; exact sh_four d) () N c) $$ H4
  ihave C6 := (Pipeline.launchCred_tallyAt (csem 6) (fun d => sh d 1) (fun d => sh d 3) (fun d => by rw [sh_sh]; exact sh_four d) (fun d => by rw [sh_sh]; exact sh_four d) () N c) $$ H6
  ihave C5 := (Pipeline.launchCred_tallyAt (csem 5) (fun d => sh d 2) (fun d => sh d 2) (fun d => by rw [sh_sh]; exact sh_four d) (fun d => by rw [sh_sh]; exact sh_four d) () N c) $$ H5
  ihave B3 := (Pipeline.launchCred_tallyAt (csem 0) (fun d => sh d 3) (fun d => sh d 1) (fun d => by rw [sh_sh]; exact sh_four d) (fun d => by rw [sh_sh]; exact sh_four d) () 1 c) $$ Hb3
  ihave B2 := (Pipeline.launchCred_tallyAt (csem 0) (fun d => sh d 2) (fun d => sh d 2) (fun d => by rw [sh_sh]; exact sh_four d) (fun d => by rw [sh_sh]; exact sh_four d) () 1 c) $$ Hb2
  ihave B1 := (Pipeline.launchCred_tallyAt (csem 0) (fun d => sh d 1) (fun d => sh d 3) (fun d => by rw [sh_sh]; exact sh_four d) (fun d => by rw [sh_sh]; exact sh_four d) () 1 c) $$ Hb1
  unfold creds
  isplitl [B1 B2 B3]
  · rw [show (tallyAt (cell c 0) () 3 : CellTallies nD τ sig Unit) = tallyAt (cell c 0) () 1 + (tallyAt (cell c 0) () 1 + tallyAt (cell c 0) () 1) from by
      rw [tallyAt_add, tallyAt_add]]
    iapply (cred_add _ _).2
    isplitl [B1]; · iexact B1
    iapply (cred_add _ _).2
    isplitl [B2] <;> iassumption
  isplitl [C4]; · iexact C4
  isplitl [C5] <;> iassumption

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  iintro ⟨⟨%f, Hr⟩, Hz⟩
  isplitr; · iempintro
  isplitl [Hz]; · iexact Hz
  iexists f; iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> rfl) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of @main terminates, and every final state has each device's result array and its block of `x` at the
    contents the proof data name. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The block of `x` after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-! ### The arrays after the run -/

omit [FloatOps F] in
/-- The result window's block is its whole array. -/
theorem read_whole_out (c : Dev nD) (t : Fin cfg0.N) (G : Buf (Elt F) ((cfg0.win (1 : Fin 2)).arr.view.loc (c : Thread nD τ))) :
    ((cfg0.win (1 : Fin 2)).blk t).view.read (Elt F) G = G := by
  rw [fin_N t]
  exact Memref.read_access_unit_zero (Elt F) main_v1 (off := fun a => win0_1.index t₀ a * win0_1.size a)
    (funext fun a => by show 0 * _ = 0; exact Nat.zero_mul _) _ G

theorem flushed_out (c : Dev nD) (t : Fin cfg0.N) : (dats m ρ 0 c).flushed (1 : Fin 2) t = outAt m ρ c := by
  rw [fin_N t]
  rfl

omit [FloatOps F] in
/-- A device's staged block of `x` is its argument array. -/
theorem xblk_eq (c : Dev nD) : xblk m ρ c = m ((c : Thread nD τ).loc main_arg0) := by
  unfold xblk
  exact Memref.read_access_unit_zero (Elt F) main_arg0 (off := fun a => win0_0.index (0 : Fin 1) a * win0_0.size a)
    (funext fun a => by show 0 * _ = 0; exact Nat.zero_mul _) _ _

/-- The result array after the run holds the mean of the four column sums. -/
theorem arrAt_out (c : Dev nD) : (dats m ρ 0 c).arrAt (1 : Fin 2) cfg0.N = outAt m ρ c :=
  (dats m ρ 0 c).arrAt_eq_of_cover (1 : Fin 2) (outAt m ρ c)
    (fun t _ => (flushed_out m ρ c t).trans (read_whole_out c t _).symm)
    (fun i => ⟨t₀, rfl, by
      show i ∈ ((Memref.whole main_v1 : Memref sig .tc .hbm _ _).view.slice (win0_1.rect t₀)).set
      rw [View.set_slice_whole]
      exact View.mem_set_unit_zero (funext fun a => by show 0 * _ = 0; exact Nat.zero_mul _) _ i⟩)

/-- The run, with each device's result named and its argument unchanged. -/
theorem run : θ_run defs (onTc (τ := τ) (main (F := F))) ⟨m, fun _ => 0, ρ⟩ (fun r => ∀ c : Dev nD,
    r.2.mem ((c.tc : Thread nD τ).loc main_v1) = outAt m ρ c
      ∧ r.2.mem ((c.tc : Thread nD τ).loc main_arg0) = m ((c.tc : Thread nD τ).loc main_arg0)) :=
  (θ_run defs _ _).mono (fun r h c => ⟨(h c (1 : Fin 2)).trans (arrAt_out m ρ c), (h c (0 : Fin 2)).trans (finalA_x m ρ c)⟩) (run_main m ρ)

end Cert.KernelIdealProof

end
-- ==== Proof.LibBatchNorm.lean ====
import Idealize.ShloMosaic.PureOps.Ideal
import Mathlib.Algebra.BigOperators.Fin
import Mathlib.Tactic

/-!
# Batch normalisation on the extended reals, for finite entries

A batch of extended reals that are all finite (each the image of a real number) has a mean and
a variance, and the two textbook ways of normalising it agree:

* the variance as the second moment minus the squared mean, and the normalisation as the affine
  map x ↦ x · scale + shift with scale = γ · rsqrt (var + ε), shift = β − mean · scale;
* the variance as the mean of the squared deviations, and the normalisation as
  ((x − mean) · rsqrt (var + ε)) · γ + β.

On the extended reals these identities fail at the infinities (⊤ − ⊤ is ⊥, 0 · ⊤ is 0), so every
statement here assumes finite entries: real witnesses are chosen, the identity is computed in ℝ,
and the coercion ℝ → EReal is pushed out through sums, products and differences.

The file also has two bookkeeping facts about sums that hold for all extended reals: a sum over
a · b rows regrouped into a blocks of b rows, and a running accumulator as a partial sum.
-/

namespace Cert.LibBatchNorm

noncomputable section

open Idealize.ShloMosaic

/-! ### Finite extended reals -/

/-- An extended real is finite when it is the image of a real number. -/
def IsFin (x : EReal) : Prop := ∃ a : ℝ, x = (a : EReal)

/-- The image of a real number is finite. -/
theorem isFin_coe (a : ℝ) : IsFin (a : EReal) := ⟨a, rfl⟩

/-- Zero is finite. -/
theorem isFin_zero : IsFin (0 : EReal) := ⟨0, rfl⟩

/-- One is finite. -/
theorem isFin_one : IsFin (1 : EReal) := ⟨1, rfl⟩

/-- A finite extended real is neither ⊥ nor ⊤. -/
theorem IsFin.ne_bot_top {x : EReal} (hx : IsFin x) : x ≠ ⊥ ∧ x ≠ ⊤ := by
  obtain ⟨a, rfl⟩ := hx
  exact ⟨EReal.coe_ne_bot a, EReal.coe_ne_top a⟩

/-- An extended real that is neither ⊥ nor ⊤ is finite. -/
theorem isFin_of_ne {x : EReal} (hb : x ≠ ⊥) (ht : x ≠ ⊤) : IsFin x :=
  ⟨x.toReal, (EReal.coe_toReal ht hb).symm⟩

/-- The sum of two finite extended reals is finite. -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- The difference of two finite extended reals is finite. -/
theorem IsFin.sub {x y : EReal} (hx : IsFin x) (hy : IsFin y) : IsFin (x - y) := by
  obtain ⟨a, rfl⟩ := hx
  obtain ⟨b, rfl⟩ := hy
  exact ⟨a - b, (EReal.coe_sub a b).symm⟩

/-- The product of two finite extended reals is finite. -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The negation of a finite extended real is finite. -/
theorem IsFin.neg {x : EReal} (hx : IsFin x) : IsFin (-x) := by
  obtain ⟨a, rfl⟩ := hx
  exact ⟨-a, (EReal.coe_neg a).symm⟩

/-- The larger of two finite extended reals is finite. -/
theorem IsFin.max {x y : EReal} (hx : IsFin x) (hy : IsFin y) : IsFin (max x y) := by
  rcases max_choice x y with h | h <;> rw [h] <;> assumption

/-- The smaller of two finite extended reals is finite. -/
theorem IsFin.min {x y : EReal} (hx : IsFin x) (hy : IsFin y) : IsFin (min x y) := by
  rcases min_choice x y with h | h <;> rw [h] <;> assumption

/-- A choice between a finite extended real and zero is finite. -/
theorem IsFin.ite_zero {x : EReal} (hx : IsFin x) (p : Prop) [Decidable p] :
    IsFin (if p then x else 0) := by
  split
  · exact hx
  · exact isFin_zero

/-- A choice between two finite extended reals is finite. -/
theorem IsFin.ite {x y : EReal} (hx : IsFin x) (hy : IsFin y) (p : Prop) [Decidable p] :
    IsFin (if p then x else y) := by
  split
  · exact hx
  · exact hy

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite extended reals is finite. -/
theorem isFin_sum {ι : Type*} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add
      (ih (fun i hi => h i (Finset.mem_insert_of_mem hi)))

/-- A finite extended real divided by a nonzero real is finite. -/
theorem IsFin.div_coe {x : EReal} (hx : IsFin x) {n : ℝ} (hn : n ≠ 0) :
    IsFin (Ideal.div x (n : EReal)) := by
  obtain ⟨a, rfl⟩ := hx
  rw [Ideal.div_coe hn]
  exact ⟨a * (1 / n), (EReal.coe_mul a (1 / n)).symm⟩

/-- Dividing the image of a real by a nonzero real is the image of the real quotient. -/
theorem div_coe_coe (a : ℝ) {n : ℝ} (hn : n ≠ 0) :
    Ideal.div (a : EReal) (n : EReal) = ((a / n : ℝ) : EReal) := by
  rw [Ideal.div_coe hn, ← EReal.coe_mul, mul_one_div]

/-- The reciprocal square root of a positive real is the image of the real reciprocal square root. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- Finite entries are the images of one real-valued function. -/
theorem exists_real_fun {ι : Type*} (y : ι → EReal) (hy : ∀ r, IsFin (y r)) :
    ∃ a : ι → ℝ, ∀ r, y r = (a r : EReal) :=
  ⟨fun r => (hy r).choose, fun r => (hy r).choose_spec⟩

/-! ### Mean and variance of a finite batch -/

section Batch

variable {ι : Type*} [Fintype ι]

/-- The mean of a batch: the sum of its entries divided by n. -/
abbrev mean (y : ι → EReal) (n : ℝ) : EReal := Ideal.div (∑ r, y r) (n : EReal)

/-- The variance as the second moment minus the squared mean. -/
abbrev varMoment (y : ι → EReal) (n : ℝ) : EReal :=
  Ideal.div (∑ r, y r * y r) (n : EReal) - mean y n * mean y n

/-- The variance as the mean of the squared deviations from the mean. -/
abbrev varCentered (y : ι → EReal) (n : ℝ) : EReal :=
  Ideal.div (∑ r, (y r - mean y n) * (y r - mean y n)) (n : EReal)

/-- The mean of the images of reals is the image of the real mean. -/
theorem mean_coe (a : ι → ℝ) {n : ℝ} (hn : n ≠ 0) :
    mean (fun r => (a r : EReal)) n = (((∑ r, a r) / n : ℝ) : EReal) := by
  rw [mean, ← coe_sum, div_coe_coe _ hn]

/-- The moment variance of the images of reals is the image of the real moment variance. -/
theorem varMoment_coe (a : ι → ℝ) {n : ℝ} (hn : n ≠ 0) :
    varMoment (fun r => (a r : EReal)) n
      = (((∑ r, a r * a r) / n - (∑ r, a r) / n * ((∑ r, a r) / n) : ℝ) : EReal) := by
  rw [varMoment, mean_coe a hn]
  simp only [← EReal.coe_mul]
  rw [← coe_sum, div_coe_coe _ hn, ← EReal.coe_sub]

/-- The centred variance of the images of reals is the image of the real centred variance. -/
theorem varCentered_coe (a : ι → ℝ) {n : ℝ} (hn : n ≠ 0) :
    varCentered (fun r => (a r : EReal)) n
      = (((∑ r, (a r - (∑ r, a r) / n) * (a r - (∑ r, a r) / n)) / n : ℝ) : EReal) := by
  rw [varCentered, mean_coe a hn]
  simp only [← EReal.coe_sub, ← EReal.coe_mul]
  rw [← coe_sum, div_coe_coe _ hn]

/-- For reals, the second moment minus the squared mean is the mean squared deviation. -/
theorem real_var_identity (a : ι → ℝ) {n : ℝ} (hn : n ≠ 0) (hcard : (Fintype.card ι : ℝ) = n) :
    (∑ r, a r * a r) / n - (∑ r, a r) / n * ((∑ r, a r) / n)
      = (∑ r, (a r - (∑ r, a r) / n) * (a r - (∑ r, a r) / n)) / n := by
  set S := ∑ r, a r with hS
  have h1 : ∑ r, (a r - S / n) * (a r - S / n)
      = (∑ r, a r * a r) - 2 * (S / n) * S + n * (S / n * (S / n)) := by
    have : ∀ r, (a r - S / n) * (a r - S / n)
        = a r * a r - 2 * (S / n) * a r + S / n * (S / n) := fun r => by ring
    simp only [this]
    rw [Finset.sum_add_distrib, Finset.sum_sub_distrib, ← Finset.mul_sum, Finset.sum_const,
      Finset.card_univ, nsmul_eq_mul, hcard]
  rw [h1]
  field_simp
  ring

variable (y : ι → EReal) (hy : ∀ r, IsFin (y r)) (n : ℝ) (hn : 0 < n)
  (hcard : (Fintype.card ι : ℝ) = n)

include hy hn in
/-- The mean of a finite batch is finite. -/
theorem mean_isFin : IsFin (mean y n) :=
  (isFin_sum _ _ (fun r _ => hy r)).div_coe hn.ne'

include hy hn hcard in
/-- Second moment minus squared mean equals mean squared deviation, for a finite batch of n entries. -/
theorem varMoment_eq_varCentered : varMoment y n = varCentered y n := by
  obtain ⟨a, ha⟩ := exists_real_fun y hy
  obtain rfl : y = fun r => (a r : EReal) := funext ha
  rw [varMoment_coe a hn.ne', varCentered_coe a hn.ne', real_var_identity a hn.ne' hcard]

include hy hn in
/-- The mean squared deviation of a finite batch is a nonnegative real. -/
theorem varCentered_nonneg : ∃ v : ℝ, 0 ≤ v ∧ varCentered y n = (v : EReal) := by
  obtain ⟨a, ha⟩ := exists_real_fun y hy
  obtain rfl : y = fun r => (a r : EReal) := funext ha
  refine ⟨_, ?_, varCentered_coe a hn.ne'⟩
  exact div_nonneg (Finset.sum_nonneg (fun r _ => mul_self_nonneg _)) hn.le

include hy hn hcard in
/-- The moment variance of a finite batch of n entries is a nonnegative real. -/
theorem varMoment_nonneg : ∃ v : ℝ, 0 ≤ v ∧ varMoment y n = (v : EReal) := by
  rw [varMoment_eq_varCentered y hy n hn hcard]
  exact varCentered_nonneg y hy n hn

include hy hn in
/-- The reciprocal square root of variance plus a positive ε is finite. -/
theorem rsqrt_var_isFin (e : ℝ) (he : 0 < e) :
    ∃ s : ℝ, Ideal.rsqrt (varCentered y n + (e : EReal)) = (s : EReal) := by
  obtain ⟨v, hv, hve⟩ := varCentered_nonneg y hy n hn
  rw [hve, ← EReal.coe_add, rsqrt_coe_pos (by linarith)]
  exact ⟨_, rfl⟩

include hy hn hcard in
/-- The affine normalisation with the moment variance equals the centred normalisation. -/
theorem normalize_eq (g b e : ℝ) (he : 0 < e) (r0 : ι) :
    y r0 * ((g : EReal) * Ideal.rsqrt (varMoment y n + (e : EReal)))
        + ((b : EReal) - mean y n * ((g : EReal) * Ideal.rsqrt (varMoment y n + (e : EReal))))
      = ((y r0 - mean y n) * Ideal.rsqrt (varCentered y n + (e : EReal))) * (g : EReal)
        + (b : EReal) := by
  rw [varMoment_eq_varCentered y hy n hn hcard]
  obtain ⟨s, hs⟩ := rsqrt_var_isFin y hy n hn e he
  obtain ⟨m, hm⟩ := mean_isFin y hy n hn
  obtain ⟨a, ha⟩ := hy r0
  rw [hs, hm, ha]
  simp only [← EReal.coe_mul, ← EReal.coe_sub, ← EReal.coe_add]
  congr 1
  ring

include hy hn hcard in
/-- The same identity with finite extended reals γ, β in place of images of reals. -/
theorem normalize_eq_of_isFin {γ β : EReal} (hγ : IsFin γ) (hβ : IsFin β) (e : ℝ) (he : 0 < e)
    (r0 : ι) :
    y r0 * (γ * Ideal.rsqrt (varMoment y n + (e : EReal)))
        + (β - mean y n * (γ * Ideal.rsqrt (varMoment y n + (e : EReal))))
      = ((y r0 - mean y n) * Ideal.rsqrt (varCentered y n + (e : EReal))) * γ + β := by
  obtain ⟨g, rfl⟩ := hγ
  obtain ⟨b, rfl⟩ := hβ
  exact normalize_eq y hy n hn hcard g b e he r0

include hy hn hcard in
/-- The affine normalisation of a finite batch by finite γ, β and positive ε is finite. -/
theorem normalize_isFin {γ β : EReal} (hγ : IsFin γ) (hβ : IsFin β) (e : ℝ) (he : 0 < e)
    (r0 : ι) :
    IsFin (y r0 * (γ * Ideal.rsqrt (varMoment y n + (e : EReal)))
        + (β - mean y n * (γ * Ideal.rsqrt (varMoment y n + (e : EReal))))) := by
  obtain ⟨s, hs⟩ := rsqrt_var_isFin y hy n hn e he
  rw [varMoment_eq_varCentered y hy n hn hcard, hs]
  have hm := mean_isFin y hy n hn
  exact ((hy r0).mul (hγ.mul (isFin_coe s))).add (hβ.sub (hm.mul (hγ.mul (isFin_coe s))))

end Batch

/-! ### Regrouping sums -/

/-- Row q of block t, in blocks of b rows, is a row below a · b. -/
theorem block_lt {a b : ℕ} (t : Fin a) (q : Fin b) : t.val * b + q.val < a * b :=
  calc t.val * b + q.val < t.val * b + b := Nat.add_lt_add_left q.isLt _
    _ = (t.val + 1) * b := by ring
    _ ≤ a * b := Nat.mul_le_mul_right b t.isLt

/-- A sum over a · b rows is the sum over a blocks of the sums over the b rows of each block. -/
theorem sum_blocks (a b : ℕ) (f : Fin (a * b) → EReal) :
    ∑ t : Fin a, ∑ q : Fin b, f ⟨t.val * b + q.val, block_lt t q⟩ = ∑ r : Fin (a * b), f r := by
  rw [← Fintype.sum_prod_type']
  refine Fintype.sum_equiv finProdFinEquiv _ _ (fun x => ?_)
  congr 1
  ext
  simp [finProdFinEquiv]
  ring

/-- A sum over the naturals below a · b, regrouped into a blocks of b consecutive naturals. -/
theorem sum_range_blocks (a b : ℕ) (f : ℕ → EReal) :
    ∑ t ∈ Finset.range a, ∑ q ∈ Finset.range b, f (t * b + q) = ∑ r ∈ Finset.range (a * b), f r := by
  induction a with
  | zero => simp
  | succ a ih =>
    rw [Finset.sum_range_succ, ih, Nat.succ_mul, Finset.sum_range_add]

/-- An accumulator started at 0 + s 0 and increased by s (k+1) at each step is the partial sum. -/
theorem acc_eq_sum (s acc : ℕ → EReal) (h0 : acc 0 = 0 + s 0)
    (hstep : ∀ k, acc (k + 1) = acc k + s (k + 1)) (k : ℕ) :
    acc k = ∑ i ∈ Finset.range (k + 1), s i := by
  induction k with
  | zero => simp [h0]
  | succ k ih => rw [hstep, ih]; exact (Finset.sum_range_succ s (k + 1)).symm

end

end Cert.LibBatchNorm
-- ==== Proof.MeanValue.lean ====
/-
  The value: at the extended reals, what every device's result array ends holding is the reference's mean.

  Device c's result is ((S c + S (c+1)) + S (c+2)) + S (c+3), times 2⁻¹¹, where S d is the column sums of the 512 rows of
  block d of x: rows 512·d .. 512·d + 511 of the whole array. The reference's is (0 + the sum of all 2048 rows) / 2048.
  Addition of extended reals is commutative and associative, so the four blocks' sums in any rotation are the sum over all
  rows regrouped into four blocks of 512; and dividing by 2048 is multiplying by the real 1/2048, which is what the word
  0x3A000000 denotes. No finiteness is used.
-/
import proofs.«900376_g7700000000000377_dist_mean_ax0_shard0_i_m512_n256_v7x_i4_f32_1_alg».proof.Proof.KernelIdealLaunch
import proofs.«900376_g7700000000000377_dist_mean_ax0_shard0_i_m512_n256_v7x_i4_f32_1_alg».proof.Proof.Gen.ReferenceIdeal.Read
import proofs.«900376_g7700000000000377_dist_mean_ax0_shard0_i_m512_n256_v7x_i4_f32_1_alg».proof.Proof.LibBatchNorm
import Idealize.ShloMosaic.Lib.ValueLayout
import Idealize.ShloMosaic.Lib.ValueIdx
import Idealize.ShloMosaic.PureOps.Ideal.Laws
import Idealize.ShloMosaic.Lib.Layout

noncomputable section

namespace Cert.MeanValue

open Idealize.ShloMosaic Idealize.ShloMosaic.ValueIdx Idealize.ShloMosaic.TcCoe Idealize.SL.Sem
open Cert.KernelIdealProof (sh colsum colsum3 xblk outAt mean4 xblk_eq)

/-! ## The two constants -/

/-- The reference's divisor denotes the real 2048; -/
theorem ofBits_2048 : Ideal.ofBits .f32 0x45000000#32 = ((2048 : ℝ) : EReal) := by
  simp [Ideal.ofBits, Ideal.ieee, -EReal.coe_mul]; norm_num
/-- the kernel's factor the real 1/2048. -/
theorem ofBits_inv2048 : Ideal.ofBits .f32 0x3A000000#32 = ((1 / 2048 : ℝ) : EReal) := by
  simp [Ideal.ofBits, Ideal.ieee, -EReal.coe_mul]; norm_num

/-! ## The kernel's side -/

/-- The column sums of a [512, 256] block, as the kernel computes and reshapes them, read at a column. -/
theorem colsum_of (x : Cert.KernelIdeal.S512x256.Idx → EReal) (u : Fin 1) (j : Fin 256) :
    (shapeCast Cert.KernelIdeal.S1x256
      (shapeCast Cert.KernelIdeal.S1x1x256
        (shapeCast Cert.KernelIdeal.S1x256
          (multiReduction (F := Ideal) (φ := .f32) .add [0] Cert.KernelIdeal.S256 (shapeCast Cert.KernelIdeal.S512x256 x Cert.KernelIdeal.Gen.shapeCasts_S512x256_S512x256) 0x00000000#32
            Cert.KernelIdeal.Gen.reduces_S512x256_S256 (.inl rfl) rfl)
          Cert.KernelIdeal.Gen.shapeCasts_S256_S1x256)
        Cert.KernelIdeal.Gen.shapeCasts_S1x256_S1x1x256)
      Cert.KernelIdeal.Gen.shapeCasts_S1x1x256_S1x256 (ix2 u j) : EReal)
      = ∑ k : Fin 512, x (ix2 k j) := by
  rw [shapeCast_1ab_ab_apply, shapeCast_ab_1ab_apply, shapeCast_a_1a_apply, shapeCast_self]
  refine (Ideal.multiReduction_add_single _ _ _ _ _ _).trans ?_
  show (∑ k : Fin 512, _) = _
  exact Finset.sum_congr rfl fun k _ => congrArg x (funext fun a => Fin.ext (by match a with | ⟨0, _⟩ => rfl | ⟨1, _⟩ => rfl))

variable (m : (ℓ : Loc Cert.KernelIdeal.nD Cert.KernelIdeal.τ Cert.KernelIdeal.sig) → Buf (Elt Ideal) ℓ) (ρ : Dev Cert.KernelIdeal.nD → PrngReg)

theorem colsum_apply (c : Dev Cert.KernelIdeal.nD) (u : Fin 1) (j : Fin 256) :
    (colsum (F := Ideal) m ρ c (ix2 u j) : EReal) = ∑ k : Fin 512, (show EReal from xblk (F := Ideal) m ρ c (ix2 k j)) :=
  colsum_of (xblk (F := Ideal) m ρ c) u j

/-! ## A block's rows in the whole array -/

theorem block_row (X : (⟨2, ![2048, 256]⟩ : Shape).Idx → EReal) (c : Fin 4) (k : Fin 512) (j : Fin 256) :
    (Layout.block ⟨2, ![512, 256]⟩ ⟨2, ![2048, 256]⟩ 0 4 c X) (ix2 k j) = X (ix2 (⟨c.val * 512 + k.val, Cert.LibBatchNorm.block_lt c k⟩ : Fin (4 * 512)) j) := by
  rw [Layout.block_apply]
  exact congrArg X (funext fun a => Fin.ext (by match a with | ⟨0, _⟩ => rfl | ⟨1, _⟩ => rfl))

/-! ## The reference's side -/

theorem ref_apply (X : (⟨Cert.ReferenceIdeal.S2048x256, .f32⟩ : BufTy).Contents (Elt Ideal)) (u : Fin 1) (j : Fin 256) :
    Cert.ReferenceIdeal.Read.val_main_v3 (F := Ideal) X (ix2 u j)
      = Ideal.div (0 + ∑ r : Fin 2048, (show EReal from X (ix2 r j))) ((2048 : ℝ) : EReal) := by
  rw [Cert.ReferenceIdeal.Read.val_main_v3_apply, Cert.ReferenceIdeal.Read.val_main_v1_apply, Cert.ReferenceIdeal.Read.val_main_v0_apply,
    Cert.ReferenceIdeal.Read.val_main_v2_apply, Cert.ReferenceIdeal.Read.val_main_cst_0_apply, Cert.ReferenceIdeal.Read.val_main_cst_apply]
  simp only [Ideal.hostDivf_def, Ideal.ofBits_def, Ideal.ofBits_zero_f32, ofBits_2048]
  refine congrArg (fun s => Ideal.div (0 + s) ((2048 : ℝ) : EReal)) (Finset.sum_congr rfl fun r _ => congrArg X (funext fun a => Fin.ext ?_))
  match a with
  | ⟨0, _⟩ => rfl
  | ⟨1, _⟩ => rfl

/-! ## The join -/

/-- Four blocks' sums, started at any block and taken around the ring, are the four in order. -/
theorem ring_sum (S : Fin 4 → EReal) (c : Fin 4) :
    ((S c + S (sh c 1)) + S (sh c 2)) + S (sh c 3) = ∑ t : Fin 4, S t := by
  rw [Fin.sum_univ_four]
  fin_cases c
  · show ((S 0 + S 1) + S 2) + S 3 = _; rfl
  · show ((S 1 + S 2) + S 3) + S 0 = _; ac_rfl
  · show ((S 2 + S 3) + S 0) + S 1 = _; ac_rfl
  · show ((S 3 + S 0) + S 1) + S 2 = _; ac_rfl

/-- Every device's result is the reference's, when each device's argument is its block of the reference's. -/
theorem out_eq_ref (X : (⟨Cert.ReferenceIdeal.S2048x256, .f32⟩ : BufTy).Contents (Elt Ideal))
    (hb : ∀ c : Dev Cert.KernelIdeal.nD, m ((c.tc : Thread Cert.KernelIdeal.nD Cert.KernelIdeal.τ).loc Cert.KernelIdeal.main_arg0)
      = Layout.block ⟨2, ![512, 256]⟩ ⟨2, ![2048, 256]⟩ 0 4 c X)
    (c : Dev Cert.KernelIdeal.nD) :
    outAt (F := Ideal) m ρ c = Cert.ReferenceIdeal.Read.val_main_v3 (F := Ideal) X := by
  funext i
  obtain ⟨u, j, rfl⟩ : ∃ (u : Fin 1) (j : Fin 256), i = ix2 u j := ⟨i 0, i 1, eq_ix2 i⟩
  have hS : ∀ d : Dev Cert.KernelIdeal.nD, (colsum (F := Ideal) m ρ d (ix2 u j) : EReal)
      = ∑ q : Fin 512, X (ix2 (⟨d.val * 512 + q.val, Cert.LibBatchNorm.block_lt (a := 4) d q⟩ : Fin (4 * 512)) j) := fun d => by
    rw [colsum_apply, xblk_eq, hb d]
    exact Finset.sum_congr rfl fun k _ => block_row X d k j
  rw [ref_apply]
  unfold outAt mean4
  rw [mulf_apply, addf_apply, addf_apply, addf_apply, broadcast_apply, hS, hS, hS, hS,
    ring_sum (fun d => ∑ q : Fin 512, X (ix2 (⟨d.val * 512 + q.val, Cert.LibBatchNorm.block_lt (a := 4) d q⟩ : Fin (4 * 512)) j)) c,
    Cert.LibBatchNorm.sum_blocks 4 512 (fun r => X (ix2 r j)), Ideal.div_coe (by norm_num : (2048 : ℝ) ≠ 0), zero_add]
  show _ * Ideal.ofBits .f32 0x3A000000#32 = _
  rw [ofBits_inv2048]

end Cert.MeanValue

end
-- ==== Proof.lean ====
/-
  The five claims for the ring mean.

  A kernel on four devices computes the mean over the 2048 rows of x, each device holding 512 of them: it sums its rows,
  sends the sums to the three other devices (after each has said, on the barrier semaphore, that it is ready to receive),
  adds the four and multiplies by 2⁻¹¹. The reference, on one device, sums all rows and divides by 2048.

  The frames of the two printed kernels are the ring protocol's run (Proof/Kernel*Launch.lean) with the values dropped; the
  reference's is its generated run. The idealization rewrote nothing, so `preserves` is trivial. `algebraic`: the kernel's
  run names every device's result (the mean of the four blocks' column sums, Proof/KernelIdealLaunch.lean `run`), the
  reference's run names its own, and Proof/MeanValue.lean shows the two are one function of the whole array.
-/
import proofs.«900376_g7700000000000377_dist_mean_ax0_shard0_i_m512_n256_v7x_i4_f32_1_alg».proof.Defs
import proofs.«900376_g7700000000000377_dist_mean_ax0_shard0_i_m512_n256_v7x_i4_f32_1_alg».proof.Proof.Gen.Kernel
import proofs.«900376_g7700000000000377_dist_mean_ax0_shard0_i_m512_n256_v7x_i4_f32_1_alg».proof.Proof.Gen.KernelIdeal
import proofs.«900376_g7700000000000377_dist_mean_ax0_shard0_i_m512_n256_v7x_i4_f32_1_alg».proof.Proof.Gen.ReferenceIdeal
import proofs.«900376_g7700000000000377_dist_mean_ax0_shard0_i_m512_n256_v7x_i4_f32_1_alg».proof.Proof.Gen.ReferenceIdeal.Run
import proofs.«900376_g7700000000000377_dist_mean_ax0_shard0_i_m512_n256_v7x_i4_f32_1_alg».proof.Proof.Gen.ReferenceIdeal.Read
import proofs.«900376_g7700000000000377_dist_mean_ax0_shard0_i_m512_n256_v7x_i4_f32_1_alg».proof.Proof.Gen.Pre_finite_inputs_Kernel
import proofs.«900376_g7700000000000377_dist_mean_ax0_shard0_i_m512_n256_v7x_i4_f32_1_alg».proof.Proof.Gen.Pre_finite_inputs_ReferenceIdeal
import proofs.«900376_g7700000000000377_dist_mean_ax0_shard0_i_m512_n256_v7x_i4_f32_1_alg».proof.Proof.KernelLaunch
import proofs.«900376_g7700000000000377_dist_mean_ax0_shard0_i_m512_n256_v7x_i4_f32_1_alg».proof.Proof.KernelIdealLaunch
import proofs.«900376_g7700000000000377_dist_mean_ax0_shard0_i_m512_n256_v7x_i4_f32_1_alg».proof.Proof.MeanValue
import Idealize.ShloMosaic.Adequacy
import Idealize.ShloMosaic.Init

noncomputable section

namespace Cert.Proof

open Idealize.ShloMosaic Idealize.SL.Sem

/-- The word-level kernel runs and leaves its arguments unchanged: the protocol's run with the result dropped. -/
theorem frame_k : Cert.frame_Kernel := fun m ρ _ =>
  (θ_run Cert.Kernel.defs _ _).mono (fun _ h c => (h c).2) (Cert.KernelProof.run (F := Bits) m ρ)

/-- The same of the idealized kernel. -/
theorem frame_ki : Cert.frame_KernelIdeal := fun m ρ _ =>
  (θ_run Cert.KernelIdeal.defs _ _).mono (fun _ h c => (h c).2) (Cert.KernelIdealProof.run (F := Ideal) m ρ)

/-- The reference's generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Each device's result ends at the reference's, both arguments unchanged. -/
theorem algebraic : Cert.algebraic_KernelIdeal_ReferenceIdeal := by
  intro m ρ m' ρ' _ hagree
  refine ⟨Cert.ReferenceIdeal.Read.val_main_v3 (F := Ideal) (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h c).1.trans (Cert.MeanValue.out_eq_ref m ρ _ hagree c), (h c).2⟩)
      (Cert.KernelIdealProof.run (F := Ideal) m ρ)
  · exact (θ_run Cert.ReferenceIdeal.defs _ _).mono
      (fun _ h => ⟨(h 0).1.trans (Cert.ReferenceIdeal.Read.val_main_v3_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
